-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_

variable [Facts]

def fn {F : FTy → Type} [FloatOps F] (main_arg0 : FVec F S50000x128 .f32) (main_arg1 : IVec S800000 32) (main_arg2 : IVec S800000 32) (main_arg3 : FVec F S128x128 .f32) (main_arg4 : FVec F S3x128x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S3x128x128 .f32 := Host.absf main_arg4
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  main_v13
-- ==== Kernel.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S2000x128 : Shape := ⟨2, ![2000, 128]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128x128 : Shape := ⟨3, ![1, 128, 128]⟩
abbrev S2000x1 : Shape := ⟨2, ![2000, 1]⟩
abbrev S50000x512 : Shape := ⟨2, ![50000, 512]⟩

abbrev nBuf : Space → Nat
  | .hbm => 75
  | .vmem => 26
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S3x128x128, .f32⟩
  | .hbm, ⟨5, _⟩ => ⟨S50000x128, .bf16⟩
  | .hbm, ⟨6, _⟩ => ⟨S_, .f32⟩
  | .hbm, ⟨7, _⟩ => ⟨S800000, .f32⟩
  | .hbm, ⟨8, _⟩ => ⟨S_, .f32⟩
  | .hbm, ⟨9, _⟩ => ⟨S50000, .f32⟩
  | .hbm, ⟨10, _⟩ => ⟨S800000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000x1, .f32⟩
  | .hbm, ⟨19, _⟩ => ⟨S50000x128, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x128, .bf16⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S1x128x128, .f32⟩
  | .hbm, ⟨35, _⟩ => ⟨S128x128, .f32⟩
  | .hbm, ⟨36, _⟩ => ⟨S50000x128, .bf16⟩
  | .hbm, ⟨37, _⟩ => ⟨S50000x128, .f32⟩
  | .hbm, ⟨38, _⟩ => ⟨S_, .i32⟩
  | .hbm, ⟨39, _⟩ => ⟨S800000, .i32⟩
  | .hbm, ⟨40, _⟩ => ⟨S800000, .i1⟩
  | .hbm, ⟨41, _⟩ => ⟨S_, .i32⟩
  | .hbm, ⟨42, _⟩ => ⟨S800000, .i32⟩
  | .hbm, ⟨43, _⟩ => ⟨S800000, .i32⟩
  | .hbm, ⟨44, _⟩ => ⟨S800000, .i32⟩
  | .hbm, ⟨45, _⟩ => ⟨S800000x1, .i32⟩
  | .hbm, ⟨46, _⟩ => ⟨S800000x128, .bf16⟩
  | .hbm, ⟨47, _⟩ => ⟨S800000x128, .f32⟩
  | .hbm, ⟨48, _⟩ => ⟨S_, .f32⟩
  | .hbm, ⟨49, _⟩ => ⟨S50000x128, .f32⟩
  | .hbm, ⟨50, _⟩ => ⟨S800000x1, .i32⟩
  | .hbm, ⟨51, _⟩ => ⟨S50000x128, .f32⟩
  | .hbm, ⟨52, _⟩ => ⟨S1x128x128, .f32⟩
  | .hbm, ⟨53, _⟩ => ⟨S128x128, .f32⟩
  | .hbm, ⟨54, _⟩ => ⟨S50000x128, .bf16⟩
  | .hbm, ⟨55, _⟩ => ⟨S50000x128, .f32⟩
  | .hbm, ⟨56, _⟩ => ⟨S_, .i32⟩
  | .hbm, ⟨57, _⟩ => ⟨S800000, .i32⟩
  | .hbm, ⟨58, _⟩ => ⟨S800000, .i1⟩
  | .hbm, ⟨59, _⟩ => ⟨S_, .i32⟩
  | .hbm, ⟨60, _⟩ => ⟨S800000, .i32⟩
  | .hbm, ⟨61, _⟩ => ⟨S800000, .i32⟩
  | .hbm, ⟨62, _⟩ => ⟨S800000, .i32⟩
  | .hbm, ⟨63, _⟩ => ⟨S800000x1, .i32⟩
  | .hbm, ⟨64, _⟩ => ⟨S800000x128, .bf16⟩
  | .hbm, ⟨65, _⟩ => ⟨S800000x128, .f32⟩
  | .hbm, ⟨66, _⟩ => ⟨S_, .f32⟩
  | .hbm, ⟨67, _⟩ => ⟨S50000x128, .f32⟩
  | .hbm, ⟨68, _⟩ => ⟨S800000x1, .i32⟩
  | .hbm, ⟨69, _⟩ => ⟨S50000x128, .f32⟩
  | .hbm, ⟨70, _⟩ => ⟨S1x128x128, .f32⟩
  | .hbm, ⟨71, _⟩ => ⟨S128x128, .f32⟩
  | .hbm, ⟨72, _⟩ => ⟨S50000x128, .bf16⟩
  | .hbm, ⟨73, _⟩ => ⟨S50000x128, .f32⟩
  | .hbm, ⟨74, _⟩ => ⟨S50000x512, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x128, .bf16⟩
  | .local _ .vmem, ⟨4, _⟩ => ⟨S2000x128, .bf16⟩
  | .local _ .vmem, ⟨5, _⟩ => ⟨S2000x128, .f32⟩
  | .local _ .vmem, ⟨6, _⟩ => ⟨S2000x128, .f32⟩
  | .local _ .vmem, ⟨7, _⟩ => ⟨S128x128, .f32⟩
  | .local _ .vmem, ⟨8, _⟩ => ⟨S2000x1, .f32⟩
  | .local _ .vmem, ⟨9, _⟩ => ⟨S2000x1, .f32⟩
  | .local _ .vmem, ⟨10, _⟩ => ⟨S2000x128, .bf16⟩
  | .local _ .vmem, ⟨11, _⟩ => ⟨S2000x128, .bf16⟩
  | .local _ .vmem, ⟨12, _⟩ => ⟨S2000x128, .f32⟩
  | .local _ .vmem, ⟨13, _⟩ => ⟨S2000x128, .f32⟩
  | .local _ .vmem, ⟨14, _⟩ => ⟨S128x128, .f32⟩
  | .local _ .vmem, ⟨15, _⟩ => ⟨S2000x1, .f32⟩
  | .local _ .vmem, ⟨16, _⟩ => ⟨S2000x1, .f32⟩
  | .local _ .vmem, ⟨17, _⟩ => ⟨S2000x128, .bf16⟩
  | .local _ .vmem, ⟨18, _⟩ => ⟨S2000x128, .bf16⟩
  | .local _ .vmem, ⟨19, _⟩ => ⟨S2000x128, .f32⟩
  | .local _ .vmem, ⟨20, _⟩ => ⟨S2000x128, .f32⟩
  | .local _ .vmem, ⟨21, _⟩ => ⟨S128x128, .f32⟩
  | .local _ .vmem, ⟨22, _⟩ => ⟨S2000x1, .f32⟩
  | .local _ .vmem, ⟨23, _⟩ => ⟨S2000x1, .f32⟩
  | .local _ .vmem, ⟨24, _⟩ => ⟨S2000x128, .bf16⟩
  | .local _ .vmem, ⟨25, _⟩ => ⟨S2000x128, .bf16⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_c_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_5 : Ref sig .tc := ⟨.hbm, 38, rfl⟩
abbrev main_v26 : Ref sig .tc := ⟨.hbm, 39, rfl⟩
abbrev main_v27 : Ref sig .tc := ⟨.hbm, 40, rfl⟩
abbrev main_c_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_c_8 : Ref sig .tc := ⟨.hbm, 56, rfl⟩
abbrev main_v41 : Ref sig .tc := ⟨.hbm, 57, rfl⟩
abbrev main_v42 : Ref sig .tc := ⟨.hbm, 58, rfl⟩
abbrev main_c_9 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem2_1 : DmaSem sig := 16
abbrev cc2_sem3_0 : DmaSem sig := 17
abbrev cc2_sem3_1 : DmaSem sig := 18
abbrev cc3_sem0_0 : DmaSem sig := 19
abbrev cc3_sem0_1 : DmaSem sig := 20
abbrev cc3_sem1_0 : DmaSem sig := 21
abbrev cc3_sem2_0 : DmaSem sig := 22
abbrev cc3_sem2_1 : DmaSem sig := 23
abbrev cc3_sem3_0 : DmaSem sig := 24
abbrev cc3_sem3_1 : DmaSem sig := 25

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  packedbf16_S2000x128_S2000x128_0_0 : (Rect.unit (s := S2000x128) ![0, 0] S2000x128.size inb_S2000x128_S2000x128_0_0).PackedRows (EltTy.packing .bf16)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  slices_S3x128x128_S1x128x128_0_0_0 : S3x128x128.Slices ![0, 0, 0] S1x128x128
  shapeCasts_S1x128x128_S128x128 : S1x128x128.ShapeCasts S128x128
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  shapeCasts_S128x128_S128x128 : S128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S50000x128_S50000x128_S50000x128_S50000x128_S50000x512_d1 : Shape.Concatenates [S50000x128, S50000x128, S50000x128, S50000x128] S50000x512 1
  dot_S2000x128_S128x128_S2000x128_1_0_0_1_n_n_wf : DotDims.WF S2000x128 S128x128 S2000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S50000x128.size a
  hwx0_2 : ∀ i : grid0.Coords, EltTy.bits .bf16 = 32 ∨ (Rect.block (s := S50000x128) S2000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .bf16 = 32 ∨ (Rect.block (s := S50000x128) S2000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .bf16 = 32 ∨ (Rect.block (s := S50000x128) S2000x128.size (cc3_transform_3 i) (hinb3_3 i)).WholeWords (EltTy.packing .bf16)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v21) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v9) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v9) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v39) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v51) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v9) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v54) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S50000x128 : Shape := ⟨2, ![50000, 128]⟩
abbrev S800000 : Shape := ⟨1, ![800000]⟩
abbrev S128x128 : Shape := ⟨2, ![128, 128]⟩
abbrev S3x128x128 : Shape := ⟨3, ![3, 128, 128]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S1x128x128 : Shape := ⟨3, ![1, 128, 128]⟩
abbrev S50000x512 : Shape := ⟨2, ![50000, 512]⟩

abbrev nBuf : Space → Nat
  | .hbm => 88
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S800000, .i32⟩
  | .hbm, ⟨2, _⟩ => ⟨S800000, .i32⟩
  | .hbm, ⟨3, _⟩ => ⟨S128x128, .f32⟩
  | .hbm, ⟨4, _⟩ => ⟨S3x128x128, .f32⟩
  | .hbm, ⟨5, _⟩ => ⟨S50000x128, .f32⟩
  | .hbm, ⟨6, _⟩ => ⟨S_, .f32⟩
  | .hbm, ⟨7, _⟩ => ⟨S50000x128, .f32⟩
  | .hbm, ⟨8, _⟩ => ⟨S50000x128, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x1, .f32⟩
  | .hbm, ⟨35, _⟩ => ⟨S50000x128, .f32⟩
  | .hbm, ⟨36, _⟩ => ⟨S50000x128, .f32⟩
  | .hbm, ⟨37, _⟩ => ⟨S1x128x128, .f32⟩
  | .hbm, ⟨38, _⟩ => ⟨S128x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x1, .f32⟩
  | .hbm, ⟨57, _⟩ => ⟨S50000x128, .f32⟩
  | .hbm, ⟨58, _⟩ => ⟨S50000x128, .f32⟩
  | .hbm, ⟨59, _⟩ => ⟨S1x128x128, .f32⟩
  | .hbm, ⟨60, _⟩ => ⟨S128x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x1, .f32⟩
  | .hbm, ⟨79, _⟩ => ⟨S50000x128, .f32⟩
  | .hbm, ⟨80, _⟩ => ⟨S50000x128, .f32⟩
  | .hbm, ⟨81, _⟩ => ⟨S1x128x128, .f32⟩
  | .hbm, ⟨82, _⟩ => ⟨S128x128, .f32⟩
  | .hbm, ⟨83, _⟩ => ⟨S50000x128, .f32⟩
  | .hbm, ⟨84, _⟩ => ⟨S_, .f32⟩
  | .hbm, ⟨85, _⟩ => ⟨S50000x128, .f32⟩
  | .hbm, ⟨86, _⟩ => ⟨S50000x128, .f32⟩
  | .hbm, ⟨87, _⟩ => ⟨S50000x512, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_cst_2 : Ref sig .tc := ⟨.hbm, 18, rfl⟩
abbrev main_v8 : Ref sig .tc := ⟨.hbm, 19, rfl⟩
abbrev main_v9 : Ref sig .tc := ⟨.hbm, 20, rfl⟩
abbrev main_c : Ref sig .tc := ⟨.hbm, 21, rfl⟩
abbrev main_v10 : Ref sig .tc := ⟨.hbm, 22, rfl⟩
abbrev main_v11 : Ref sig .tc := ⟨.hbm, 23, rfl⟩
abbrev main_c_3 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_call1_cst : Ref sig .tc := ⟨.hbm, 40, rfl⟩
abbrev main_call1_v0 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_call2_cst : Ref sig .tc := ⟨.hbm, 62, rfl⟩
abbrev main_call2_v0 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_c_9 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_cst_10 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call3_cst : Ref sig .tc := ⟨.hbm, 84, rfl⟩
abbrev main_call3_v0 : Ref sig .tc := ⟨.hbm, 85, rfl⟩
abbrev main_v60 : Ref sig .tc := ⟨.hbm, 86, rfl⟩
abbrev main_v61 : Ref sig .tc := ⟨.hbm, 87, rfl⟩

abbrev nD : Nat := 1
abbrev τ : Topo := Topo.v7x

variable {F : FTy → Type} [FloatOps F]

class Facts₀ : Prop where
  bcast_S_S50000x128 : S_.BroadcastsInDim S50000x128 (![] : Fin 0 → Fin S50000x128.rank)
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  slices_S3x128x128_S1x128x128_0_0_0 : S3x128x128.Slices ![0, 0, 0] S1x128x128
  shapeCasts_S1x128x128_S128x128 : S1x128x128.ShapeCasts S128x128
  slices_S3x128x128_S1x128x128_1_0_0 : S3x128x128.Slices ![1, 0, 0] S1x128x128
  slices_S3x128x128_S1x128x128_2_0_0 : S3x128x128.Slices ![2, 0, 0] S1x128x128
  concatenates_S50000x128_S50000x128_S50000x128_S50000x128_S50000x512_d1 : Shape.Concatenates [S50000x128, S50000x128, S50000x128, S50000x128] S50000x512 1
  dot_S50000x128_S128x128_S50000x128_1_0_0_1_n_n_wf : DotDims.WF S50000x128 S128x128 S50000x128 [1] [0] [0] [1] [] []
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.BDense0.lean ====
/-
  The first dense layer's call, one grid point at a time.

  The call walks 25 grid points; at point t it holds rows 2000·t … 2000·t + 1999 of the node features (window 0), the
  whole 128 × 128 weight matrix (window 1, fetched once and kept), and writes the same rows of the result (window 2).
  Its body reads the two input blocks whole, computes one value from them (the generated payload `k0_pay1`: the
  product of the block with the weights, rectified) and stores it over the whole output block.  This module states
  that: what each window's staging buffer holds after the body at a point, as a function of the input blocks; that
  the body, run on whole buffers holding those blocks, terminates leaving exactly that; and from it the obligation
  the pipeline's launch asks of a body at every grid point.  Nothing here depends on the float instance.
-/
import proofs.«138734_j81329500717447_2_alg».proof.Proof.Gen.Kernel.Launch
import proofs.«138734_j81329500717447_2_alg».proof.Proof.Gen.Kernel.Skeleton
import proofs.«138734_j81329500717447_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds its block at every point: a point that fetches puts it there, and a
    point that does not has the same block index as the one before it, whose block the body left in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the weight window, which is fetched at the first point only and never moves. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes -/

/-- The whole of a 2000 × 128 buffer. -/
abbrev rows0 : Rect S2000x128 := Rect.unit (s := S2000x128) ![0, 0] S2000x128.size inb_S2000x128_S2000x128_0_0
/-- The whole of the 128 × 128 weight buffer. -/
abbrev wts0 : Rect S128x128 := Rect.unit (s := S128x128) ![0, 0] S128x128.size inb_S128x128_S128x128_0_0

/-- The output buffer after the body, from the two input blocks: one store, over the whole buffer, of the payload. -/
def res0 (x0 : Vec F S2000x128 .f32) (x1 : Vec F S128x128 .f32) : Vec F S2000x128 .bf16 :=
  View.canon [⟨rows0, k0_pay1 (View.ld x0 rows0) (View.ld x1 wts0)⟩]

/-- That one store covers the buffer. -/
theorem covers0 (p0 : Vec F S2000x128 .bf16) (y : S2000x128.Idx) :
    ∃ pc ∈ ([⟨rows0, p0⟩] : List (View.Piece (Elt F) S2000x128 .bf16)), y ∈ pc.1.set :=
  View.cover_of_tiled [⟨rows0, p0⟩] S2000x128.size (by rfl) y

/-! ## The body terminates and leaves `res0` -/

set_option maxHeartbeats 1000000 in
/-- Run on whole buffers, the inputs' holding `x0` and `x1` and the output's holding anything, the body ends with the
    inputs' as they were and the output's at `res0 x0 x1`. -/
theorem body0_runs (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res0 x0 x1)) -∗ K ⟨⟩))
      ⊢ wp frame (wpE (defs₀ (F := F)) Variants.none c none) E (cc0__linear_relu_kernel i arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-! ## The launch's proof data for this call -/

/-- What the launch is told about this call on core `c`: its arrays are the entry contents; after the body at point
    `t` the input buffers still hold their blocks and the output buffer holds `res0` of them; the body needs nothing
    beyond the buffers (the class invariant: the scoped rest and the generator register ride along); no transfer is
    left owing; every share is whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = res0 (blk0 V c 0 t) (blk0 V c 1 t) := by dsimp only [dat0]

theorem dat0_before_0 (c : Dev nD) (t : Fin cfg0.N) (d) : (dat0 V c).before 0 t d = blk0 V c 0 t :=
  held0_0_of V (dat0 V c) (dat0_A V c 0) (dat0_after_0 V c) t d
theorem dat0_before_1 (c : Dev nD) (t : Fin cfg0.N) (d) : (dat0 V c).before 1 t d = blk0 V c 1 t :=
  held0_1_of V (dat0 V c) (dat0_A V c 1) (dat0_after_1 V c) t d

/-! ## The body obligation at a grid point -/

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it wants back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `body0_runs` applies; the invariant and what the
    core owes pass through untouched. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every grid point. -/
theorem body0_obligation (c : Dev nD) : BodyObligation (dat0 (F := F) V c) (defs₀ (F := F)) Variants.none () Set.univ := fun t => by
  rw [bigSep_W0, bigSep_W0]
  exact body0_at V c t

end Cert.Kernel.Layers

end
-- ==== Proof.BDense1.lean ====
/-
  An aggregating dense layer's call (call 1 of the program), one grid point at a time.

  The call walks 25 grid points; at point t it holds rows 2000·t … 2000·t + 1999 of the aggregated features
  (window 0), the whole 128 × 128 weight matrix (window 1, fetched once and kept), the same rows of the one-column array
  of reciprocal in-degrees (window 2), and writes the same rows of the result (window 3).  Its body reads the three input
  blocks whole, computes one value from them (the generated payload `k1_pay1`: each row scaled by its reciprocal
  degree, multiplied with the weights, rectified) and stores it over the whole output block.  This module states what
  each window's staging buffer holds after the body at a point; that the body, run on whole buffers holding the input
  blocks, terminates leaving exactly that; and from it the obligation the pipeline's launch asks of a body at every
  grid point.  Nothing here depends on the float instance.
-/
import proofs.«138734_j81329500717447_2_alg».proof.Proof.Gen.Kernel.Launch
import proofs.«138734_j81329500717447_2_alg».proof.Proof.Gen.Kernel.Skeleton
import proofs.«138734_j81329500717447_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point: a point that fetches puts it there, and a point
    that does not has the same block index as the one before it, whose block the body left in place.  Window 0: -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- the weight window, fetched at the first point only and never moving: -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- the reciprocal-degree window: -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes -/

/-- The whole of a 2000 × 128 buffer. -/
abbrev rows1 : Rect S2000x128 := Rect.unit (s := S2000x128) ![0, 0] S2000x128.size inb_S2000x128_S2000x128_0_0
/-- The whole of the 128 × 128 weight buffer. -/
abbrev wts1 : Rect S128x128 := Rect.unit (s := S128x128) ![0, 0] S128x128.size inb_S128x128_S128x128_0_0
/-- The whole of a 2000 × 1 buffer. -/
abbrev col1 : Rect S2000x1 := Rect.unit (s := S2000x1) ![0, 0] S2000x1.size inb_S2000x1_S2000x1_0_0

/-- The output buffer after the body, from the three input blocks (features, weights, reciprocal degrees): one store,
    over the whole buffer, of the payload. -/
def res1 (x0 : Vec F S2000x128 .f32) (x1 : Vec F S128x128 .f32) (x2 : Vec F S2000x1 .f32) : Vec F S2000x128 .bf16 :=
  View.canon [⟨rows1, k1_pay1 (View.ld x0 rows1) (View.ld x2 col1) (View.ld x1 wts1)⟩]

/-- That one store covers the buffer. -/
theorem covers1 (p0 : Vec F S2000x128 .bf16) (y : S2000x128.Idx) :
    ∃ pc ∈ ([⟨rows1, p0⟩] : List (View.Piece (Elt F) S2000x128 .bf16)), y ∈ pc.1.set :=
  View.cover_of_tiled [⟨rows1, p0⟩] S2000x128.size (by rfl) y

/-! ## The body terminates and leaves `res1` -/

set_option maxHeartbeats 1000000 in
/-- Run on whole buffers, the inputs' holding `x0`, `x1`, `x2` and the output's holding anything, the body ends with
    the inputs' as they were and the output's at `res1 x0 x1 x2`. -/
theorem body1_runs (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res1 x0 x1 x2)) -∗ K ⟨⟩))
      ⊢ wp frame (wpE (defs₀ (F := F)) Variants.none c none) E (cc1__linear_relu_agg_kernel i arg1 harg1 arg2 harg2 arg3 harg3 arg4 harg4) K := by
  simp only [cc1__linear_relu_agg_kernel_eq_skeleton]; unfold cc1__linear_relu_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The launch's proof data for this call -/

/-- What the launch is told about this call on core `c`: its arrays are the entry contents; after the body at point
    `t` the input buffers still hold their blocks and the output buffer holds `res1` of them; the body needs nothing
    beyond the buffers (the class invariant: the scoped rest and the generator register ride along); no transfer is
    left owing; every share is whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => res1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = res1 (blk1 V c 0 t) (blk1 V c 1 t) (blk1 V c 2 t) := by dsimp only [dat1]

theorem dat1_before_0 (c : Dev nD) (t : Fin cfg1.N) (d) : (dat1 V c).before 0 t d = blk1 V c 0 t :=
  held1_0_of V (dat1 V c) (dat1_A V c 0) (dat1_after_0 V c) t d
theorem dat1_before_1 (c : Dev nD) (t : Fin cfg1.N) (d) : (dat1 V c).before 1 t d = blk1 V c 1 t :=
  held1_1_of V (dat1 V c) (dat1_A V c 1) (dat1_after_1 V c) t d
theorem dat1_before_2 (c : Dev nD) (t : Fin cfg1.N) (d) : (dat1 V c).before 2 t d = blk1 V c 2 t :=
  held1_2_of V (dat1 V c) (dat1_A V c 2) (dat1_after_2 V c) t d

/-! ## The body obligation at a grid point -/

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it wants back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `body1_runs` applies; the invariant and what
    the core owes pass through untouched. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (body1_runs c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every grid point. -/
theorem body1_obligation (c : Dev nD) : BodyObligation (dat1 (F := F) V c) (defs₀ (F := F)) Variants.none () Set.univ := fun t => by
  rw [bigSep_W1, bigSep_W1]
  exact body1_at V c t

end Cert.Kernel.Layers

end
-- ==== Proof.BDense2.lean ====
/-
  An aggregating dense layer's call (call 2 of the program), one grid point at a time.

  The call walks 25 grid points; at point t it holds rows 2000·t … 2000·t + 1999 of the aggregated features
  (window 0), the whole 128 × 128 weight matrix (window 1, fetched once and kept), the same rows of the one-column array
  of reciprocal in-degrees (window 2), and writes the same rows of the result (window 3).  Its body reads the three input
  blocks whole, computes one value from them (the generated payload `k2_pay1`: each row scaled by its reciprocal
  degree, multiplied with the weights, rectified) and stores it over the whole output block.  This module states what
  each window's staging buffer holds after the body at a point; that the body, run on whole buffers holding the input
  blocks, terminates leaving exactly that; and from it the obligation the pipeline's launch asks of a body at every
  grid point.  Nothing here depends on the float instance.
-/
import proofs.«138734_j81329500717447_2_alg».proof.Proof.Gen.Kernel.Launch
import proofs.«138734_j81329500717447_2_alg».proof.Proof.Gen.Kernel.Skeleton
import proofs.«138734_j81329500717447_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point: a point that fetches puts it there, and a point
    that does not has the same block index as the one before it, whose block the body left in place.  Window 0: -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- the weight window, fetched at the first point only and never moving: -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- the reciprocal-degree window: -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes -/

/-- The whole of a 2000 × 128 buffer. -/
abbrev rows2 : Rect S2000x128 := Rect.unit (s := S2000x128) ![0, 0] S2000x128.size inb_S2000x128_S2000x128_0_0
/-- The whole of the 128 × 128 weight buffer. -/
abbrev wts2 : Rect S128x128 := Rect.unit (s := S128x128) ![0, 0] S128x128.size inb_S128x128_S128x128_0_0
/-- The whole of a 2000 × 1 buffer. -/
abbrev col2 : Rect S2000x1 := Rect.unit (s := S2000x1) ![0, 0] S2000x1.size inb_S2000x1_S2000x1_0_0

/-- The output buffer after the body, from the three input blocks (features, weights, reciprocal degrees): one store,
    over the whole buffer, of the payload. -/
def res2 (x0 : Vec F S2000x128 .f32) (x1 : Vec F S128x128 .f32) (x2 : Vec F S2000x1 .f32) : Vec F S2000x128 .bf16 :=
  View.canon [⟨rows2, k2_pay1 (View.ld x0 rows2) (View.ld x2 col2) (View.ld x1 wts2)⟩]

/-- That one store covers the buffer. -/
theorem covers2 (p0 : Vec F S2000x128 .bf16) (y : S2000x128.Idx) :
    ∃ pc ∈ ([⟨rows2, p0⟩] : List (View.Piece (Elt F) S2000x128 .bf16)), y ∈ pc.1.set :=
  View.cover_of_tiled [⟨rows2, p0⟩] S2000x128.size (by rfl) y

/-! ## The body terminates and leaves `res2` -/

set_option maxHeartbeats 1000000 in
/-- Run on whole buffers, the inputs' holding `x0`, `x1`, `x2` and the output's holding anything, the body ends with
    the inputs' as they were and the output's at `res2 x0 x1 x2`. -/
theorem body2_runs (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res2 x0 x1 x2)) -∗ K ⟨⟩))
      ⊢ wp frame (wpE (defs₀ (F := F)) Variants.none c none) E (cc2__linear_relu_agg_kernel i arg1 harg1 arg2 harg2 arg3 harg3 arg4 harg4) K := by
  simp only [cc2__linear_relu_agg_kernel_eq_skeleton]; unfold cc2__linear_relu_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The launch's proof data for this call -/

/-- What the launch is told about this call on core `c`: its arrays are the entry contents; after the body at point
    `t` the input buffers still hold their blocks and the output buffer holds `res2` of them; the body needs nothing
    beyond the buffers (the class invariant: the scoped rest and the generator register ride along); no transfer is
    left owing; every share is whole. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) :
    (dat2 V c).after 3 t = res2 (blk2 V c 0 t) (blk2 V c 1 t) (blk2 V c 2 t) := by dsimp only [dat2]

theorem dat2_before_0 (c : Dev nD) (t : Fin cfg2.N) (d) : (dat2 V c).before 0 t d = blk2 V c 0 t :=
  held2_0_of V (dat2 V c) (dat2_A V c 0) (dat2_after_0 V c) t d
theorem dat2_before_1 (c : Dev nD) (t : Fin cfg2.N) (d) : (dat2 V c).before 1 t d = blk2 V c 1 t :=
  held2_1_of V (dat2 V c) (dat2_A V c 1) (dat2_after_1 V c) t d
theorem dat2_before_2 (c : Dev nD) (t : Fin cfg2.N) (d) : (dat2 V c).before 2 t d = blk2 V c 2 t :=
  held2_2_of V (dat2 V c) (dat2_A V c 2) (dat2_after_2 V c) t d

/-! ## The body obligation at a grid point -/

/-- What the pipeline hands the body at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it wants back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `body2_runs` applies; the invariant and what
    the core owes pass through untouched. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_0, dat2_before_1, dat2_before_2]
  rw [show (dat2 V c).Φ t.succ = (dat2 V c).Φ t.castSucc from rfl,
    show (dat2 V c).owesAt () t.succ = (dat2 V c).owesAt () t.castSucc from rfl,
    dat2_after_0, dat2_after_1, dat2_after_2, dat2_after_3]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every grid point. -/
theorem body2_obligation (c : Dev nD) : BodyObligation (dat2 (F := F) V c) (defs₀ (F := F)) Variants.none () Set.univ := fun t => by
  rw [bigSep_W2, bigSep_W2]
  exact body2_at V c t

end Cert.Kernel.Layers

end
-- ==== Proof.BDense3.lean ====
/-
  An aggregating dense layer's call (call 3 of the program), one grid point at a time.

  The call walks 25 grid points; at point t it holds rows 2000·t … 2000·t + 1999 of the aggregated features
  (window 0), the whole 128 × 128 weight matrix (window 1, fetched once and kept), the same rows of the one-column array
  of reciprocal in-degrees (window 2), and writes the same rows of the result (window 3).  Its body reads the three input
  blocks whole, computes one value from them (the generated payload `k3_pay1`: each row scaled by its reciprocal
  degree, multiplied with the weights, rectified) and stores it over the whole output block.  This module states what
  each window's staging buffer holds after the body at a point; that the body, run on whole buffers holding the input
  blocks, terminates leaving exactly that; and from it the obligation the pipeline's launch asks of a body at every
  grid point.  Nothing here depends on the float instance.
-/
import proofs.«138734_j81329500717447_2_alg».proof.Proof.Gen.Kernel.Launch
import proofs.«138734_j81329500717447_2_alg».proof.Proof.Gen.Kernel.Skeleton
import proofs.«138734_j81329500717447_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point: a point that fetches puts it there, and a point
    that does not has the same block index as the one before it, whose block the body left in place.  Window 0: -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- the weight window, fetched at the first point only and never moving: -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- the reciprocal-degree window: -/
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes -/

/-- The whole of a 2000 × 128 buffer. -/
abbrev rows3 : Rect S2000x128 := Rect.unit (s := S2000x128) ![0, 0] S2000x128.size inb_S2000x128_S2000x128_0_0
/-- The whole of the 128 × 128 weight buffer. -/
abbrev wts3 : Rect S128x128 := Rect.unit (s := S128x128) ![0, 0] S128x128.size inb_S128x128_S128x128_0_0
/-- The whole of a 2000 × 1 buffer. -/
abbrev col3 : Rect S2000x1 := Rect.unit (s := S2000x1) ![0, 0] S2000x1.size inb_S2000x1_S2000x1_0_0

/-- The output buffer after the body, from the three input blocks (features, weights, reciprocal degrees): one store,
    over the whole buffer, of the payload. -/
def res3 (x0 : Vec F S2000x128 .f32) (x1 : Vec F S128x128 .f32) (x2 : Vec F S2000x1 .f32) : Vec F S2000x128 .bf16 :=
  View.canon [⟨rows3, k3_pay1 (View.ld x0 rows3) (View.ld x2 col3) (View.ld x1 wts3)⟩]

/-- That one store covers the buffer. -/
theorem covers3 (p0 : Vec F S2000x128 .bf16) (y : S2000x128.Idx) :
    ∃ pc ∈ ([⟨rows3, p0⟩] : List (View.Piece (Elt F) S2000x128 .bf16)), y ∈ pc.1.set :=
  View.cover_of_tiled [⟨rows3, p0⟩] S2000x128.size (by rfl) y

/-! ## The body terminates and leaves `res3` -/

set_option maxHeartbeats 1000000 in
/-- Run on whole buffers, the inputs' holding `x0`, `x1`, `x2` and the output's holding anything, the body ends with
    the inputs' as they were and the output's at `res3 x0 x1 x2`. -/
theorem body3_runs (c : Dev nD) (E : Set ℕ) (i : grid3.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res3 x0 x1 x2)) -∗ K ⟨⟩))
      ⊢ wp frame (wpE (defs₀ (F := F)) Variants.none c none) E (cc3__linear_relu_agg_kernel i arg1 harg1 arg2 harg2 arg3 harg3 arg4 harg4) K := by
  simp only [cc3__linear_relu_agg_kernel_eq_skeleton]; unfold cc3__linear_relu_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers3 _)

/-! ## The launch's proof data for this call -/

/-- What the launch is told about this call on core `c`: its arrays are the entry contents; after the body at point
    `t` the input buffers still hold their blocks and the output buffer holds `res3` of them; the body needs nothing
    beyond the buffers (the class invariant: the scoped rest and the generator register ride along); no transfer is
    left owing; every share is whole. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => res3 (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) : (dat3 V c).after 2 t = blk3 V c 2 t := by dsimp only [dat3]
theorem dat3_after_3 (c : Dev nD) (t : Fin cfg3.N) :
    (dat3 V c).after 3 t = res3 (blk3 V c 0 t) (blk3 V c 1 t) (blk3 V c 2 t) := by dsimp only [dat3]

theorem dat3_before_0 (c : Dev nD) (t : Fin cfg3.N) (d) : (dat3 V c).before 0 t d = blk3 V c 0 t :=
  held3_0_of V (dat3 V c) (dat3_A V c 0) (dat3_after_0 V c) t d
theorem dat3_before_1 (c : Dev nD) (t : Fin cfg3.N) (d) : (dat3 V c).before 1 t d = blk3 V c 1 t :=
  held3_1_of V (dat3 V c) (dat3_A V c 1) (dat3_after_1 V c) t d
theorem dat3_before_2 (c : Dev nD) (t : Fin cfg3.N) (d) : (dat3 V c).before 2 t d = blk3 V c 2 t :=
  held3_2_of V (dat3 V c) (dat3_A V c 2) (dat3_after_2 V c) t d

/-! ## The body obligation at a grid point -/

/-- What the pipeline hands the body at point `t`, window by window, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it wants back. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `body3_runs` applies; the invariant and what
    the core owes pass through untouched. -/
theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [dat3_before_0, dat3_before_1, dat3_before_2]
  rw [show (dat3 V c).Φ t.succ = (dat3 V c).Φ t.castSucc from rfl,
    show (dat3 V c).owesAt () t.succ = (dat3 V c).owesAt () t.castSucc from rfl,
    dat3_after_0, dat3_after_1, dat3_after_2, dat3_after_3]
  iintro ⟨HΦ, Ho, ⟨%d0, H0⟩, ⟨%d1, H1⟩, ⟨%d2, H2⟩, ⟨%d3, H3⟩⟩
  iapply (body3_runs c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every grid point. -/
theorem body3_obligation (c : Dev nD) : BodyObligation (dat3 (F := F) V c) (defs₀ (F := F)) Variants.none () Set.univ := fun t => by
  rw [bigSep_W3, bigSep_W3]
  exact body3_at V c t

end Cert.Kernel.Layers

end
-- ==== Proof.BRun.lean ====
/-
  The whole program as a run: four calls with stretches of host operations between and after them.

  The contents of the core's unscoped buffers are followed from the launch to the return: a host stretch replaces them by
  the operations' results (`StableHlo.after`), a call replaces its output array by what its write-backs leave and keeps
  everything else.  Each call is entered with every unscoped buffer held whole at the contents reached so far and left
  with them at the next contents, so the segments chain, and the launch theorem for a sequence of calls and host
  stretches gives: every weakly fair execution terminates, nothing faults, and at the end every unscoped buffer holds
  the last contents `W8`.  What the arguments and the result are at `W8` is read off separately.
-/
import proofs.«138734_j81329500717447_2_alg».proof.Proof.BDense0
import proofs.«138734_j81329500717447_2_alg».proof.Proof.BDense1
import proofs.«138734_j81329500717447_2_alg».proof.Proof.BDense2
import proofs.«138734_j81329500717447_2_alg».proof.Proof.BDense3
import proofs.«138734_j81329500717447_2_alg».proof.Proof.Gen.Kernel.Regions

set_option maxRecDepth 16384

noncomputable section

namespace Cert.Kernel.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- The same read at the TensorCore's references (what the first call finds). -/
abbrev B0 : (c : Dev nD) → (b : Ref sig .tc) → Buf (Elt F) ((c : Thread nD τ).loc b) := fun c b => W0 m ρ c b

/-- After call 0: its arrays at what the pipeline leaves (an input as entered, the output's write-backs folded in), every
    other buffer as entered. -/
def W1 (c : Dev nD) : Valuation τ sig (Elt F) :=
  Pipeline.withArrays spec0 c (W0 m ρ c) fun w => (dat0 (B0 m ρ) c).arrAt w cfg0.N
theorem W1_arr (c : Dev nD) (w : Fin cfg0.W) :
    W1 m ρ c (Proc.devRef .tc (Pipeline.arrRef spec0 w)) = (dat0 (B0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev B1 : (c : Dev nD) → (b : Ref sig .tc) → Buf (Elt F) ((c : Thread nD τ).loc b) := fun c b => W1 m ρ c b
theorem left0 (c : Dev nD) (w : Fin cfg0.W) : (dat0 (B0 m ρ) c).arrAt w cfg0.N = B1 m ρ c (Pipeline.arrRef spec0 w) :=
  (W1_arr m ρ c w).symm
theorem kept0 (c : Dev nD) : ∀ b, b ∉ Finset.univ.image (Pipeline.arrRef spec0) → B1 m ρ c b = B0 m ρ c b :=
  fun b hb => W1_of_ne m ρ c b fun w e => hb (Finset.mem_image.mpr ⟨w, Finset.mem_univ _, e⟩)

/-- After the host stretch `hostOps1`. -/
abbrev W2 : Dev nD → Valuation τ sig (Elt F) := fun c => StableHlo.after hostOps1 (W1 m ρ c)
/-- The same read at the TensorCore's references. -/
abbrev B2 : (c : Dev nD) → (b : Ref sig .tc) → Buf (Elt F) ((c : Thread nD τ).loc b) := fun c b => W2 m ρ c b

/-- After call 1: its arrays at what the pipeline leaves (an input as entered, the output's write-backs folded in), every
    other buffer as entered. -/
def W3 (c : Dev nD) : Valuation τ sig (Elt F) :=
  Pipeline.withArrays spec1 c (W2 m ρ c) fun w => (dat1 (B2 m ρ) c).arrAt w cfg1.N
theorem W3_arr (c : Dev nD) (w : Fin cfg1.W) :
    W3 m ρ c (Proc.devRef .tc (Pipeline.arrRef spec1 w)) = (dat1 (B2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev B3 : (c : Dev nD) → (b : Ref sig .tc) → Buf (Elt F) ((c : Thread nD τ).loc b) := fun c b => W3 m ρ c b
theorem left1 (c : Dev nD) (w : Fin cfg1.W) : (dat1 (B2 m ρ) c).arrAt w cfg1.N = B3 m ρ c (Pipeline.arrRef spec1 w) :=
  (W3_arr m ρ c w).symm
theorem kept1 (c : Dev nD) : ∀ b, b ∉ Finset.univ.image (Pipeline.arrRef spec1) → B3 m ρ c b = B2 m ρ c b :=
  fun b hb => W3_of_ne m ρ c b fun w e => hb (Finset.mem_image.mpr ⟨w, Finset.mem_univ _, e⟩)

/-- After the host stretch `hostOps2`. -/
abbrev W4 : Dev nD → Valuation τ sig (Elt F) := fun c => StableHlo.after hostOps2 (W3 m ρ c)
/-- The same read at the TensorCore's references. -/
abbrev B4 : (c : Dev nD) → (b : Ref sig .tc) → Buf (Elt F) ((c : Thread nD τ).loc b) := fun c b => W4 m ρ c b

/-- After call 2: its arrays at what the pipeline leaves (an input as entered, the output's write-backs folded in), every
    other buffer as entered. -/
def W5 (c : Dev nD) : Valuation τ sig (Elt F) :=
  Pipeline.withArrays spec2 c (W4 m ρ c) fun w => (dat2 (B4 m ρ) c).arrAt w cfg2.N
theorem W5_arr (c : Dev nD) (w : Fin cfg2.W) :
    W5 m ρ c (Proc.devRef .tc (Pipeline.arrRef spec2 w)) = (dat2 (B4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev B5 : (c : Dev nD) → (b : Ref sig .tc) → Buf (Elt F) ((c : Thread nD τ).loc b) := fun c b => W5 m ρ c b
theorem left2 (c : Dev nD) (w : Fin cfg2.W) : (dat2 (B4 m ρ) c).arrAt w cfg2.N = B5 m ρ c (Pipeline.arrRef spec2 w) :=
  (W5_arr m ρ c w).symm
theorem kept2 (c : Dev nD) : ∀ b, b ∉ Finset.univ.image (Pipeline.arrRef spec2) → B5 m ρ c b = B4 m ρ c b :=
  fun b hb => W5_of_ne m ρ c b fun w e => hb (Finset.mem_image.mpr ⟨w, Finset.mem_univ _, e⟩)

/-- After the host stretch `hostOps3`. -/
abbrev W6 : Dev nD → Valuation τ sig (Elt F) := fun c => StableHlo.after hostOps3 (W5 m ρ c)
/-- The same read at the TensorCore's references. -/
abbrev B6 : (c : Dev nD) → (b : Ref sig .tc) → Buf (Elt F) ((c : Thread nD τ).loc b) := fun c b => W6 m ρ c b

/-- After call 3: its arrays at what the pipeline leaves (an input as entered, the output's write-backs folded in), every
    other buffer as entered. -/
def W7 (c : Dev nD) : Valuation τ sig (Elt F) :=
  Pipeline.withArrays spec3 c (W6 m ρ c) fun w => (dat3 (B6 m ρ) c).arrAt w cfg3.N
theorem W7_arr (c : Dev nD) (w : Fin cfg3.W) :
    W7 m ρ c (Proc.devRef .tc (Pipeline.arrRef spec3 w)) = (dat3 (B6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev B7 : (c : Dev nD) → (b : Ref sig .tc) → Buf (Elt F) ((c : Thread nD τ).loc b) := fun c b => W7 m ρ c b
theorem left3 (c : Dev nD) (w : Fin cfg3.W) : (dat3 (B6 m ρ) c).arrAt w cfg3.N = B7 m ρ c (Pipeline.arrRef spec3 w) :=
  (W7_arr m ρ c w).symm
theorem kept3 (c : Dev nD) : ∀ b, b ∉ Finset.univ.image (Pipeline.arrRef spec3) → B7 m ρ c b = B6 m ρ c b :=
  fun b hb => W7_of_ne m ρ c b fun w e => hb (Finset.mem_image.mpr ⟨w, Finset.mem_univ _, e⟩)

/-- After the host stretch `hostOps4`. -/
abbrev W8 : Dev nD → Valuation τ sig (Elt F) := fun c => StableHlo.after hostOps4 (W7 m ρ c)
/-- The same read at the TensorCore's references. -/
abbrev B8 : (c : Dev nD) → (b : Ref sig .tc) → Buf (Elt F) ((c : Thread nD τ).loc b) := fun c b => W8 m ρ c b

/-! ## The proof data of the four calls, and what rides along -/

/-- No call has a prefetched table. -/
abbrev noTables : (p : Fin 4) → (pcfgs (F := F) p).Adm := fun p => (cfgs p).toPCfg_adm
/-- Each call's proof data at the contents it is entered with. -/
def pdats : (p : Fin 4) → (c : Dev nD) → Dat τ (Elt F) Unit ℕ (UR sig nD τ) ℕ (Pipeline.pin (pcfgs (F := F)) noTables p) c
  | ⟨0, _⟩ => fun c => dat0 (B0 m ρ) c
  | ⟨1, _⟩ => fun c => dat1 (B2 m ρ) c
  | ⟨2, _⟩ => fun c => dat2 (B4 m ρ) c
  | ⟨3, _⟩ => fun c => dat3 (B6 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and the core owing nothing. -/
abbrev Rest (c : Dev nD) : sProp 𝕄 := iprop((∃ r, prngReg c r) ∗ ∃ W, owes (c : Thread nD τ) (0 : CellTallies nD τ sig Unit) W)
/-- A host stretch as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (W8 m ρ c) ∗ ∃ r, prngReg c r)

/-! ## The calls as segments -/

-- a library lemma stated over the pinned configuration unifies with this call's only when unification may unfold plain
-- definitions in a metavariable's type
set_option backward.isDefEq.respectTransparency.types false in
/-- Call 0 as a segment of the run: entered with every unscoped buffer at `W0`, left with them at `W1`.  Its
    arrays are split out of the unscoped buffers on entry and put back, at what the write-backs left, on exit; the
    generator register goes into the class invariant and comes back; nothing is owed; the body has no semaphore of
    its own. -/
def call0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (B0 m ρ) c).loose
  hwaits := Pipeline.hwaits_of_owed_zero _ _ _ _ L lv 0 fun _ _ => rfl
  pre c := iprop(StableHlo.held (c : Thread nD τ) (Pipeline.ucRefs τ sig) (W0 m ρ c) ∗ Rest c)
  post c := iprop(StableHlo.held (c : Thread nD τ) (Pipeline.ucRefs τ sig) (W1 m ρ c) ∗ Rest c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this call's only when unification may unfold plain
-- definitions in a metavariable's type
set_option backward.isDefEq.respectTransparency.types false in
/-- Call 1 as a segment of the run: entered with every unscoped buffer at `W2`, left with them at `W3`.  Its
    arrays are split out of the unscoped buffers on entry and put back, at what the write-backs left, on exit; the
    generator register goes into the class invariant and comes back; nothing is owed; the body has no semaphore of
    its own. -/
def call1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (B2 m ρ) c).loose
  hwaits := Pipeline.hwaits_of_owed_zero _ _ _ _ L lv 1 fun _ _ => rfl
  pre c := iprop(StableHlo.held (c : Thread nD τ) (Pipeline.ucRefs τ sig) (W2 m ρ c) ∗ Rest c)
  post c := iprop(StableHlo.held (c : Thread nD τ) (Pipeline.ucRefs τ sig) (W3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this call's only when unification may unfold plain
-- definitions in a metavariable's type
set_option backward.isDefEq.respectTransparency.types false in
/-- Call 2 as a segment of the run: entered with every unscoped buffer at `W4`, left with them at `W5`.  Its
    arrays are split out of the unscoped buffers on entry and put back, at what the write-backs left, on exit; the
    generator register goes into the class invariant and comes back; nothing is owed; the body has no semaphore of
    its own. -/
def call2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (B4 m ρ) c).loose
  hwaits := Pipeline.hwaits_of_owed_zero _ _ _ _ L lv 2 fun _ _ => rfl
  pre c := iprop(StableHlo.held (c : Thread nD τ) (Pipeline.ucRefs τ sig) (W4 m ρ c) ∗ Rest c)
  post c := iprop(StableHlo.held (c : Thread nD τ) (Pipeline.ucRefs τ sig) (W5 m ρ c) ∗ Rest c)
  X c := iprop(∃ r, prngReg c r)
  Y c := iprop(∃ r, prngReg c r)
  Z c := Pipeline.unscopedRest (Ix := Unit) (Name := ℕ) (U := UR sig nD τ) (Lvl := ℕ) spec2 c (B4 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (B4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (B4 m ρ c) (B5 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this call's only when unification may unfold plain
-- definitions in a metavariable's type
set_option backward.isDefEq.respectTransparency.types false in
/-- Call 3 as a segment of the run: entered with every unscoped buffer at `W6`, left with them at `W7`.  Its
    arrays are split out of the unscoped buffers on entry and put back, at what the write-backs left, on exit; the
    generator register goes into the class invariant and comes back; nothing is owed; the body has no semaphore of
    its own. -/
def call3 : Pipeline.RegionSeg (pcfgs (F := F)) noTables (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body3_obligation (B6 m ρ) c).loose
  hwaits := Pipeline.hwaits_of_owed_zero _ _ _ _ L lv 3 fun _ _ => rfl
  pre c := iprop(StableHlo.held (c : Thread nD τ) (Pipeline.ucRefs τ sig) (W6 m ρ c) ∗ Rest c)
  post c := iprop(StableHlo.held (c : Thread nD τ) (Pipeline.ucRefs τ sig) (W7 m ρ c) ∗ Rest c)
  X c := iprop(∃ r, prngReg c r)
  Y c := iprop(∃ r, prngReg c r)
  Z c := Pipeline.unscopedRest (Ix := Unit) (Name := ℕ) (U := UR sig nD τ) (Lvl := ℕ) spec3 c (B6 m ρ c)
  hentry c := by
    rw [Pipeline.ownSems0_none]
    have hsplit := Pipeline.arrays_of_unscopedBufs (p := 3) (pcfgs (F := F)) noTables (pdats m ρ) launch3.win launch3.arr_whole c
      ((pdats m ρ 3 c).share_full fun _ => rfl) (B6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m ρ) ((pdats m ρ 3 c).share_full fun _ => rfl)
      (B6 m ρ c) (B7 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's eight segments in order. -/
abbrev pieces : List (Pipeline.Seg (pcfgs (F := F)) noTables (pdats m ρ) () defs₀ 𝒱₀ L lv) :=
  [ .region (call0 m ρ),
    .host (stretch hostOps1 hostOps1_sub hostOps1_fresh (W1 m ρ)),
    .region (call1 m ρ),
    .host (stretch hostOps2 hostOps2_sub hostOps2_fresh (W3 m ρ)),
    .region (call2 m ρ),
    .host (stretch hostOps3 hostOps3_sub hostOps3_fresh (W5 m ρ)),
    .region (call3 m ρ),
    .host (stretch hostOps4 hostOps4_sub hostOps4_fresh (W7 m ρ)) ]
/-- The program is the run of its segments. -/
theorem main_is_segs (c : Dev nD) : main (F := F) c = Pipeline.Seg.run (pieces m ρ) := (main_chain c).trans (by chain_rfl)

-- the launch theorem's implicit arguments are found by unifying its conclusion with this one, which takes unfolding
-- plain definitions in a metavariable's type
set_option backward.isDefEq.respectTransparency.types false in
/-- Every weakly fair execution from `m` with zero counters terminates, nothing faulting, and at the end every
    unscoped buffer of every core holds the last contents `W8`. -/
theorem run_to_W8 : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) noTables (pdats m ρ) () cellOf_inj emb₁ defs₀ 𝒱₀ L lv m ρ main (pieces m ρ)
    (fun c Q => by rw [main_is_segs m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m ρ c) ∗ Rest c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.Kernel.Layers

end
-- ==== Proof.BArgs.lean ====
/-
  The five arguments reach every boundary of the run as launched.

  No host stretch writes an argument's buffer, and a call changes only its output array; the first call reads the
  features and the first weight matrix through input windows, whose arrays the pipeline leaves as it found them.  So
  the contents of an argument's buffer at each boundary `W1` … `W8` walk back, step by step, to the launch memory.
  Nothing here depends on the float instance.
-/
import proofs.«138734_j81329500717447_2_alg».proof.Proof.BRun
import Idealize.ShloMosaic.Lib.StableHlo.Run

set_option maxRecDepth 16384

noncomputable section

namespace Cert.Kernel.Layers

open Idealize.ShloMosaic Idealize.ShloMosaic.TcCoe Idealize.ShloMosaic.StableHlo Idealize.SL.Sem
open Idealize.ShloMosaic.Pipeline (Dat)
open Cert.Kernel Cert.Kernel.Gen

variable {F : FTy → Type} [FloatOps F]
variable (m : (ℓ : Loc nD τ sig) → Buf (Elt F) ℓ) (ρ : Dev nD → PrngReg) (c : Dev nD)

theorem W1_arg0 : W1 m ρ c (Proc.devRef .tc main_arg0) = m ((c : Thread nD τ).loc main_arg0) :=
  (W1_arr m ρ c 0).trans (((dat0 (B0 m ρ) c).arrAt_in 0 rfl _).trans (dat0_A (B0 m ρ) c 0))
theorem W1_arg1 : W1 m ρ c (Proc.devRef .tc main_arg1) = m ((c : Thread nD τ).loc main_arg1) :=
  W1_of_ne m ρ c main_arg1 (by decide)
theorem W1_arg2 : W1 m ρ c (Proc.devRef .tc main_arg2) = m ((c : Thread nD τ).loc main_arg2) :=
  W1_of_ne m ρ c main_arg2 (by decide)
theorem W1_arg3 : W1 m ρ c (Proc.devRef .tc main_arg3) = m ((c : Thread nD τ).loc main_arg3) :=
  (W1_arr m ρ c 1).trans (((dat0 (B0 m ρ) c).arrAt_in 1 rfl _).trans (dat0_A (B0 m ρ) c 1))
theorem W1_arg4 : W1 m ρ c (Proc.devRef .tc main_arg4) = m ((c : Thread nD τ).loc main_arg4) :=
  W1_of_ne m ρ c main_arg4 (by decide)
theorem W2_arg0 : W2 m ρ c (Proc.devRef .tc main_arg0) = m ((c : Thread nD τ).loc main_arg0) :=
  (StableHlo.after_of_writes_sub hostOps1 _ hostOps1_writes (by decide : main_arg0 ∉ hostOps1_W)).trans (W1_arg0 m ρ c)
theorem W2_arg1 : W2 m ρ c (Proc.devRef .tc main_arg1) = m ((c : Thread nD τ).loc main_arg1) :=
  (StableHlo.after_of_writes_sub hostOps1 _ hostOps1_writes (by decide : main_arg1 ∉ hostOps1_W)).trans (W1_arg1 m ρ c)
theorem W2_arg2 : W2 m ρ c (Proc.devRef .tc main_arg2) = m ((c : Thread nD τ).loc main_arg2) :=
  (StableHlo.after_of_writes_sub hostOps1 _ hostOps1_writes (by decide : main_arg2 ∉ hostOps1_W)).trans (W1_arg2 m ρ c)
theorem W2_arg3 : W2 m ρ c (Proc.devRef .tc main_arg3) = m ((c : Thread nD τ).loc main_arg3) :=
  (StableHlo.after_of_writes_sub hostOps1 _ hostOps1_writes (by decide : main_arg3 ∉ hostOps1_W)).trans (W1_arg3 m ρ c)
theorem W2_arg4 : W2 m ρ c (Proc.devRef .tc main_arg4) = m ((c : Thread nD τ).loc main_arg4) :=
  (StableHlo.after_of_writes_sub hostOps1 _ hostOps1_writes (by decide : main_arg4 ∉ hostOps1_W)).trans (W1_arg4 m ρ c)
theorem W3_arg0 : W3 m ρ c (Proc.devRef .tc main_arg0) = m ((c : Thread nD τ).loc main_arg0) :=
  (W3_of_ne m ρ c main_arg0 (by decide)).trans (W2_arg0 m ρ c)
theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg3 : W3 m ρ c (Proc.devRef .tc main_arg3) = m ((c : Thread nD τ).loc main_arg3) :=
  (W3_of_ne m ρ c main_arg3 (by decide)).trans (W2_arg3 m ρ c)
theorem W3_arg4 : W3 m ρ c (Proc.devRef .tc main_arg4) = m ((c : Thread nD τ).loc main_arg4) :=
  (W3_of_ne m ρ c main_arg4 (by decide)).trans (W2_arg4 m ρ c)
theorem W4_arg0 : W4 m ρ c (Proc.devRef .tc main_arg0) = m ((c : Thread nD τ).loc main_arg0) :=
  (StableHlo.after_of_writes_sub hostOps2 _ hostOps2_writes (by decide : main_arg0 ∉ hostOps2_W)).trans (W3_arg0 m ρ c)
theorem W4_arg1 : W4 m ρ c (Proc.devRef .tc main_arg1) = m ((c : Thread nD τ).loc main_arg1) :=
  (StableHlo.after_of_writes_sub hostOps2 _ hostOps2_writes (by decide : main_arg1 ∉ hostOps2_W)).trans (W3_arg1 m ρ c)
theorem W4_arg2 : W4 m ρ c (Proc.devRef .tc main_arg2) = m ((c : Thread nD τ).loc main_arg2) :=
  (StableHlo.after_of_writes_sub hostOps2 _ hostOps2_writes (by decide : main_arg2 ∉ hostOps2_W)).trans (W3_arg2 m ρ c)
theorem W4_arg3 : W4 m ρ c (Proc.devRef .tc main_arg3) = m ((c : Thread nD τ).loc main_arg3) :=
  (StableHlo.after_of_writes_sub hostOps2 _ hostOps2_writes (by decide : main_arg3 ∉ hostOps2_W)).trans (W3_arg3 m ρ c)
theorem W4_arg4 : W4 m ρ c (Proc.devRef .tc main_arg4) = m ((c : Thread nD τ).loc main_arg4) :=
  (StableHlo.after_of_writes_sub hostOps2 _ hostOps2_writes (by decide : main_arg4 ∉ hostOps2_W)).trans (W3_arg4 m ρ c)
theorem W5_arg0 : W5 m ρ c (Proc.devRef .tc main_arg0) = m ((c : Thread nD τ).loc main_arg0) :=
  (W5_of_ne m ρ c main_arg0 (by decide)).trans (W4_arg0 m ρ c)
theorem W5_arg1 : W5 m ρ c (Proc.devRef .tc main_arg1) = m ((c : Thread nD τ).loc main_arg1) :=
  (W5_of_ne m ρ c main_arg1 (by decide)).trans (W4_arg1 m ρ c)
theorem W5_arg2 : W5 m ρ c (Proc.devRef .tc main_arg2) = m ((c : Thread nD τ).loc main_arg2) :=
  (W5_of_ne m ρ c main_arg2 (by decide)).trans (W4_arg2 m ρ c)
theorem W5_arg3 : W5 m ρ c (Proc.devRef .tc main_arg3) = m ((c : Thread nD τ).loc main_arg3) :=
  (W5_of_ne m ρ c main_arg3 (by decide)).trans (W4_arg3 m ρ c)
theorem W5_arg4 : W5 m ρ c (Proc.devRef .tc main_arg4) = m ((c : Thread nD τ).loc main_arg4) :=
  (W5_of_ne m ρ c main_arg4 (by decide)).trans (W4_arg4 m ρ c)
theorem W6_arg0 : W6 m ρ c (Proc.devRef .tc main_arg0) = m ((c : Thread nD τ).loc main_arg0) :=
  (StableHlo.after_of_writes_sub hostOps3 _ hostOps3_writes (by decide : main_arg0 ∉ hostOps3_W)).trans (W5_arg0 m ρ c)
theorem W6_arg1 : W6 m ρ c (Proc.devRef .tc main_arg1) = m ((c : Thread nD τ).loc main_arg1) :=
  (StableHlo.after_of_writes_sub hostOps3 _ hostOps3_writes (by decide : main_arg1 ∉ hostOps3_W)).trans (W5_arg1 m ρ c)
theorem W6_arg2 : W6 m ρ c (Proc.devRef .tc main_arg2) = m ((c : Thread nD τ).loc main_arg2) :=
  (StableHlo.after_of_writes_sub hostOps3 _ hostOps3_writes (by decide : main_arg2 ∉ hostOps3_W)).trans (W5_arg2 m ρ c)
theorem W6_arg3 : W6 m ρ c (Proc.devRef .tc main_arg3) = m ((c : Thread nD τ).loc main_arg3) :=
  (StableHlo.after_of_writes_sub hostOps3 _ hostOps3_writes (by decide : main_arg3 ∉ hostOps3_W)).trans (W5_arg3 m ρ c)
theorem W6_arg4 : W6 m ρ c (Proc.devRef .tc main_arg4) = m ((c : Thread nD τ).loc main_arg4) :=
  (StableHlo.after_of_writes_sub hostOps3 _ hostOps3_writes (by decide : main_arg4 ∉ hostOps3_W)).trans (W5_arg4 m ρ c)
theorem W7_arg0 : W7 m ρ c (Proc.devRef .tc main_arg0) = m ((c : Thread nD τ).loc main_arg0) :=
  (W7_of_ne m ρ c main_arg0 (by decide)).trans (W6_arg0 m ρ c)
theorem W7_arg1 : W7 m ρ c (Proc.devRef .tc main_arg1) = m ((c : Thread nD τ).loc main_arg1) :=
  (W7_of_ne m ρ c main_arg1 (by decide)).trans (W6_arg1 m ρ c)
theorem W7_arg2 : W7 m ρ c (Proc.devRef .tc main_arg2) = m ((c : Thread nD τ).loc main_arg2) :=
  (W7_of_ne m ρ c main_arg2 (by decide)).trans (W6_arg2 m ρ c)
theorem W7_arg3 : W7 m ρ c (Proc.devRef .tc main_arg3) = m ((c : Thread nD τ).loc main_arg3) :=
  (W7_of_ne m ρ c main_arg3 (by decide)).trans (W6_arg3 m ρ c)
theorem W7_arg4 : W7 m ρ c (Proc.devRef .tc main_arg4) = m ((c : Thread nD τ).loc main_arg4) :=
  (W7_of_ne m ρ c main_arg4 (by decide)).trans (W6_arg4 m ρ c)
theorem W8_arg0 : W8 m ρ c (Proc.devRef .tc main_arg0) = m ((c : Thread nD τ).loc main_arg0) :=
  (StableHlo.after_of_writes_sub hostOps4 _ hostOps4_writes (by decide : main_arg0 ∉ hostOps4_W)).trans (W7_arg0 m ρ c)
theorem W8_arg1 : W8 m ρ c (Proc.devRef .tc main_arg1) = m ((c : Thread nD τ).loc main_arg1) :=
  (StableHlo.after_of_writes_sub hostOps4 _ hostOps4_writes (by decide : main_arg1 ∉ hostOps4_W)).trans (W7_arg1 m ρ c)
theorem W8_arg2 : W8 m ρ c (Proc.devRef .tc main_arg2) = m ((c : Thread nD τ).loc main_arg2) :=
  (StableHlo.after_of_writes_sub hostOps4 _ hostOps4_writes (by decide : main_arg2 ∉ hostOps4_W)).trans (W7_arg2 m ρ c)
theorem W8_arg3 : W8 m ρ c (Proc.devRef .tc main_arg3) = m ((c : Thread nD τ).loc main_arg3) :=
  (StableHlo.after_of_writes_sub hostOps4 _ hostOps4_writes (by decide : main_arg3 ∉ hostOps4_W)).trans (W7_arg3 m ρ c)
theorem W8_arg4 : W8 m ρ c (Proc.devRef .tc main_arg4) = m ((c : Thread nD τ).loc main_arg4) :=
  (StableHlo.after_of_writes_sub hostOps4 _ hostOps4_writes (by decide : main_arg4 ∉ hostOps4_W)).trans (W7_arg4 m ρ c)

end Cert.Kernel.Layers

end
-- ==== Proof.KDense0.lean ====
/-
  The first dense layer's call, one grid point at a time.

  The call walks 25 grid points; at point t it holds rows 2000·t … 2000·t + 1999 of the node features (window 0), the
  whole 128 × 128 weight matrix (window 1, fetched once and kept), and writes the same rows of the result (window 2).
  Its body reads the two input blocks whole, computes one value from them (the generated payload `k0_pay1`: the
  product of the block with the weights, rectified) and stores it over the whole output block.  This module states
  that: what each window's staging buffer holds after the body at a point, as a function of the input blocks; that
  the body, run on whole buffers holding those blocks, terminates leaving exactly that; and from it the obligation
  the pipeline's launch asks of a body at every grid point.  Nothing here depends on the float instance.
-/
import proofs.«138734_j81329500717447_2_alg».proof.Proof.Gen.KernelIdeal.Launch
import proofs.«138734_j81329500717447_2_alg».proof.Proof.Gen.KernelIdeal.Skeleton
import proofs.«138734_j81329500717447_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The feature window's current buffer holds its block at every point: a point that fetches puts it there, and a
    point that does not has the same block index as the one before it, whose block the body left in place. -/
theorem held0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The same for the weight window, which is fetched at the first point only and never moves. -/
theorem held0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-! ## What the body reads and writes -/

/-- The whole of a 2000 × 128 buffer. -/
abbrev rows0 : Rect S2000x128 := Rect.unit (s := S2000x128) ![0, 0] S2000x128.size inb_S2000x128_S2000x128_0_0
/-- The whole of the 128 × 128 weight buffer. -/
abbrev wts0 : Rect S128x128 := Rect.unit (s := S128x128) ![0, 0] S128x128.size inb_S128x128_S128x128_0_0

/-- The output buffer after the body, from the two input blocks: one store, over the whole buffer, of the payload. -/
def res0 (x0 : Vec F S2000x128 .f32) (x1 : Vec F S128x128 .f32) : Vec F S2000x128 .bf16 :=
  View.canon [⟨rows0, k0_pay1 (View.ld x0 rows0) (View.ld x1 wts0)⟩]

/-- That one store covers the buffer. -/
theorem covers0 (p0 : Vec F S2000x128 .bf16) (y : S2000x128.Idx) :
    ∃ pc ∈ ([⟨rows0, p0⟩] : List (View.Piece (Elt F) S2000x128 .bf16)), y ∈ pc.1.set :=
  View.cover_of_tiled [⟨rows0, p0⟩] S2000x128.size (by rfl) y

/-! ## The body terminates and leaves `res0` -/

set_option maxHeartbeats 1000000 in
/-- Run on whole buffers, the inputs' holding `x0` and `x1` and the output's holding anything, the body ends with the
    inputs' as they were and the output's at `res0 x0 x1`. -/
theorem body0_runs (c : Dev nD) (E : Set ℕ) (i : grid0.Coords)
    (arg1 : Memref sig .tc .vmem S2000x128 .f32) (harg1 : arg1.IsWhole) (arg2 : Memref sig .tc .vmem S128x128 .f32) (harg2 : arg2.IsWhole)
    (arg3 : Memref sig .tc .vmem S2000x128 .bf16) (harg3 : arg3.IsWhole)
    (x0 : Vec F S2000x128 .f32) (x1 : Vec F S128x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (res0 x0 x1)) -∗ K ⟨⟩))
      ⊢ wp frame (wpE (defs₀ (F := F)) Variants.none c none) E (cc0__linear_relu_kernel i arg1 harg1 arg2 harg2 arg3 harg3) K := by
  simp only [cc0__linear_relu_kernel_eq_skeleton]; unfold cc0__linear_relu_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (covers0 _)

/-! ## The launch's proof data for this call -/

/-- What the launch is told about this call on core `c`: its arrays are the entry contents; after the body at point
    `t` the input buffers still hold their blocks and the output buffer holds `res0` of them; the body needs nothing
    beyond the buffers (the class invariant: the scoped rest and the generator register ride along); no transfer is
    left owing; every share is whole. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => res0 (blk0 V c 0 t) (blk0 V c 1 t)
  Φ _ := Pipeline.ΦA spec0 c
  q _ := fullShare
  owed _ := 0

theorem dat0_A (c : Dev nD) (w : Fin cfg0.W) : (dat0 V c).A w = V c (Pipeline.arrRef spec0 w) := by
  dsimp only [dat0]

theorem dat0_after_0 (c : Dev nD) (t : Fin cfg0.N) : (dat0 V c).after 0 t = blk0 V c 0 t := by dsimp only [dat0]
theorem dat0_after_1 (c : Dev nD) (t : Fin cfg0.N) : (dat0 V c).after 1 t = blk0 V c 1 t := by dsimp only [dat0]
theorem dat0_after_2 (c : Dev nD) (t : Fin cfg0.N) : (dat0 V c).after 2 t = res0 (blk0 V c 0 t) (blk0 V c 1 t) := by dsimp only [dat0]

theorem dat0_before_0 (c : Dev nD) (t : Fin cfg0.N) (d) : (dat0 V c).before 0 t d = blk0 V c 0 t :=
  held0_0_of V (dat0 V c) (dat0_A V c 0) (dat0_after_0 V c) t d
theorem dat0_before_1 (c : Dev nD) (t : Fin cfg0.N) (d) : (dat0 V c).before 1 t d = blk0 V c 1 t :=
  held0_1_of V (dat0 V c) (dat0_A V c 1) (dat0_after_1 V c) t d

/-! ## The body obligation at a grid point -/

/-- What the pipeline hands the body at point `t`, window by window, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it wants back. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the input buffers hold their blocks, so `body0_runs` applies; the invariant and what the
    core owes pass through untouched. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_0, dat0_before_1]
  rw [show (dat0 V c).Φ t.succ = (dat0 V c).Φ t.castSucc from rfl,
    show (dat0 V c).owesAt () t.succ = (dat0 V c).owesAt () t.castSucc from rfl,
    dat0_after_0, dat0_after_1, dat0_after_2]
  iintro ⟨HΦ, Ho, ⟨%d0, H0⟩, ⟨%d1, H1⟩, ⟨%d2, H2⟩⟩
  iapply (body0_runs c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The obligation the launch asks of the body, at every grid point. -/
theorem body0_obligation (c : Dev nD) : BodyObligation (dat0 (F := F) V c) (defs₀ (F := F)) Variants.none () Set.univ := fun t => by
  rw [bigSep_W0, bigSep_W0]
  exact body0_at V c t

end Cert.KernelIdeal.Layers

end
-- ==== Proof.KDense1.lean ====
/-
  An aggregating dense layer's call (call 1 of the program), one grid point at a time.

  The call walks 25 grid points; at point t it holds rows 2000·t … 2000·t + 1999 of the aggregated features
  (window 0), the whole 128 × 128 weight matrix (window 1, fetched once and kept), the same rows of the one-column array
  of reciprocal in-degrees (window 2), and writes the same rows of the result (window 3).  Its body reads the three input
  blocks whole, computes one value from them (the generated payload `k1_pay1`: each row scaled by its reciprocal
  degree, multiplied with the weights, rectified) and stores it over the whole output block.  This module states what
  each window's staging buffer holds after the body at a point; that the body, run on whole buffers holding the input
  blocks, terminates leaving exactly that; and from it the obligation the pipeline's launch asks of a body at every
  grid point.  Nothing here depends on the float instance.
-/
import proofs.«138734_j81329500717447_2_alg».proof.Proof.Gen.KernelIdeal.Launch
import proofs.«138734_j81329500717447_2_alg».proof.Proof.Gen.KernelIdeal.Skeleton
import proofs.«138734_j81329500717447_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point: a point that fetches puts it there, and a point
    that does not has the same block index as the one before it, whose block the body left in place.  Window 0: -/
theorem held1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- the weight window, fetched at the first point only and never moving: -/
theorem held1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- the reciprocal-degree window: -/
theorem held1_2_of {c : Dev nD} (dat : Dat τ (Elt F) Unit ℕ (UR sig nD τ) ℕ cfg1 c) (hA : dat.A 2 = V c (Pipeline.arrRef spec1 2))
    (hafter : ∀ t, dat.after 2 t = blk1 V c 2 t) (t : Fin cfg1.N) (d) : dat.before 2 t d = blk1 V c 2 t :=
  (dat.before_in_eq_fetched 2 rfl (fun _ => rfl) (fun _ _ _ => rfl) (fun t => by rw [hafter]; unfold Dat.blockOf blk1; rw [hA]; try rfl) t d).trans
    (by unfold Dat.fetched Dat.blockOf blk1; rw [hA]; try rfl)

/-! ## What the body reads and writes -/

/-- The whole of a 2000 × 128 buffer. -/
abbrev rows1 : Rect S2000x128 := Rect.unit (s := S2000x128) ![0, 0] S2000x128.size inb_S2000x128_S2000x128_0_0
/-- The whole of the 128 × 128 weight buffer. -/
abbrev wts1 : Rect S128x128 := Rect.unit (s := S128x128) ![0, 0] S128x128.size inb_S128x128_S128x128_0_0
/-- The whole of a 2000 × 1 buffer. -/
abbrev col1 : Rect S2000x1 := Rect.unit (s := S2000x1) ![0, 0] S2000x1.size inb_S2000x1_S2000x1_0_0

/-- The output buffer after the body, from the three input blocks (features, weights, reciprocal degrees): one store,
    over the whole buffer, of the payload. -/
def res1 (x0 : Vec F S2000x128 .f32) (x1 : Vec F S128x128 .f32) (x2 : Vec F S2000x1 .f32) : Vec F S2000x128 .bf16 :=
  View.canon [⟨rows1, k1_pay1 (View.ld x0 rows1) (View.ld x2 col1) (View.ld x1 wts1)⟩]

/-- That one store covers the buffer. -/
theorem covers1 (p0 : Vec F S2000x128 .bf16) (y : S2000x128.Idx) :
    ∃ pc ∈ ([⟨rows1, p0⟩] : List (View.Piece (Elt F) S2000x128 .bf16)), y ∈ pc.1.set :=
  View.cover_of_tiled [⟨rows1, p0⟩] S2000x128.size (by rfl) y

/-! ## The body terminates and leaves `res1` -/

set_option maxHeartbeats 1000000 in
/-- Run on whole buffers, the inputs' holding `x0`, `x1`, `x2` and the output's holding anything, the body ends with
    the inputs' as they were and the output's at `res1 x0 x1 x2`. -/
theorem body1_runs (c : Dev nD) (E : Set ℕ) (i : grid1.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res1 x0 x1 x2)) -∗ K ⟨⟩))
      ⊢ wp frame (wpE (defs₀ (F := F)) Variants.none c none) E (cc1__linear_relu_agg_kernel i arg1 harg1 arg2 harg2 arg3 harg3 arg4 harg4) K := by
  simp only [cc1__linear_relu_agg_kernel_eq_skeleton]; unfold cc1__linear_relu_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers1 _)

/-! ## The launch's proof data for this call -/

/-- What the launch is told about this call on core `c`: its arrays are the entry contents; after the body at point
    `t` the input buffers still hold their blocks and the output buffer holds `res1` of them; the body needs nothing
    beyond the buffers (the class invariant: the scoped rest and the generator register ride along); no transfer is
    left owing; every share is whole. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => res1 (blk1 V c 0 t) (blk1 V c 1 t) (blk1 V c 2 t)
  Φ _ := Pipeline.ΦA spec1 c
  q _ := fullShare
  owed _ := 0

theorem dat1_A (c : Dev nD) (w : Fin cfg1.W) : (dat1 V c).A w = V c (Pipeline.arrRef spec1 w) := by
  dsimp only [dat1]

theorem dat1_after_0 (c : Dev nD) (t : Fin cfg1.N) : (dat1 V c).after 0 t = blk1 V c 0 t := by dsimp only [dat1]
theorem dat1_after_1 (c : Dev nD) (t : Fin cfg1.N) : (dat1 V c).after 1 t = blk1 V c 1 t := by dsimp only [dat1]
theorem dat1_after_2 (c : Dev nD) (t : Fin cfg1.N) : (dat1 V c).after 2 t = blk1 V c 2 t := by dsimp only [dat1]
theorem dat1_after_3 (c : Dev nD) (t : Fin cfg1.N) :
    (dat1 V c).after 3 t = res1 (blk1 V c 0 t) (blk1 V c 1 t) (blk1 V c 2 t) := by dsimp only [dat1]

theorem dat1_before_0 (c : Dev nD) (t : Fin cfg1.N) (d) : (dat1 V c).before 0 t d = blk1 V c 0 t :=
  held1_0_of V (dat1 V c) (dat1_A V c 0) (dat1_after_0 V c) t d
theorem dat1_before_1 (c : Dev nD) (t : Fin cfg1.N) (d) : (dat1 V c).before 1 t d = blk1 V c 1 t :=
  held1_1_of V (dat1 V c) (dat1_A V c 1) (dat1_after_1 V c) t d
theorem dat1_before_2 (c : Dev nD) (t : Fin cfg1.N) (d) : (dat1 V c).before 2 t d = blk1 V c 2 t :=
  held1_2_of V (dat1 V c) (dat1_A V c 2) (dat1_after_2 V c) t d

/-! ## The body obligation at a grid point -/

/-- What the pipeline hands the body at point `t`, window by window, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it wants back. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the input buffers hold their blocks, so `body1_runs` applies; the invariant and what
    the core owes pass through untouched. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_0, dat1_before_1, dat1_before_2]
  rw [show (dat1 V c).Φ t.succ = (dat1 V c).Φ t.castSucc from rfl,
    show (dat1 V c).owesAt () t.succ = (dat1 V c).owesAt () t.castSucc from rfl,
    dat1_after_0, dat1_after_1, dat1_after_2, dat1_after_3]
  iintro ⟨HΦ, Ho, ⟨%d0, H0⟩, ⟨%d1, H1⟩, ⟨%d2, H2⟩, ⟨%d3, H3⟩⟩
  iapply (body1_runs c Set.univ _ _ _ _ _ _ _ _ _ (blk1 V c 0 t) (blk1 V c 1 t) (blk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every grid point. -/
theorem body1_obligation (c : Dev nD) : BodyObligation (dat1 (F := F) V c) (defs₀ (F := F)) Variants.none () Set.univ := fun t => by
  rw [bigSep_W1, bigSep_W1]
  exact body1_at V c t

end Cert.KernelIdeal.Layers

end
-- ==== Proof.KDense2.lean ====
/-
  An aggregating dense layer's call (call 2 of the program), one grid point at a time.

  The call walks 25 grid points; at point t it holds rows 2000·t … 2000·t + 1999 of the aggregated features
  (window 0), the whole 128 × 128 weight matrix (window 1, fetched once and kept), the same rows of the one-column array
  of reciprocal in-degrees (window 2), and writes the same rows of the result (window 3).  Its body reads the three input
  blocks whole, computes one value from them (the generated payload `k2_pay1`: each row scaled by its reciprocal
  degree, multiplied with the weights, rectified) and stores it over the whole output block.  This module states what
  each window's staging buffer holds after the body at a point; that the body, run on whole buffers holding the input
  blocks, terminates leaving exactly that; and from it the obligation the pipeline's launch asks of a body at every
  grid point.  Nothing here depends on the float instance.
-/
import proofs.«138734_j81329500717447_2_alg».proof.Proof.Gen.KernelIdeal.Launch
import proofs.«138734_j81329500717447_2_alg».proof.Proof.Gen.KernelIdeal.Skeleton
import proofs.«138734_j81329500717447_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current buffer holds its block at every point: a point that fetches puts it there, and a point
    that does not has the same block index as the one before it, whose block the body left in place.  Window 0: -/
theorem held2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)

/-- the weight window, fetched at the first point only and never moving: -/
theorem held2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-- the reciprocal-degree window: -/
theorem held2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)

/-! ## What the body reads and writes -/

/-- The whole of a 2000 × 128 buffer. -/
abbrev rows2 : Rect S2000x128 := Rect.unit (s := S2000x128) ![0, 0] S2000x128.size inb_S2000x128_S2000x128_0_0
/-- The whole of the 128 × 128 weight buffer. -/
abbrev wts2 : Rect S128x128 := Rect.unit (s := S128x128) ![0, 0] S128x128.size inb_S128x128_S128x128_0_0
/-- The whole of a 2000 × 1 buffer. -/
abbrev col2 : Rect S2000x1 := Rect.unit (s := S2000x1) ![0, 0] S2000x1.size inb_S2000x1_S2000x1_0_0

/-- The output buffer after the body, from the three input blocks (features, weights, reciprocal degrees): one store,
    over the whole buffer, of the payload. -/
def res2 (x0 : Vec F S2000x128 .f32) (x1 : Vec F S128x128 .f32) (x2 : Vec F S2000x1 .f32) : Vec F S2000x128 .bf16 :=
  View.canon [⟨rows2, k2_pay1 (View.ld x0 rows2) (View.ld x2 col2) (View.ld x1 wts2)⟩]

/-- That one store covers the buffer. -/
theorem covers2 (p0 : Vec F S2000x128 .bf16) (y : S2000x128.Idx) :
    ∃ pc ∈ ([⟨rows2, p0⟩] : List (View.Piece (Elt F) S2000x128 .bf16)), y ∈ pc.1.set :=
  View.cover_of_tiled [⟨rows2, p0⟩] S2000x128.size (by rfl) y

/-! ## The body terminates and leaves `res2` -/

set_option maxHeartbeats 1000000 in
/-- Run on whole buffers, the inputs' holding `x0`, `x1`, `x2` and the output's holding anything, the body ends with
    the inputs' as they were and the output's at `res2 x0 x1 x2`. -/
theorem body2_runs (c : Dev nD) (E : Set ℕ) (i : grid2.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res2 x0 x1 x2)) -∗ K ⟨⟩))
      ⊢ wp frame (wpE (defs₀ (F := F)) Variants.none c none) E (cc2__linear_relu_agg_kernel i arg1 harg1 arg2 harg2 arg3 harg3 arg4 harg4) K := by
  simp only [cc2__linear_relu_agg_kernel_eq_skeleton]; unfold cc2__linear_relu_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers2 _)

/-! ## The launch's proof data for this call -/

/-- What the launch is told about this call on core `c`: its arrays are the entry contents; after the body at point
    `t` the input buffers still hold their blocks and the output buffer holds `res2` of them; the body needs nothing
    beyond the buffers (the class invariant: the scoped rest and the generator register ride along); no transfer is
    left owing; every share is whole. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => res2 (blk2 V c 0 t) (blk2 V c 1 t) (blk2 V c 2 t)
  Φ _ := Pipeline.ΦA spec2 c
  q _ := fullShare
  owed _ := 0

theorem dat2_A (c : Dev nD) (w : Fin cfg2.W) : (dat2 V c).A w = V c (Pipeline.arrRef spec2 w) := by
  dsimp only [dat2]

theorem dat2_after_0 (c : Dev nD) (t : Fin cfg2.N) : (dat2 V c).after 0 t = blk2 V c 0 t := by dsimp only [dat2]
theorem dat2_after_1 (c : Dev nD) (t : Fin cfg2.N) : (dat2 V c).after 1 t = blk2 V c 1 t := by dsimp only [dat2]
theorem dat2_after_2 (c : Dev nD) (t : Fin cfg2.N) : (dat2 V c).after 2 t = blk2 V c 2 t := by dsimp only [dat2]
theorem dat2_after_3 (c : Dev nD) (t : Fin cfg2.N) :
    (dat2 V c).after 3 t = res2 (blk2 V c 0 t) (blk2 V c 1 t) (blk2 V c 2 t) := by dsimp only [dat2]

theorem dat2_before_0 (c : Dev nD) (t : Fin cfg2.N) (d) : (dat2 V c).before 0 t d = blk2 V c 0 t :=
  held2_0_of V (dat2 V c) (dat2_A V c 0) (dat2_after_0 V c) t d
theorem dat2_before_1 (c : Dev nD) (t : Fin cfg2.N) (d) : (dat2 V c).before 1 t d = blk2 V c 1 t :=
  held2_1_of V (dat2 V c) (dat2_A V c 1) (dat2_after_1 V c) t d
theorem dat2_before_2 (c : Dev nD) (t : Fin cfg2.N) (d) : (dat2 V c).before 2 t d = blk2 V c 2 t :=
  held2_2_of V (dat2 V c) (dat2_A V c 2) (dat2_after_2 V c) t d

/-! ## The body obligation at a grid point -/

/-- What the pipeline hands the body at point `t`, window by window, -/
def pre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it wants back. -/
def post2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the input buffers hold their blocks, so `body2_runs` applies; the invariant and what
    the core owes pass through untouched. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_0, dat2_before_1, dat2_before_2]
  rw [show (dat2 V c).Φ t.succ = (dat2 V c).Φ t.castSucc from rfl,
    show (dat2 V c).owesAt () t.succ = (dat2 V c).owesAt () t.castSucc from rfl,
    dat2_after_0, dat2_after_1, dat2_after_2, dat2_after_3]
  iintro ⟨HΦ, Ho, ⟨%d0, H0⟩, ⟨%d1, H1⟩, ⟨%d2, H2⟩, ⟨%d3, H3⟩⟩
  iapply (body2_runs c Set.univ _ _ _ _ _ _ _ _ _ (blk2 V c 0 t) (blk2 V c 1 t) (blk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every grid point. -/
theorem body2_obligation (c : Dev nD) : BodyObligation (dat2 (F := F) V c) (defs₀ (F := F)) Variants.none () Set.univ := fun t => by
  rw [bigSep_W2, bigSep_W2]
  exact body2_at V c t

end Cert.KernelIdeal.Layers

end
-- ==== Proof.KDense3.lean ====
/-
  An aggregating dense layer's call (call 3 of the program), one grid point at a time.

  The call walks 25 grid points; at point t it holds rows 2000·t … 2000·t + 1999 of the aggregated features
  (window 0), the whole 128 × 128 weight matrix (window 1, fetched once and kept), the same rows of the one-column array
  of reciprocal in-degrees (window 2), and writes the same rows of the result (window 3).  Its body reads the three input
  blocks whole, computes one value from them (the generated payload `k3_pay1`: each row scaled by its reciprocal
  degree, multiplied with the weights, rectified) and stores it over the whole output block.  This module states what
  each window's staging buffer holds after the body at a point; that the body, run on whole buffers holding the input
  blocks, terminates leaving exactly that; and from it the obligation the pipeline's launch asks of a body at every
  grid point.  Nothing here depends on the float instance.
-/
import proofs.«138734_j81329500717447_2_alg».proof.Proof.Gen.KernelIdeal.Launch
import proofs.«138734_j81329500717447_2_alg».proof.Proof.Gen.KernelIdeal.Skeleton
import proofs.«138734_j81329500717447_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of 2000 × 128 entries is decided by a structural walk along the long axis
set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the call is entered: every statement below is made at an arbitrary such
-- valuation, and the run later supplies the one the program really reaches
variable (V : (c : Dev nD) → (b : Ref sig .tc) → Buf (Elt F) ((c : Thread nD τ).loc b))

/-! ## The blocks the body is handed -/

/-- Window `w`'s block at grid point `t`, cut out of the window's array as the call finds it. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current buffer holds its block at every point: a point that fetches puts it there, and a point
    that does not has the same block index as the one before it, whose block the body left in place.  Window 0: -/
theorem held3_0_of {c : Dev nD} (dat : Dat τ (Elt F) Unit ℕ (UR sig nD τ) ℕ cfg3 c) (hA : dat.A 0 = V c (Pipeline.arrRef spec3 0))
    (hafter : ∀ t, dat.after 0 t = blk3 V c 0 t) (t : Fin cfg3.N) (d) : dat.before 0 t d = blk3 V c 0 t :=
  (dat.before_in_eq_fetched 0 rfl (fun _ => rfl) (fun _ _ _ => rfl) (fun t => by rw [hafter]; unfold Dat.blockOf blk3; rw [hA]; try rfl) t d).trans
    (by unfold Dat.fetched Dat.blockOf blk3; rw [hA]; try rfl)

/-- the weight window, fetched at the first point only and never moving: -/
theorem held3_1_of {c : Dev nD} (dat : Dat τ (Elt F) Unit ℕ (UR sig nD τ) ℕ cfg3 c) (hA : dat.A 1 = V c (Pipeline.arrRef spec3 1))
    (hafter : ∀ t, dat.after 1 t = blk3 V c 1 t) (t : Fin cfg3.N) (d) : dat.before 1 t d = blk3 V c 1 t :=
  (dat.before_in_eq_fetched 1 rfl (fun _ => rfl) (fun _ _ _ => rfl) (fun t => by rw [hafter]; unfold Dat.blockOf blk3; rw [hA]; try rfl) t d).trans
    (by unfold Dat.fetched Dat.blockOf blk3; rw [hA]; try rfl)

/-- the reciprocal-degree window: -/
theorem held3_2_of {c : Dev nD} (dat : Dat τ (Elt F) Unit ℕ (UR sig nD τ) ℕ cfg3 c) (hA : dat.A 2 = V c (Pipeline.arrRef spec3 2))
    (hafter : ∀ t, dat.after 2 t = blk3 V c 2 t) (t : Fin cfg3.N) (d) : dat.before 2 t d = blk3 V c 2 t :=
  (dat.before_in_eq_fetched 2 rfl (fun _ => rfl) (fun _ _ _ => rfl) (fun t => by rw [hafter]; unfold Dat.blockOf blk3; rw [hA]; try rfl) t d).trans
    (by unfold Dat.fetched Dat.blockOf blk3; rw [hA]; try rfl)

/-! ## What the body reads and writes -/

/-- The whole of a 2000 × 128 buffer. -/
abbrev rows3 : Rect S2000x128 := Rect.unit (s := S2000x128) ![0, 0] S2000x128.size inb_S2000x128_S2000x128_0_0
/-- The whole of the 128 × 128 weight buffer. -/
abbrev wts3 : Rect S128x128 := Rect.unit (s := S128x128) ![0, 0] S128x128.size inb_S128x128_S128x128_0_0
/-- The whole of a 2000 × 1 buffer. -/
abbrev col3 : Rect S2000x1 := Rect.unit (s := S2000x1) ![0, 0] S2000x1.size inb_S2000x1_S2000x1_0_0

/-- The output buffer after the body, from the three input blocks (features, weights, reciprocal degrees): one store,
    over the whole buffer, of the payload. -/
def res3 (x0 : Vec F S2000x128 .f32) (x1 : Vec F S128x128 .f32) (x2 : Vec F S2000x1 .f32) : Vec F S2000x128 .bf16 :=
  View.canon [⟨rows3, k3_pay1 (View.ld x0 rows3) (View.ld x2 col3) (View.ld x1 wts3)⟩]

/-- That one store covers the buffer. -/
theorem covers3 (p0 : Vec F S2000x128 .bf16) (y : S2000x128.Idx) :
    ∃ pc ∈ ([⟨rows3, p0⟩] : List (View.Piece (Elt F) S2000x128 .bf16)), y ∈ pc.1.set :=
  View.cover_of_tiled [⟨rows3, p0⟩] S2000x128.size (by rfl) y

/-! ## The body terminates and leaves `res3` -/

set_option maxHeartbeats 1000000 in
/-- Run on whole buffers, the inputs' holding `x0`, `x1`, `x2` and the output's holding anything, the body ends with
    the inputs' as they were and the output's at `res3 x0 x1 x2`. -/
theorem body3_runs (c : Dev nD) (E : Set ℕ) (i : grid3.Coords)
    (arg1 : Memref sig .tc .vmem S2000x128 .f32) (harg1 : arg1.IsWhole) (arg2 : Memref sig .tc .vmem S128x128 .f32) (harg2 : arg2.IsWhole)
    (arg3 : Memref sig .tc .vmem S2000x1 .f32) (harg3 : arg3.IsWhole) (arg4 : Memref sig .tc .vmem S2000x128 .bf16) (harg4 : arg4.IsWhole)
    (x0 : Vec F S2000x128 .f32) (x1 : Vec F S128x128 .f32) (x2 : Vec F S2000x1 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (res3 x0 x1 x2)) -∗ K ⟨⟩))
      ⊢ wp frame (wpE (defs₀ (F := F)) Variants.none c none) E (cc3__linear_relu_agg_kernel i arg1 harg1 arg2 harg2 arg3 harg3 arg4 harg4) K := by
  simp only [cc3__linear_relu_agg_kernel_eq_skeleton]; unfold cc3__linear_relu_agg_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (covers3 _)

/-! ## The launch's proof data for this call -/

/-- What the launch is told about this call on core `c`: its arrays are the entry contents; after the body at point
    `t` the input buffers still hold their blocks and the output buffer holds `res3` of them; the body needs nothing
    beyond the buffers (the class invariant: the scoped rest and the generator register ride along); no transfer is
    left owing; every share is whole. -/
def dat3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => res3 (blk3 V c 0 t) (blk3 V c 1 t) (blk3 V c 2 t)
  Φ _ := Pipeline.ΦA spec3 c
  q _ := fullShare
  owed _ := 0

theorem dat3_A (c : Dev nD) (w : Fin cfg3.W) : (dat3 V c).A w = V c (Pipeline.arrRef spec3 w) := by
  dsimp only [dat3]

theorem dat3_after_0 (c : Dev nD) (t : Fin cfg3.N) : (dat3 V c).after 0 t = blk3 V c 0 t := by dsimp only [dat3]
theorem dat3_after_1 (c : Dev nD) (t : Fin cfg3.N) : (dat3 V c).after 1 t = blk3 V c 1 t := by dsimp only [dat3]
theorem dat3_after_2 (c : Dev nD) (t : Fin cfg3.N) : (dat3 V c).after 2 t = blk3 V c 2 t := by dsimp only [dat3]
theorem dat3_after_3 (c : Dev nD) (t : Fin cfg3.N) :
    (dat3 V c).after 3 t = res3 (blk3 V c 0 t) (blk3 V c 1 t) (blk3 V c 2 t) := by dsimp only [dat3]

theorem dat3_before_0 (c : Dev nD) (t : Fin cfg3.N) (d) : (dat3 V c).before 0 t d = blk3 V c 0 t :=
  held3_0_of V (dat3 V c) (dat3_A V c 0) (dat3_after_0 V c) t d
theorem dat3_before_1 (c : Dev nD) (t : Fin cfg3.N) (d) : (dat3 V c).before 1 t d = blk3 V c 1 t :=
  held3_1_of V (dat3 V c) (dat3_A V c 1) (dat3_after_1 V c) t d
theorem dat3_before_2 (c : Dev nD) (t : Fin cfg3.N) (d) : (dat3 V c).before 2 t d = blk3 V c 2 t :=
  held3_2_of V (dat3 V c) (dat3_A V c 2) (dat3_after_2 V c) t d

/-! ## The body obligation at a grid point -/

/-- What the pipeline hands the body at point `t`, window by window, -/
def pre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it wants back. -/
def post3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the input buffers hold their blocks, so `body3_runs` applies; the invariant and what
    the core owes pass through untouched. -/
theorem body3_at (c : Dev nD) (t : Fin cfg3.N) :
    pre3 V c t ⊢ wp frame (wpE (defs₀ (F := F)) Variants.none c none) Set.univ (bodyAt3 t) (fun _ => post3 V c t) := by
  unfold pre3 post3 bodyAt3
  simp only [dat3_before_0, dat3_before_1, dat3_before_2]
  rw [show (dat3 V c).Φ t.succ = (dat3 V c).Φ t.castSucc from rfl,
    show (dat3 V c).owesAt () t.succ = (dat3 V c).owesAt () t.castSucc from rfl,
    dat3_after_0, dat3_after_1, dat3_after_2, dat3_after_3]
  iintro ⟨HΦ, Ho, ⟨%d0, H0⟩, ⟨%d1, H1⟩, ⟨%d2, H2⟩, ⟨%d3, H3⟩⟩
  iapply (body3_runs c Set.univ _ _ _ _ _ _ _ _ _ (blk3 V c 0 t) (blk3 V c 1 t) (blk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The obligation the launch asks of the body, at every grid point. -/
theorem body3_obligation (c : Dev nD) : BodyObligation (dat3 (F := F) V c) (defs₀ (F := F)) Variants.none () Set.univ := fun t => by
  rw [bigSep_W3, bigSep_W3]
  exact body3_at V c t

end Cert.KernelIdeal.Layers

end
-- ==== Proof.KRun.lean ====
/-
  The whole program as a run: four calls with stretches of host operations between and after them.

  The contents of the core's unscoped buffers are followed from the launch to the return: a host stretch replaces them by
  the operations' results (`StableHlo.after`), a call replaces its output array by what its write-backs leave and keeps
  everything else.  Each call is entered with every unscoped buffer held whole at the contents reached so far and left
  with them at the next contents, so the segments chain, and the launch theorem for a sequence of calls and host
  stretches gives: every weakly fair execution terminates, nothing faults, and at the end every unscoped buffer holds
  the last contents `W8`.  What the arguments and the result are at `W8` is read off separately.
-/
import proofs.«138734_j81329500717447_2_alg».proof.Proof.KDense0
import proofs.«138734_j81329500717447_2_alg».proof.Proof.KDense1
import proofs.«138734_j81329500717447_2_alg».proof.Proof.KDense2
import proofs.«138734_j81329500717447_2_alg».proof.Proof.KDense3
import proofs.«138734_j81329500717447_2_alg».proof.Proof.Gen.KernelIdeal.Regions

set_option maxRecDepth 16384

noncomputable section

namespace Cert.KernelIdeal.Layers

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => (s₀ m ρ).mem ((c : Dev nD), b)
/-- The same read at the TensorCore's references (what the first call finds). -/
abbrev B0 : (c : Dev nD) → (b : Ref sig .tc) → Buf (Elt F) ((c : Thread nD τ).loc b) := fun c b => W0 m ρ c b

/-- After call 0: its arrays at what the pipeline leaves (an input as entered, the output's write-backs folded in), every
    other buffer as entered. -/
def W1 (c : Dev nD) : Valuation τ sig (Elt F) :=
  Pipeline.withArrays spec0 c (W0 m ρ c) fun w => (dat0 (B0 m ρ) c).arrAt w cfg0.N
theorem W1_arr (c : Dev nD) (w : Fin cfg0.W) :
    W1 m ρ c (Proc.devRef .tc (Pipeline.arrRef spec0 w)) = (dat0 (B0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- The same read at the TensorCore's references. -/
abbrev B1 : (c : Dev nD) → (b : Ref sig .tc) → Buf (Elt F) ((c : Thread nD τ).loc b) := fun c b => W1 m ρ c b
theorem left0 (c : Dev nD) (w : Fin cfg0.W) : (dat0 (B0 m ρ) c).arrAt w cfg0.N = B1 m ρ c (Pipeline.arrRef spec0 w) :=
  (W1_arr m ρ c w).symm
theorem kept0 (c : Dev nD) : ∀ b, b ∉ Finset.univ.image (Pipeline.arrRef spec0) → B1 m ρ c b = B0 m ρ c b :=
  fun b hb => W1_of_ne m ρ c b fun w e => hb (Finset.mem_image.mpr ⟨w, Finset.mem_univ _, e⟩)

/-- After the host stretch `hostOps1`. -/
abbrev W2 : Dev nD → Valuation τ sig (Elt F) := fun c => StableHlo.after hostOps1 (W1 m ρ c)
/-- The same read at the TensorCore's references. -/
abbrev B2 : (c : Dev nD) → (b : Ref sig .tc) → Buf (Elt F) ((c : Thread nD τ).loc b) := fun c b => W2 m ρ c b

/-- After call 1: its arrays at what the pipeline leaves (an input as entered, the output's write-backs folded in), every
    other buffer as entered. -/
def W3 (c : Dev nD) : Valuation τ sig (Elt F) :=
  Pipeline.withArrays spec1 c (W2 m ρ c) fun w => (dat1 (B2 m ρ) c).arrAt w cfg1.N
theorem W3_arr (c : Dev nD) (w : Fin cfg1.W) :
    W3 m ρ c (Proc.devRef .tc (Pipeline.arrRef spec1 w)) = (dat1 (B2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the TensorCore's references. -/
abbrev B3 : (c : Dev nD) → (b : Ref sig .tc) → Buf (Elt F) ((c : Thread nD τ).loc b) := fun c b => W3 m ρ c b
theorem left1 (c : Dev nD) (w : Fin cfg1.W) : (dat1 (B2 m ρ) c).arrAt w cfg1.N = B3 m ρ c (Pipeline.arrRef spec1 w) :=
  (W3_arr m ρ c w).symm
theorem kept1 (c : Dev nD) : ∀ b, b ∉ Finset.univ.image (Pipeline.arrRef spec1) → B3 m ρ c b = B2 m ρ c b :=
  fun b hb => W3_of_ne m ρ c b fun w e => hb (Finset.mem_image.mpr ⟨w, Finset.mem_univ _, e⟩)

/-- After the host stretch `hostOps2`. -/
abbrev W4 : Dev nD → Valuation τ sig (Elt F) := fun c => StableHlo.after hostOps2 (W3 m ρ c)
/-- The same read at the TensorCore's references. -/
abbrev B4 : (c : Dev nD) → (b : Ref sig .tc) → Buf (Elt F) ((c : Thread nD τ).loc b) := fun c b => W4 m ρ c b

/-- After call 2: its arrays at what the pipeline leaves (an input as entered, the output's write-backs folded in), every
    other buffer as entered. -/
def W5 (c : Dev nD) : Valuation τ sig (Elt F) :=
  Pipeline.withArrays spec2 c (W4 m ρ c) fun w => (dat2 (B4 m ρ) c).arrAt w cfg2.N
theorem W5_arr (c : Dev nD) (w : Fin cfg2.W) :
    W5 m ρ c (Proc.devRef .tc (Pipeline.arrRef spec2 w)) = (dat2 (B4 m ρ) c).arrAt w cfg2.N := by
  unfold W5; exact Pipeline.withArrays_arr spec2 launch2.win.arr_inj c _ _ w
theorem W5_of_ne (c : Dev nD) (b : Ref sig .tc) (hb : ∀ w, Pipeline.arrRef spec2 w ≠ b) :
    W5 m ρ c (Proc.devRef .tc b) = W4 m ρ c (Proc.devRef .tc b) := by
  unfold W5; exact Pipeline.withArrays_of_ne spec2 c _ _ b hb
/-- The same read at the TensorCore's references. -/
abbrev B5 : (c : Dev nD) → (b : Ref sig .tc) → Buf (Elt F) ((c : Thread nD τ).loc b) := fun c b => W5 m ρ c b
theorem left2 (c : Dev nD) (w : Fin cfg2.W) : (dat2 (B4 m ρ) c).arrAt w cfg2.N = B5 m ρ c (Pipeline.arrRef spec2 w) :=
  (W5_arr m ρ c w).symm
theorem kept2 (c : Dev nD) : ∀ b, b ∉ Finset.univ.image (Pipeline.arrRef spec2) → B5 m ρ c b = B4 m ρ c b :=
  fun b hb => W5_of_ne m ρ c b fun w e => hb (Finset.mem_image.mpr ⟨w, Finset.mem_univ _, e⟩)

/-- After the host stretch `hostOps3`. -/
abbrev W6 : Dev nD → Valuation τ sig (Elt F) := fun c => StableHlo.after hostOps3 (W5 m ρ c)
/-- The same read at the TensorCore's references. -/
abbrev B6 : (c : Dev nD) → (b : Ref sig .tc) → Buf (Elt F) ((c : Thread nD τ).loc b) := fun c b => W6 m ρ c b

/-- After call 3: its arrays at what the pipeline leaves (an input as entered, the output's write-backs folded in), every
    other buffer as entered. -/
def W7 (c : Dev nD) : Valuation τ sig (Elt F) :=
  Pipeline.withArrays spec3 c (W6 m ρ c) fun w => (dat3 (B6 m ρ) c).arrAt w cfg3.N
theorem W7_arr (c : Dev nD) (w : Fin cfg3.W) :
    W7 m ρ c (Proc.devRef .tc (Pipeline.arrRef spec3 w)) = (dat3 (B6 m ρ) c).arrAt w cfg3.N := by
  unfold W7; exact Pipeline.withArrays_arr spec3 launch3.win.arr_inj c _ _ w
theorem W7_of_ne (c : Dev nD) (b : Ref sig .tc) (hb : ∀ w, Pipeline.arrRef spec3 w ≠ b) :
    W7 m ρ c (Proc.devRef .tc b) = W6 m ρ c (Proc.devRef .tc b) := by
  unfold W7; exact Pipeline.withArrays_of_ne spec3 c _ _ b hb
/-- The same read at the TensorCore's references. -/
abbrev B7 : (c : Dev nD) → (b : Ref sig .tc) → Buf (Elt F) ((c : Thread nD τ).loc b) := fun c b => W7 m ρ c b
theorem left3 (c : Dev nD) (w : Fin cfg3.W) : (dat3 (B6 m ρ) c).arrAt w cfg3.N = B7 m ρ c (Pipeline.arrRef spec3 w) :=
  (W7_arr m ρ c w).symm
theorem kept3 (c : Dev nD) : ∀ b, b ∉ Finset.univ.image (Pipeline.arrRef spec3) → B7 m ρ c b = B6 m ρ c b :=
  fun b hb => W7_of_ne m ρ c b fun w e => hb (Finset.mem_image.mpr ⟨w, Finset.mem_univ _, e⟩)

/-- After the host stretch `hostOps4`. -/
abbrev W8 : Dev nD → Valuation τ sig (Elt F) := fun c => StableHlo.after hostOps4 (W7 m ρ c)
/-- The same read at the TensorCore's references. -/
abbrev B8 : (c : Dev nD) → (b : Ref sig .tc) → Buf (Elt F) ((c : Thread nD τ).loc b) := fun c b => W8 m ρ c b

/-! ## The proof data of the four calls, and what rides along -/

/-- No call has a prefetched table. -/
abbrev noTables : (p : Fin 4) → (pcfgs (F := F) p).Adm := fun p => (cfgs p).toPCfg_adm
/-- Each call's proof data at the contents it is entered with. -/
def pdats : (p : Fin 4) → (c : Dev nD) → Dat τ (Elt F) Unit ℕ (UR sig nD τ) ℕ (Pipeline.pin (pcfgs (F := F)) noTables p) c
  | ⟨0, _⟩ => fun c => dat0 (B0 m ρ) c
  | ⟨1, _⟩ => fun c => dat1 (B2 m ρ) c
  | ⟨2, _⟩ => fun c => dat2 (B4 m ρ) c
  | ⟨3, _⟩ => fun c => dat3 (B6 m ρ) c
abbrev 𝒱₀ : Variants := Variants.none
/-- No core owes another anything. -/
abbrev L : GSem nD τ sig → Finset Unit := fun _ => ∅
abbrev lv : GSem nD τ sig → Unit → ℕ := fun _ _ => 0
/-- Beside the buffers, through every segment: the core's generator register at some state, and the core owing nothing. -/
abbrev Rest (c : Dev nD) : sProp 𝕄 := iprop((∃ r, prngReg c r) ∗ ∃ W, owes (c : Thread nD τ) (0 : CellTallies nD τ sig Unit) W)
/-- A host stretch as a segment, from the contents `W`. -/
abbrev stretch (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed. -/
abbrev Tend (c : Dev nD) : sProp 𝕄 := iprop(StableHlo.held (c : Thread nD τ) (Pipeline.ucRefs τ sig) (W8 m ρ c) ∗ ∃ r, prngReg c r)

/-! ## The calls as segments -/

-- a library lemma stated over the pinned configuration unifies with this call's only when unification may unfold plain
-- definitions in a metavariable's type
set_option backward.isDefEq.respectTransparency.types false in
/-- Call 0 as a segment of the run: entered with every unscoped buffer at `W0`, left with them at `W1`.  Its
    arrays are split out of the unscoped buffers on entry and put back, at what the write-backs left, on exit; the
    generator register goes into the class invariant and comes back; nothing is owed; the body has no semaphore of
    its own. -/
def call0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body0_obligation (B0 m ρ) c).loose
  hwaits := Pipeline.hwaits_of_owed_zero _ _ _ _ L lv 0 fun _ _ => rfl
  pre c := iprop(StableHlo.held (c : Thread nD τ) (Pipeline.ucRefs τ sig) (W0 m ρ c) ∗ Rest c)
  post c := iprop(StableHlo.held (c : Thread nD τ) (Pipeline.ucRefs τ sig) (W1 m ρ c) ∗ Rest c)
  X c := iprop(∃ r, prngReg c r)
  Y c := iprop(∃ r, prngReg c r)
  Z c := Pipeline.unscopedRest (Ix := Unit) (Name := ℕ) (U := UR sig nD τ) (Lvl := ℕ) spec0 c (B0 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (B0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (B0 m ρ c) (B1 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this call's only when unification may unfold plain
-- definitions in a metavariable's type
set_option backward.isDefEq.respectTransparency.types false in
/-- Call 1 as a segment of the run: entered with every unscoped buffer at `W2`, left with them at `W3`.  Its
    arrays are split out of the unscoped buffers on entry and put back, at what the write-backs left, on exit; the
    generator register goes into the class invariant and comes back; nothing is owed; the body has no semaphore of
    its own. -/
def call1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body1_obligation (B2 m ρ) c).loose
  hwaits := Pipeline.hwaits_of_owed_zero _ _ _ _ L lv 1 fun _ _ => rfl
  pre c := iprop(StableHlo.held (c : Thread nD τ) (Pipeline.ucRefs τ sig) (W2 m ρ c) ∗ Rest c)
  post c := iprop(StableHlo.held (c : Thread nD τ) (Pipeline.ucRefs τ sig) (W3 m ρ c) ∗ Rest c)
  X c := iprop(∃ r, prngReg c r)
  Y c := iprop(∃ r, prngReg c r)
  Z c := Pipeline.unscopedRest (Ix := Unit) (Name := ℕ) (U := UR sig nD τ) (Lvl := ℕ) spec1 c (B2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (B2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (B2 m ρ c) (B3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this call's only when unification may unfold plain
-- definitions in a metavariable's type
set_option backward.isDefEq.respectTransparency.types false in
/-- Call 2 as a segment of the run: entered with every unscoped buffer at `W4`, left with them at `W5`.  Its
    arrays are split out of the unscoped buffers on entry and put back, at what the write-backs left, on exit; the
    generator register goes into the class invariant and comes back; nothing is owed; the body has no semaphore of
    its own. -/
def call2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body2_obligation (B4 m ρ) c).loose
  hwaits := Pipeline.hwaits_of_owed_zero _ _ _ _ L lv 2 fun _ _ => rfl
  pre c := iprop(StableHlo.held (c : Thread nD τ) (Pipeline.ucRefs τ sig) (W4 m ρ c) ∗ Rest c)
  post c := iprop(StableHlo.held (c : Thread nD τ) (Pipeline.ucRefs τ sig) (W5 m ρ c) ∗ Rest c)
  X c := iprop(∃ r, prngReg c r)
  Y c := iprop(∃ r, prngReg c r)
  Z c := Pipeline.unscopedRest (Ix := Unit) (Name := ℕ) (U := UR sig nD τ) (Lvl := ℕ) spec2 c (B4 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (B4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (B4 m ρ c) (B5 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with this call's only when unification may unfold plain
-- definitions in a metavariable's type
set_option backward.isDefEq.respectTransparency.types false in
/-- Call 3 as a segment of the run: entered with every unscoped buffer at `W6`, left with them at `W7`.  Its
    arrays are split out of the unscoped buffers on entry and put back, at what the write-backs left, on exit; the
    generator register goes into the class invariant and comes back; nothing is owed; the body has no semaphore of
    its own. -/
def call3 : Pipeline.RegionSeg (pcfgs (F := F)) noTables (pdats m ρ) () defs₀ 𝒱₀ L lv 3 where
  win := launch3.win.to₀
  block_pos := launch3.block_pos
  stage_whole := launch3.stage_whole
  K := PEmpty
  osem k := k.elim
  ho := Pipeline.OwnSemFacts.none _
  hbody c := (body3_obligation (B6 m ρ) c).loose
  hwaits := Pipeline.hwaits_of_owed_zero _ _ _ _ L lv 3 fun _ _ => rfl
  pre c := iprop(StableHlo.held (c : Thread nD τ) (Pipeline.ucRefs τ sig) (W6 m ρ c) ∗ Rest c)
  post c := iprop(StableHlo.held (c : Thread nD τ) (Pipeline.ucRefs τ sig) (W7 m ρ c) ∗ Rest c)
  X c := iprop(∃ r, prngReg c r)
  Y c := iprop(∃ r, prngReg c r)
  Z c := Pipeline.unscopedRest (Ix := Unit) (Name := ℕ) (U := UR sig nD τ) (Lvl := ℕ) spec3 c (B6 m ρ c)
  hentry c := by
    rw [Pipeline.ownSems0_none]
    have hsplit := Pipeline.arrays_of_unscopedBufs (p := 3) (pcfgs (F := F)) noTables (pdats m ρ) launch3.win launch3.arr_whole c
      ((pdats m ρ 3 c).share_full fun _ => rfl) (B6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) noTables (Ix := Unit) (Name := ℕ) (U := UR sig nD τ) (Lvl := ℕ)
      launch3.win launch3.arr_whole c (pdats m ρ) ((pdats m ρ 3 c).share_full fun _ => rfl)
      (B6 m ρ c) (B7 m ρ c) ((pdats m ρ 3 c).arrAt · cfg3.N) (left3 m ρ c) (kept3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

/-- The program's eight segments in order. -/
abbrev pieces : List (Pipeline.Seg (pcfgs (F := F)) noTables (pdats m ρ) () defs₀ 𝒱₀ L lv) :=
  [ .region (call0 m ρ),
    .host (stretch hostOps1 hostOps1_sub hostOps1_fresh (W1 m ρ)),
    .region (call1 m ρ),
    .host (stretch hostOps2 hostOps2_sub hostOps2_fresh (W3 m ρ)),
    .region (call2 m ρ),
    .host (stretch hostOps3 hostOps3_sub hostOps3_fresh (W5 m ρ)),
    .region (call3 m ρ),
    .host (stretch hostOps4 hostOps4_sub hostOps4_fresh (W7 m ρ)) ]
/-- The program is the run of its segments. -/
theorem main_is_segs (c : Dev nD) : main (F := F) c = Pipeline.Seg.run (pieces m ρ) := (main_chain c).trans (by chain_rfl)

-- the launch theorem's implicit arguments are found by unifying its conclusion with this one, which takes unfolding
-- plain definitions in a metavariable's type
set_option backward.isDefEq.respectTransparency.types false in
/-- Every weakly fair execution from `m` with zero counters terminates, nothing faulting, and at the end every
    unscoped buffer of every core holds the last contents `W8`. -/
theorem run_to_W8 : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) noTables (pdats m ρ) () cellOf_inj emb₁ defs₀ 𝒱₀ L lv m ρ main (pieces m ρ)
    (fun c Q => by rw [main_is_segs m ρ c])
    (by simp only [pieces, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ Rest c)) (Tₙ := Tend m ρ)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m ρ c) ∗ Rest c) : sProp 𝕄) ⊢ _
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c => h c)

end Cert.KernelIdeal.Layers

end
-- ==== Proof.KArgs.lean ====
/-
  The five arguments reach every boundary of the run as launched.

  No host stretch writes an argument's buffer, and a call changes only its output array; the first call reads the
  features and the first weight matrix through input windows, whose arrays the pipeline leaves as it found them.  So
  the contents of an argument's buffer at each boundary `W1` … `W8` walk back, step by step, to the launch memory.
  Nothing here depends on the float instance.
-/
import proofs.«138734_j81329500717447_2_alg».proof.Proof.KRun
import Idealize.ShloMosaic.Lib.StableHlo.Run

set_option maxRecDepth 16384

noncomputable section

namespace Cert.KernelIdeal.Layers

open Idealize.ShloMosaic Idealize.ShloMosaic.TcCoe Idealize.ShloMosaic.StableHlo Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg) (c : Dev nD)

theorem W1_arg0 : W1 m ρ c (Proc.devRef .tc main_arg0) = m ((c : Thread nD τ).loc main_arg0) :=
  (W1_arr m ρ c 0).trans (((dat0 (B0 m ρ) c).arrAt_in 0 rfl _).trans (dat0_A (B0 m ρ) c 0))
theorem W1_arg1 : W1 m ρ c (Proc.devRef .tc main_arg1) = m ((c : Thread nD τ).loc main_arg1) :=
  W1_of_ne m ρ c main_arg1 (by decide)
theorem W1_arg2 : W1 m ρ c (Proc.devRef .tc main_arg2) = m ((c : Thread nD τ).loc main_arg2) :=
  W1_of_ne m ρ c main_arg2 (by decide)
theorem W1_arg3 : W1 m ρ c (Proc.devRef .tc main_arg3) = m ((c : Thread nD τ).loc main_arg3) :=
  (W1_arr m ρ c 1).trans (((dat0 (B0 m ρ) c).arrAt_in 1 rfl _).trans (dat0_A (B0 m ρ) c 1))
theorem W1_arg4 : W1 m ρ c (Proc.devRef .tc main_arg4) = m ((c : Thread nD τ).loc main_arg4) :=
  W1_of_ne m ρ c main_arg4 (by decide)
theorem W2_arg0 : W2 m ρ c (Proc.devRef .tc main_arg0) = m ((c : Thread nD τ).loc main_arg0) :=
  (StableHlo.after_of_writes_sub hostOps1 _ hostOps1_writes (by decide : main_arg0 ∉ hostOps1_W)).trans (W1_arg0 m ρ c)
theorem W2_arg1 : W2 m ρ c (Proc.devRef .tc main_arg1) = m ((c : Thread nD τ).loc main_arg1) :=
  (StableHlo.after_of_writes_sub hostOps1 _ hostOps1_writes (by decide : main_arg1 ∉ hostOps1_W)).trans (W1_arg1 m ρ c)
theorem W2_arg2 : W2 m ρ c (Proc.devRef .tc main_arg2) = m ((c : Thread nD τ).loc main_arg2) :=
  (StableHlo.after_of_writes_sub hostOps1 _ hostOps1_writes (by decide : main_arg2 ∉ hostOps1_W)).trans (W1_arg2 m ρ c)
theorem W2_arg3 : W2 m ρ c (Proc.devRef .tc main_arg3) = m ((c : Thread nD τ).loc main_arg3) :=
  (StableHlo.after_of_writes_sub hostOps1 _ hostOps1_writes (by decide : main_arg3 ∉ hostOps1_W)).trans (W1_arg3 m ρ c)
theorem W2_arg4 : W2 m ρ c (Proc.devRef .tc main_arg4) = m ((c : Thread nD τ).loc main_arg4) :=
  (StableHlo.after_of_writes_sub hostOps1 _ hostOps1_writes (by decide : main_arg4 ∉ hostOps1_W)).trans (W1_arg4 m ρ c)
theorem W3_arg0 : W3 m ρ c (Proc.devRef .tc main_arg0) = m ((c : Thread nD τ).loc main_arg0) :=
  (W3_of_ne m ρ c main_arg0 (by decide)).trans (W2_arg0 m ρ c)
theorem W3_arg1 : W3 m ρ c (Proc.devRef .tc main_arg1) = m ((c : Thread nD τ).loc main_arg1) :=
  (W3_of_ne m ρ c main_arg1 (by decide)).trans (W2_arg1 m ρ c)
theorem W3_arg2 : W3 m ρ c (Proc.devRef .tc main_arg2) = m ((c : Thread nD τ).loc main_arg2) :=
  (W3_of_ne m ρ c main_arg2 (by decide)).trans (W2_arg2 m ρ c)
theorem W3_arg3 : W3 m ρ c (Proc.devRef .tc main_arg3) = m ((c : Thread nD τ).loc main_arg3) :=
  (W3_of_ne m ρ c main_arg3 (by decide)).trans (W2_arg3 m ρ c)
theorem W3_arg4 : W3 m ρ c (Proc.devRef .tc main_arg4) = m ((c : Thread nD τ).loc main_arg4) :=
  (W3_of_ne m ρ c main_arg4 (by decide)).trans (W2_arg4 m ρ c)
theorem W4_arg0 : W4 m ρ c (Proc.devRef .tc main_arg0) = m ((c : Thread nD τ).loc main_arg0) :=
  (StableHlo.after_of_writes_sub hostOps2 _ hostOps2_writes (by decide : main_arg0 ∉ hostOps2_W)).trans (W3_arg0 m ρ c)
theorem W4_arg1 : W4 m ρ c (Proc.devRef .tc main_arg1) = m ((c : Thread nD τ).loc main_arg1) :=
  (StableHlo.after_of_writes_sub hostOps2 _ hostOps2_writes (by decide : main_arg1 ∉ hostOps2_W)).trans (W3_arg1 m ρ c)
theorem W4_arg2 : W4 m ρ c (Proc.devRef .tc main_arg2) = m ((c : Thread nD τ).loc main_arg2) :=
  (StableHlo.after_of_writes_sub hostOps2 _ hostOps2_writes (by decide : main_arg2 ∉ hostOps2_W)).trans (W3_arg2 m ρ c)
theorem W4_arg3 : W4 m ρ c (Proc.devRef .tc main_arg3) = m ((c : Thread nD τ).loc main_arg3) :=
  (StableHlo.after_of_writes_sub hostOps2 _ hostOps2_writes (by decide : main_arg3 ∉ hostOps2_W)).trans (W3_arg3 m ρ c)
theorem W4_arg4 : W4 m ρ c (Proc.devRef .tc main_arg4) = m ((c : Thread nD τ).loc main_arg4) :=
  (StableHlo.after_of_writes_sub hostOps2 _ hostOps2_writes (by decide : main_arg4 ∉ hostOps2_W)).trans (W3_arg4 m ρ c)
theorem W5_arg0 : W5 m ρ c (Proc.devRef .tc main_arg0) = m ((c : Thread nD τ).loc main_arg0) :=
  (W5_of_ne m ρ c main_arg0 (by decide)).trans (W4_arg0 m ρ c)
theorem W5_arg1 : W5 m ρ c (Proc.devRef .tc main_arg1) = m ((c : Thread nD τ).loc main_arg1) :=
  (W5_of_ne m ρ c main_arg1 (by decide)).trans (W4_arg1 m ρ c)
theorem W5_arg2 : W5 m ρ c (Proc.devRef .tc main_arg2) = m ((c : Thread nD τ).loc main_arg2) :=
  (W5_of_ne m ρ c main_arg2 (by decide)).trans (W4_arg2 m ρ c)
theorem W5_arg3 : W5 m ρ c (Proc.devRef .tc main_arg3) = m ((c : Thread nD τ).loc main_arg3) :=
  (W5_of_ne m ρ c main_arg3 (by decide)).trans (W4_arg3 m ρ c)
theorem W5_arg4 : W5 m ρ c (Proc.devRef .tc main_arg4) = m ((c : Thread nD τ).loc main_arg4) :=
  (W5_of_ne m ρ c main_arg4 (by decide)).trans (W4_arg4 m ρ c)
theorem W6_arg0 : W6 m ρ c (Proc.devRef .tc main_arg0) = m ((c : Thread nD τ).loc main_arg0) :=
  (StableHlo.after_of_writes_sub hostOps3 _ hostOps3_writes (by decide : main_arg0 ∉ hostOps3_W)).trans (W5_arg0 m ρ c)
theorem W6_arg1 : W6 m ρ c (Proc.devRef .tc main_arg1) = m ((c : Thread nD τ).loc main_arg1) :=
  (StableHlo.after_of_writes_sub hostOps3 _ hostOps3_writes (by decide : main_arg1 ∉ hostOps3_W)).trans (W5_arg1 m ρ c)
theorem W6_arg2 : W6 m ρ c (Proc.devRef .tc main_arg2) = m ((c : Thread nD τ).loc main_arg2) :=
  (StableHlo.after_of_writes_sub hostOps3 _ hostOps3_writes (by decide : main_arg2 ∉ hostOps3_W)).trans (W5_arg2 m ρ c)
theorem W6_arg3 : W6 m ρ c (Proc.devRef .tc main_arg3) = m ((c : Thread nD τ).loc main_arg3) :=
  (StableHlo.after_of_writes_sub hostOps3 _ hostOps3_writes (by decide : main_arg3 ∉ hostOps3_W)).trans (W5_arg3 m ρ c)
theorem W6_arg4 : W6 m ρ c (Proc.devRef .tc main_arg4) = m ((c : Thread nD τ).loc main_arg4) :=
  (StableHlo.after_of_writes_sub hostOps3 _ hostOps3_writes (by decide : main_arg4 ∉ hostOps3_W)).trans (W5_arg4 m ρ c)
theorem W7_arg0 : W7 m ρ c (Proc.devRef .tc main_arg0) = m ((c : Thread nD τ).loc main_arg0) :=
  (W7_of_ne m ρ c main_arg0 (by decide)).trans (W6_arg0 m ρ c)
theorem W7_arg1 : W7 m ρ c (Proc.devRef .tc main_arg1) = m ((c : Thread nD τ).loc main_arg1) :=
  (W7_of_ne m ρ c main_arg1 (by decide)).trans (W6_arg1 m ρ c)
theorem W7_arg2 : W7 m ρ c (Proc.devRef .tc main_arg2) = m ((c : Thread nD τ).loc main_arg2) :=
  (W7_of_ne m ρ c main_arg2 (by decide)).trans (W6_arg2 m ρ c)
theorem W7_arg3 : W7 m ρ c (Proc.devRef .tc main_arg3) = m ((c : Thread nD τ).loc main_arg3) :=
  (W7_of_ne m ρ c main_arg3 (by decide)).trans (W6_arg3 m ρ c)
theorem W7_arg4 : W7 m ρ c (Proc.devRef .tc main_arg4) = m ((c : Thread nD τ).loc main_arg4) :=
  (W7_of_ne m ρ c main_arg4 (by decide)).trans (W6_arg4 m ρ c)
theorem W8_arg0 : W8 m ρ c (Proc.devRef .tc main_arg0) = m ((c : Thread nD τ).loc main_arg0) :=
  (StableHlo.after_of_writes_sub hostOps4 _ hostOps4_writes (by decide : main_arg0 ∉ hostOps4_W)).trans (W7_arg0 m ρ c)
theorem W8_arg1 : W8 m ρ c (Proc.devRef .tc main_arg1) = m ((c : Thread nD τ).loc main_arg1) :=
  (StableHlo.after_of_writes_sub hostOps4 _ hostOps4_writes (by decide : main_arg1 ∉ hostOps4_W)).trans (W7_arg1 m ρ c)
theorem W8_arg2 : W8 m ρ c (Proc.devRef .tc main_arg2) = m ((c : Thread nD τ).loc main_arg2) :=
  (StableHlo.after_of_writes_sub hostOps4 _ hostOps4_writes (by decide : main_arg2 ∉ hostOps4_W)).trans (W7_arg2 m ρ c)
theorem W8_arg3 : W8 m ρ c (Proc.devRef .tc main_arg3) = m ((c : Thread nD τ).loc main_arg3) :=
  (StableHlo.after_of_writes_sub hostOps4 _ hostOps4_writes (by decide : main_arg3 ∉ hostOps4_W)).trans (W7_arg3 m ρ c)
theorem W8_arg4 : W8 m ρ c (Proc.devRef .tc main_arg4) = m ((c : Thread nD τ).loc main_arg4) :=
  (StableHlo.after_of_writes_sub hostOps4 _ hostOps4_writes (by decide : main_arg4 ∉ hostOps4_W)).trans (W7_arg4 m ρ c)

end Cert.KernelIdeal.Layers

end
-- ==== Proof.DenseSpec.lean ====
/-
  One dense layer of the network, as an explicit function of its operands on the extended reals.

  A layer takes node features x (n rows of 128 numbers) and a 128×128 weight matrix w and returns, at row r and
  column j, the rectified inner product  max (∑ k, x(r,k) · w(k,j)) 0.  The aggregating layers first scale row r of
  the features by one number v(r,0) (the reciprocal of the node's in-degree, kept as an n×1 column): `scaleRows`.
  The row count n is a parameter: the same formula describes a whole array (n = 50000) and one block of
  2000 rows of it, and a block of the result depends only on the same block of the features and of the column.
-/
import Idealize.ShloMosaic.PureOps.Ideal
import Idealize.ShloMosaic.Lib.ValueIdx

noncomputable section

namespace Cert.Dense

open Idealize.ShloMosaic Idealize.ShloMosaic.ValueIdx
open scoped BigOperators

/-- relu (x · w): entry (r, j) is the larger of 0 and the inner product of row r of `x` with column j of `w`. -/
def lin {n : ℕ} (x : (⟨2, ![n, 128]⟩ : Shape).Idx → EReal) (w : (⟨2, ![128, 128]⟩ : Shape).Idx → EReal) :
    (⟨2, ![n, 128]⟩ : Shape).Idx → EReal :=
  fun i => max (∑ k : Fin 128, x (ix2 (i 0) k) * w (ix2 k (i 1))) 0

/-- Row r of `x` multiplied by the one entry of row r of the column `v`. -/
def scaleRows {n : ℕ} (x : (⟨2, ![n, 128]⟩ : Shape).Idx → EReal) (v : (⟨2, ![n, 1]⟩ : Shape).Idx → EReal) :
    (⟨2, ![n, 128]⟩ : Shape).Idx → EReal :=
  fun i => x i * v (ix2 (i 0) (0 : Fin 1))

theorem lin_apply {n : ℕ} (x : (⟨2, ![n, 128]⟩ : Shape).Idx → EReal) (w : (⟨2, ![128, 128]⟩ : Shape).Idx → EReal)
    (r : Fin n) (j : Fin 128) : lin x w (ix2 r j) = max (∑ k : Fin 128, x (ix2 r k) * w (ix2 k j)) 0 := rfl

theorem scaleRows_apply {n : ℕ} (x : (⟨2, ![n, 128]⟩ : Shape).Idx → EReal) (v : (⟨2, ![n, 1]⟩ : Shape).Idx → EReal)
    (r : Fin n) (k : Fin 128) : scaleRows x v (ix2 r k) = x (ix2 r k) * v (ix2 r (0 : Fin 1)) := rfl

end Cert.Dense

end
-- ==== Proof.LibGateOps.lean ====
/-
  Layout, reduction and product operations of a vector program read at one entry, at the ideal values: a plain
  matrix product into the zero splat as the sum over the contracted coordinate; the sum and the maximum down the
  columns of a matrix; the rows b and b + 8 of a stack of sixteen; sixteen one-row matrices stacked into one matrix, read row by row; a column broadcast along
  the rows; and one slab of a stack of matrices loaded through its unit-stride rectangle.  Each lemma is stated at
  an index written by its coordinates.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.Pipeline.FrameBody

noncomputable section

namespace Cert.GateOps

open Idealize.ShloMosaic Idealize.ShloMosaic.ValueIdx

/-! ## Two rows of a stack of sixteen -/

/-- Row `b` of a stack of sixteen rows (the first half). -/
def lo (b : Fin 8) : Fin 16 := ⟨b.val, by omega⟩
/-- Row `b + 8` of a stack of sixteen rows (the second half). -/
def hi (b : Fin 8) : Fin 16 := ⟨8 + b.val, by omega⟩

/-! ## A plain matrix product -/

/-- A product of an m×k by a k×n matrix (contracting the left operand's columns with the right operand's rows),
    accumulated into the zero splat, read at entry (a, b): the sum over the contracted coordinate. -/
theorem matmul_plain_apply {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    matmul (⟨[1], [0], [0], [1], [], [], w⟩ : DotDims ⟨2, ![m, k]⟩ ⟨2, ![k, n]⟩ ⟨2, ![m, n]⟩) none A B
        (constant ⟨2, ![m, n]⟩ .f32 0x00000000#32) (ix2 a b)
      = ∑ c : Fin k, A (ix2 a c) * B (ix2 c b) := by
  show FloatOps.matmul _ none A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-! ## Reductions down the columns of a matrix -/

/-- The source index over column `c` with row `k` inserted is (k, c). -/
theorem lift_rows {n m : ℕ} (h : Shape.Reduces ⟨2, ![n, m]⟩ [0] ⟨1, ![m]⟩) (c : Fin m) (k : Fin n) :
    h.lift (ix1 c) k = ix2 k c := by
  funext ax; apply Fin.ext
  match ax with
  | ⟨0, _⟩ => rfl
  | ⟨1, _⟩ => rfl

/-- The sum down column `c` of an n×m matrix, accumulated from the zero word. -/
theorem colSum_apply {n m : ℕ} (src : FVec Ideal ⟨2, ![n, m]⟩ .f32) (h : Shape.Reduces ⟨2, ![n, m]⟩ [0] ⟨1, ![m]⟩)
    (hφ : FKind.Formats .f32) (hacc : (0x00000000#32 : BitVec 32) = 0x00000000#32) (c : Fin m) :
    multiReduction .add [0] ⟨1, ![m]⟩ src 0x00000000#32 h hφ hacc (ix1 c) = ∑ k : Fin n, src (ix2 k c) := by
  refine (Ideal.multiReduction_add_single src 0x00000000#32 h hφ hacc (ix1 c)).trans ?_
  exact Finset.sum_congr rfl fun k _ => congrArg src (lift_rows h c k)

/-- The maximum down column `c` of an n×m matrix: the fold of `max` from minus infinity's word. -/
theorem colMax_apply {n m : ℕ} (src : FVec Ideal ⟨2, ![n, m]⟩ .f32) (h : Shape.Reduces ⟨2, ![n, m]⟩ [0] ⟨1, ![m]⟩)
    (hφ : FKind.Formats .f32) (hacc : (0xFF800000#32 : BitVec 32) = 0xFF800000#32) (c : Fin m) :
    multiReduction .maximumf [0] ⟨1, ![m]⟩ src 0xFF800000#32 h hφ hacc (ix1 c)
      = (Finset.univ : Finset (Fin n)).fold max (Ideal.ofBits .f32 0xFF800000#32) fun k => src (ix2 k c) := by
  refine (Ideal.multiReduction_maximumf_single src 0xFF800000#32 h hφ hacc (ix1 c)).trans ?_
  exact congrArg (Finset.fold max _ · Finset.univ) (funext fun k => congrArg src (lift_rows h c k))

/-! ## Sixteen rows stacked -/

/-- Sixteen 1×n matrices concatenated along the rows: row `r` of the result is the one row of piece `r`. -/
theorem stack16_apply {α : Type} {n : ℕ}
    (v0 v1 v2 v3 v4 v5 v6 v7 v8 v9 v10 v11 v12 v13 v14 v15 : (⟨2, ![1, n]⟩ : Shape).Idx → α)
    (h : Shape.Concatenates [(⟨2, ![1, n]⟩ : Shape), ⟨2, ![1, n]⟩, ⟨2, ![1, n]⟩, ⟨2, ![1, n]⟩, ⟨2, ![1, n]⟩, ⟨2, ![1, n]⟩,
      ⟨2, ![1, n]⟩, ⟨2, ![1, n]⟩, ⟨2, ![1, n]⟩, ⟨2, ![1, n]⟩, ⟨2, ![1, n]⟩, ⟨2, ![1, n]⟩, ⟨2, ![1, n]⟩, ⟨2, ![1, n]⟩,
      ⟨2, ![1, n]⟩, ⟨2, ![1, n]⟩] ⟨2, ![16, n]⟩ 0)
    (r : Fin 16) (c : Fin n) :
    concatenate ⟨2, ![16, n]⟩ 0 [⟨⟨2, ![1, n]⟩, v0⟩, ⟨⟨2, ![1, n]⟩, v1⟩, ⟨⟨2, ![1, n]⟩, v2⟩, ⟨⟨2, ![1, n]⟩, v3⟩,
        ⟨⟨2, ![1, n]⟩, v4⟩, ⟨⟨2, ![1, n]⟩, v5⟩, ⟨⟨2, ![1, n]⟩, v6⟩, ⟨⟨2, ![1, n]⟩, v7⟩, ⟨⟨2, ![1, n]⟩, v8⟩,
        ⟨⟨2, ![1, n]⟩, v9⟩, ⟨⟨2, ![1, n]⟩, v10⟩, ⟨⟨2, ![1, n]⟩, v11⟩, ⟨⟨2, ![1, n]⟩, v12⟩, ⟨⟨2, ![1, n]⟩, v13⟩,
        ⟨⟨2, ![1, n]⟩, v14⟩, ⟨⟨2, ![1, n]⟩, v15⟩] h (ix2 r c)
      = ![v0, v1, v2, v3, v4, v5, v6, v7, v8, v9, v10, v11, v12, v13, v14, v15] r (ix2 (0 : Fin 1) c) :=
  concatenate_ofFn_unit_apply (t := ⟨2, ![16, n]⟩) (s₁ := ⟨2, ![1, n]⟩) 0
    ![v0, v1, v2, v3, v4, v5, v6, v7, v8, v9, v10, v11, v12, v13, v14, v15] h rfl rfl (ix2 r c) r rfl
    (ix2 (0 : Fin 1) c) (fun b hb => by
      match b with
      | ⟨0, _⟩ => exact absurd rfl hb
      | ⟨1, _⟩ => rfl)

/-! ## A column broadcast along the rows -/

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## One slab of a stack of matrices -/

/-- A load of slab `o` (one matrix) of a stack of `N` matrices through its unit-stride rectangle reads, at
    `(0, c, t)`, the stack at `(o, c, t)`. -/
theorem ld_slab {Val : EltTy → Type} {e : EltTy} {N a b : ℕ} (x : (⟨3, ![N, a, b]⟩ : Shape).Idx → Val e) (o : ℕ)
    (inb : ∀ ax, (![o, 0, 0] : Fin 3 → ℕ) ax + (![1, a, b] : Fin 3 → ℕ) ax ≤ (⟨3, ![N, a, b]⟩ : Shape).size ax)
    (k : Fin N) (hk : k.val = o) (c : Fin a) (t : Fin b) :
    View.ld x (Rect.unit (s := ⟨3, ![N, a, b]⟩) ![o, 0, 0] ![1, a, b] inb) (ix3 (0 : Fin 1) c t) = x (ix3 k c t) := by
  show x _ = x _
  refine congrArg x (funext fun ax => Fin.ext ?_)
  match ax with
  | ⟨0, _⟩ => show o + 1 * 0 = k.val; omega
  | ⟨1, _⟩ => show 0 + 1 * c.val = c.val; omega
  | ⟨2, _⟩ => show 0 + 1 * t.val = t.val; omega

end Cert.GateOps

end
-- ==== Proof.KerDense.lean ====
/-
  What the four vector programs store, as the dense layer of DenseSpec on one block of 2000 rows.

  On the extended reals every narrowing conversion is the identity and a matrix product accumulated into the zero
  splat is the plain sum over the contracted coordinate, so the first program's payload — narrow the block of
  features x and the weights w, multiply, take the larger of the product and zero, narrow — is, at row p and column
  q,  max (∑ k, x(p,k) · w(k,q)) 0,  which is `lin x w`.  The three aggregating programs first cast their operands
  to their own shapes (the identity), broadcast the 2000×1 column v along the rows and multiply: entry (p,k) of the
  left factor is x(p,k) · v(p,0), entry (p,k) of `scaleRows x v`; the rest is the same, so their payloads are
  `lin (scaleRows x v) w`.
-/
import proofs.«138734_j81329500717447_2_alg».proof.Proof.DenseSpec
import proofs.«138734_j81329500717447_2_alg».proof.Proof.LibGateOps
import proofs.«138734_j81329500717447_2_alg».proof.Proof.Gen.KernelIdeal.Skeleton
import Idealize.ShloMosaic.PureOps.Ideal.Laws
import Idealize.ShloMosaic.Lib.Pipeline.Value
noncomputable section
open Idealize.ShloMosaic Idealize.ShloMosaic.ValueIdx Cert.Dense

namespace Cert.KerDense
open Cert.KernelIdeal Cert.KernelIdeal.Gen

/-- The common tail of the four payloads: a matrix product accumulated into the zero splat, the larger of it and
    the zero splat, the narrowing conversions being the identity on the extended reals. -/
theorem reluMatmul_apply (A : FVec Ideal S2000x128 .f32) (B : FVec Ideal S128x128 .f32) (p : Fin 2000) (q : Fin 128) :
    (truncf .bf16 (maximumf (matmul dot_S2000x128_S128x128_S2000x128_1_0_0_1_n_n none
        (truncf .bf16 A bitsLt_bf16_f32 : FVec Ideal S2000x128 .bf16) (truncf .bf16 B bitsLt_bf16_f32 : FVec Ideal S128x128 .bf16)
        (constant S2000x128 .f32 0x00000000#32))
      (broadcast S2000x128 (Scalar.ofBits .f32 0x00000000#32))) bitsLt_bf16_f32 : FVec Ideal S2000x128 .bf16) (ix2 p q)
      = max (∑ k : Fin 128, A (ix2 p k) * B (ix2 k q)) 0 := by
  show max (matmul dot_S2000x128_S128x128_S2000x128_1_0_0_1_n_n none (truncf .bf16 A bitsLt_bf16_f32)
      (truncf .bf16 B bitsLt_bf16_f32) (constant S2000x128 .f32 0x00000000#32) (ix2 p q))
    (Ideal.ofBits .f32 0x00000000#32) = _
  rw [Ideal.ofBits_zero_f32]
  refine congrArg (max · 0) ?_
  exact Cert.GateOps.matmul_plain_apply _ _ _ p q

theorem pay0_eq (x0 : Vec Ideal S2000x128 .f32) (x2 : Vec Ideal S128x128 .f32) :
    k0_pay1 (F := Ideal) x0 x2 = lin (n := 2000) x0 x2 := by
  funext i
  obtain ⟨p, q, rfl⟩ : ∃ (p : Fin 2000) (q : Fin 128), i = ix2 p q := ⟨i 0, i 1, eq_ix2 i⟩
  rw [lin_apply]
  unfold k0_pay1
  exact reluMatmul_apply x0 x2 p q

/-- The aggregating layers' payload: the features' rows scaled by the column first, then the common tail. -/
theorem scaledReluMatmul_apply (x0 : Vec Ideal S2000x128 .f32) (x2 : Vec Ideal S2000x1 .f32) (x7 : Vec Ideal S128x128 .f32)
    (p : Fin 2000) (q : Fin 128) :
    (truncf .bf16 (maximumf (matmul dot_S2000x128_S128x128_S2000x128_1_0_0_1_n_n none
        (truncf .bf16 (mulf (shapeCast S2000x128 x0 shapeCasts_S2000x128_S2000x128)
          (broadcastTo S2000x128 (shapeCast S2000x1 x2 shapeCasts_S2000x1_S2000x1) broadcasts_S2000x1_S2000x128)) bitsLt_bf16_f32 : FVec Ideal S2000x128 .bf16)
        (truncf .bf16 (shapeCast S128x128 x7 shapeCasts_S128x128_S128x128) bitsLt_bf16_f32 : FVec Ideal S128x128 .bf16)
        (constant S2000x128 .f32 0x00000000#32))
      (broadcast S2000x128 (Scalar.ofBits .f32 0x00000000#32))) bitsLt_bf16_f32 : FVec Ideal S2000x128 .bf16) (ix2 p q)
      = max (∑ k : Fin 128, scaleRows x0 x2 (ix2 p k) * x7 (ix2 k q)) 0 := by
  refine (reluMatmul_apply _ _ p q).trans ?_
  refine congrArg (max · 0) (Finset.sum_congr rfl fun k _ => ?_)
  rw [shapeCast_self x0, shapeCast_self x2, shapeCast_self x7, scaleRows_apply]
  show x0 (ix2 p k) * broadcastTo S2000x128 x2 broadcasts_S2000x1_S2000x128 (ix2 p k) * x7 (ix2 k q) = _
  rw [Cert.GateOps.broadcastTo_a1_ab_apply]

theorem pay1_eq (x0 : Vec Ideal S2000x128 .f32) (x2 : Vec Ideal S2000x1 .f32) (x7 : Vec Ideal S128x128 .f32) :
    k1_pay1 (F := Ideal) x0 x2 x7 = lin (n := 2000) (scaleRows x0 x2) x7 := by
  funext i
  obtain ⟨p, q, rfl⟩ : ∃ (p : Fin 2000) (q : Fin 128), i = ix2 p q := ⟨i 0, i 1, eq_ix2 i⟩
  rw [lin_apply]
  unfold k1_pay1
  exact scaledReluMatmul_apply x0 x2 x7 p q

theorem pay2_eq (x0 : Vec Ideal S2000x128 .f32) (x2 : Vec Ideal S2000x1 .f32) (x7 : Vec Ideal S128x128 .f32) :
    k2_pay1 (F := Ideal) x0 x2 x7 = lin (n := 2000) (scaleRows x0 x2) x7 := by
  funext i
  obtain ⟨p, q, rfl⟩ : ∃ (p : Fin 2000) (q : Fin 128), i = ix2 p q := ⟨i 0, i 1, eq_ix2 i⟩
  rw [lin_apply]
  unfold k2_pay1
  exact scaledReluMatmul_apply x0 x2 x7 p q

theorem pay3_eq (x0 : Vec Ideal S2000x128 .f32) (x2 : Vec Ideal S2000x1 .f32) (x7 : Vec Ideal S128x128 .f32) :
    k3_pay1 (F := Ideal) x0 x2 x7 = lin (n := 2000) (scaleRows x0 x2) x7 := by
  funext i
  obtain ⟨p, q, rfl⟩ : ∃ (p : Fin 2000) (q : Fin 128), i = ix2 p q := ⟨i 0, i 1, eq_ix2 i⟩
  rw [lin_apply]
  unfold k3_pay1
  exact scaledReluMatmul_apply x0 x2 x7 p q

end Cert.KerDense

end
-- ==== Proof.KBlocks.lean ====
/-
  From the blocks to the arrays: after its 25 grid points each call has written the dense layer of its input arrays.

  A call walks the 50000 rows in 25 blocks of 2000.  At point t the features' block (and, in the aggregating calls,
  the block of the 50000×1 column) is rows 2000·t … 2000·t + 1999 of its array, the weights' block is the whole
  128×128 matrix, and the output's block is the same rows of the result; every point writes its block back.  The
  dense layer is computed row by row — entry (r, j) of `lin A W` reads only row r of A and column j of W, and
  `scaleRows` reads only row r of the column — so the layer of the blocks at (p, q) is the layer of the arrays at
  (2000·t + p, q): what point t writes back is block t of the one function `lin A W` (resp. `lin (scaleRows A D) W`)
  of the arrays as the call finds them.  Row r of the result lies in the block of the point with block index
  r / 2000, so the blocks cover the array, and the array ends equal to that function.
-/
import proofs.«138734_j81329500717447_2_alg».proof.Proof.KDense0
import proofs.«138734_j81329500717447_2_alg».proof.Proof.KDense1
import proofs.«138734_j81329500717447_2_alg».proof.Proof.KDense2
import proofs.«138734_j81329500717447_2_alg».proof.Proof.KDense3
import proofs.«138734_j81329500717447_2_alg».proof.Proof.KerDense
import proofs.«138734_j81329500717447_2_alg».proof.Proof.DenseSpec
import Idealize.ShloMosaic.Lib.Pipeline.Value
set_option maxRecDepth 16384
noncomputable section

namespace Cert.Dense
open Idealize.ShloMosaic Idealize.ShloMosaic.ValueIdx

/-- A block of the dense layer is the dense layer of the blocks: if row p of the block of features is row (i 0) of the
    whole array and column q of the block of weights is column (i 1) of the whole weights, entry (p, q) of the
    layer of the blocks is entry i of the layer of the arrays. -/
theorem lin_block {N n : ℕ} (A : (⟨2, ![N, 128]⟩ : Shape).Idx → EReal) (W : (⟨2, ![128, 128]⟩ : Shape).Idx → EReal)
    (x0 : (⟨2, ![n, 128]⟩ : Shape).Idx → EReal) (x1 : (⟨2, ![128, 128]⟩ : Shape).Idx → EReal)
    (i : (⟨2, ![N, 128]⟩ : Shape).Idx) (p : Fin n) (q : Fin 128)
    (h0 : ∀ k : Fin 128, x0 (ix2 p k) = A (ix2 (i 0) k)) (h1 : ∀ k : Fin 128, x1 (ix2 k q) = W (ix2 k (i 1))) :
    lin x0 x1 (ix2 p q) = lin A W i := by
  obtain ⟨r, s, rfl⟩ : ∃ (r : Fin N) (s : Fin 128), i = ix2 r s := ⟨i 0, i 1, eq_ix2 i⟩
  rw [lin_apply, lin_apply]
  exact congrArg (max · 0) (Finset.sum_congr rfl fun k _ => congrArg₂ (· * ·) (h0 k) (h1 k))

/-- The same with the rows scaled: the one entry of row p of the block of the column is that of row (i 0) of the
    whole column. -/
theorem lin_scaleRows_block {N n : ℕ} (A : (⟨2, ![N, 128]⟩ : Shape).Idx → EReal) (D : (⟨2, ![N, 1]⟩ : Shape).Idx → EReal)
    (W : (⟨2, ![128, 128]⟩ : Shape).Idx → EReal)
    (x0 : (⟨2, ![n, 128]⟩ : Shape).Idx → EReal) (x2 : (⟨2, ![n, 1]⟩ : Shape).Idx → EReal) (x1 : (⟨2, ![128, 128]⟩ : Shape).Idx → EReal)
    (i : (⟨2, ![N, 128]⟩ : Shape).Idx) (p : Fin n) (q : Fin 128)
    (h0 : ∀ k : Fin 128, x0 (ix2 p k) = A (ix2 (i 0) k)) (h1 : ∀ k : Fin 128, x1 (ix2 k q) = W (ix2 k (i 1)))
    (h2 : x2 (ix2 p (0 : Fin 1)) = D (ix2 (i 0) (0 : Fin 1))) :
    lin (scaleRows x0 x2) x1 (ix2 p q) = lin (scaleRows A D) W i := by
  obtain ⟨r, s, rfl⟩ : ∃ (r : Fin N) (s : Fin 128), i = ix2 r s := ⟨i 0, i 1, eq_ix2 i⟩
  rw [lin_apply, lin_apply]
  refine congrArg (max · 0) (Finset.sum_congr rfl fun k _ => ?_)
  rw [scaleRows_apply, scaleRows_apply]
  exact congrArg₂ (· * ·) (congrArg₂ (· * ·) (h0 k) h2) (h1 k)

end Cert.Dense

namespace Cert.KernelIdeal.Layers
open Idealize.ShloMosaic Idealize.ShloMosaic.TcCoe Idealize.ShloMosaic.ValueIdx Idealize.SL.Sem
open Idealize.ShloMosaic.Pipeline (Dat)
open Cert.KernelIdeal Cert.KernelIdeal.Gen Cert.Dense

variable (V : (c : Dev nD) → (b : Ref sig .tc) → Buf (Elt Ideal) ((c : Thread nD τ).loc b))

/-- The origin of a rank-2 rectangle, as the constant zero offset. -/
theorem zeroOrigin : (![0, 0] : Fin 2 → Nat) = fun _ => 0 := funext fun a => by fin_cases a <;> rfl

/-! ## Call 0 -/

theorem index0 : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 :=
  (by decide +kernel : ∀ t : Fin grid0.N, _)

theorem onto0 : ∀ q : Fin 25, ∃ t : Fin cfg0.N, win0_2.index t = ![q.val, 0] :=
  (by decide +kernel : ∀ q : Fin 25, ∃ t : Fin grid0.N, win0_2.index t = ![q.val, 0])

theorem flushed0 (c : Dev nD) (t : Fin cfg0.N) :
    (dat0 (F := Ideal) V c).flushed 2 t
      = ((cfg0.win 2).blk t).view.read (Elt Ideal) (lin (n := 50000) (V c main_arg0) (V c main_arg3) : S50000x128.Idx → EReal) := by
  show (cfg0.win 2).cut (grid0.coords t) ((dat0 V c).after 2 t) = _
  rw [dat0_after_2]
  unfold res0
  rw [View.canon_unit_zero zeroOrigin]
  simp only [View.ld_unit_zero (S := S2000x128) zeroOrigin, View.ld_unit_zero (S := S128x128) zeroOrigin]
  funext j
  obtain ⟨p, q, rfl⟩ : ∃ (p : Fin 2000) (q : Fin 128), j = ix2 p q := ⟨j 0, j 1, eq_ix2 j⟩
  refine (congrFun (Cert.KerDense.pay0_eq (blk0 V c 0 t) (blk0 V c 1 t)) (ix2 p q)).trans ?_
  obtain ⟨e0, e1, e2, e3, e4⟩ := index0 t
  refine lin_block (V c main_arg0) (V c main_arg3) (blk0 V c 0 t) (blk0 V c 1 t)
    (((cfg0.win 2).blk t).view.emb (ix2 p q)) p q (fun k => ?_) (fun k => ?_)
  · show V c main_arg0 (((cfg0.win 0).blk t).view.emb (ix2 p k)) = V c main_arg0 _
    refine congrArg (V c main_arg0 : S50000x128.Idx → EReal) (funext fun a => Fin.ext ?_)
    match a with
    | ⟨0, _⟩ =>
      show win0_0.index t (0 : Fin 2) * 2000 + 1 * p.val = win0_2.index t (0 : Fin 2) * 2000 + 1 * p.val
      omega
    | ⟨1, _⟩ =>
      show win0_0.index t (1 : Fin 2) * 128 + 1 * k.val = k.val
      omega
  · show V c main_arg3 (((cfg0.win 1).blk t).view.emb (ix2 k q)) = V c main_arg3 _
    refine congrArg (V c main_arg3 : S128x128.Idx → EReal) (funext fun a => Fin.ext ?_)
    match a with
    | ⟨0, _⟩ =>
      show win0_1.index t (0 : Fin 2) * 128 + 1 * k.val = k.val
      omega
    | ⟨1, _⟩ =>
      show win0_1.index t (1 : Fin 2) * 128 + 1 * q.val = win0_2.index t (1 : Fin 2) * 128 + 1 * q.val
      omega

theorem mem_blk0 (t : Fin cfg0.N) (i : S50000x128.Idx) :
    i ∈ ((cfg0.win 2).blk t).view.set ↔ ∀ a : Fin 2, win0_2.index t a * S2000x128.size a ≤ (i a).val
      ∧ (i a).val < win0_2.index t a * S2000x128.size a + S2000x128.size a := by
  show i ∈ ((View.whole main_v0).slice (win0_2.rect t)).set ↔ _
  rw [View.set_slice_whole, Rect.mem_set_unit]
  exact Iff.rfl

theorem cover0 (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := onto0 ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk0]
  intro a
  match a with
  | ⟨0, _⟩ =>
    show win0_2.index t (0 : Fin 2) * 2000 ≤ (i 0).val ∧ (i 0).val < win0_2.index t (0 : Fin 2) * 2000 + 2000
    omega
  | ⟨1, _⟩ =>
    show win0_2.index t (1 : Fin 2) * 128 ≤ (i 1).val ∧ (i 1).val < win0_2.index t (1 : Fin 2) * 128 + 128
    omega

/-- Call 0: the output array after the last point is the dense layer of the features and weights as entered. -/
theorem whole0 (c : Dev nD) :
    (dat0 (F := Ideal) V c).arrAt 2 cfg0.N = (lin (n := 50000) (V c main_arg0) (V c main_arg3) : S50000x128.Idx → EReal) :=
  (dat0 (F := Ideal) V c).arrAt_eq_of_cover 2 _ (fun t _ => flushed0 V c t) cover0

/-! ## Call 1 -/

theorem index1 : ∀ t : Fin cfg1.N, win1_0.index t (0 : Fin 2) = win1_3.index t (0 : Fin 2)
    ∧ win1_0.index t (1 : Fin 2) = 0 ∧ win1_1.index t (0 : Fin 2) = 0 ∧ win1_1.index t (1 : Fin 2) = 0
    ∧ win1_2.index t (0 : Fin 2) = win1_3.index t (0 : Fin 2) ∧ win1_2.index t (1 : Fin 2) = 0
    ∧ win1_3.index t (1 : Fin 2) = 0 :=
  (by decide +kernel : ∀ t : Fin grid1.N, _)

theorem onto1 : ∀ q : Fin 25, ∃ t : Fin cfg1.N, win1_3.index t = ![q.val, 0] :=
  (by decide +kernel : ∀ q : Fin 25, ∃ t : Fin grid1.N, win1_3.index t = ![q.val, 0])

theorem flushed1 (c : Dev nD) (t : Fin cfg1.N) :
    (dat1 (F := Ideal) V c).flushed 3 t
      = ((cfg1.win 3).blk t).view.read (Elt Ideal)
        (lin (n := 50000) (scaleRows (V c main_v21) (V c main_v9)) (V c main_v23) : S50000x128.Idx → EReal) := by
  show (cfg1.win 3).cut (grid1.coords t) ((dat1 V c).after 3 t) = _
  rw [dat1_after_3]
  unfold res1
  rw [View.canon_unit_zero zeroOrigin]
  simp only [View.ld_unit_zero (S := S2000x128) zeroOrigin, View.ld_unit_zero (S := S128x128) zeroOrigin,
    View.ld_unit_zero (S := S2000x1) zeroOrigin]
  funext j
  obtain ⟨p, q, rfl⟩ : ∃ (p : Fin 2000) (q : Fin 128), j = ix2 p q := ⟨j 0, j 1, eq_ix2 j⟩
  refine (congrFun (Cert.KerDense.pay1_eq (blk1 V c 0 t) (blk1 V c 2 t) (blk1 V c 1 t)) (ix2 p q)).trans ?_
  obtain ⟨e0, e1, e2, e3, e4, e5, e6⟩ := index1 t
  refine lin_scaleRows_block (V c main_v21) (V c main_v9) (V c main_v23) (blk1 V c 0 t) (blk1 V c 2 t) (blk1 V c 1 t)
    (((cfg1.win 3).blk t).view.emb (ix2 p q)) p q (fun k => ?_) (fun k => ?_) ?_
  · show V c main_v21 (((cfg1.win 0).blk t).view.emb (ix2 p k)) = V c main_v21 _
    refine congrArg (V c main_v21 : S50000x128.Idx → EReal) (funext fun a => Fin.ext ?_)
    match a with
    | ⟨0, _⟩ =>
      show win1_0.index t (0 : Fin 2) * 2000 + 1 * p.val = win1_3.index t (0 : Fin 2) * 2000 + 1 * p.val
      omega
    | ⟨1, _⟩ =>
      show win1_0.index t (1 : Fin 2) * 128 + 1 * k.val = k.val
      omega
  · show V c main_v23 (((cfg1.win 1).blk t).view.emb (ix2 k q)) = V c main_v23 _
    refine congrArg (V c main_v23 : S128x128.Idx → EReal) (funext fun a => Fin.ext ?_)
    match a with
    | ⟨0, _⟩ =>
      show win1_1.index t (0 : Fin 2) * 128 + 1 * k.val = k.val
      omega
    | ⟨1, _⟩ =>
      show win1_1.index t (1 : Fin 2) * 128 + 1 * q.val = win1_3.index t (1 : Fin 2) * 128 + 1 * q.val
      omega
  · show V c main_v9 (((cfg1.win 2).blk t).view.emb (ix2 p (0 : Fin 1))) = V c main_v9 _
    refine congrArg (V c main_v9 : S50000x1.Idx → EReal) (funext fun a => Fin.ext ?_)
    match a with
    | ⟨0, _⟩ =>
      show win1_2.index t (0 : Fin 2) * 2000 + 1 * p.val = win1_3.index t (0 : Fin 2) * 2000 + 1 * p.val
      omega
    | ⟨1, _⟩ =>
      show win1_2.index t (1 : Fin 2) * 1 + 1 * 0 = 0
      omega

theorem mem_blk1 (t : Fin cfg1.N) (i : S50000x128.Idx) :
    i ∈ ((cfg1.win 3).blk t).view.set ↔ ∀ a : Fin 2, win1_3.index t a * S2000x128.size a ≤ (i a).val
      ∧ (i a).val < win1_3.index t a * S2000x128.size a + S2000x128.size a := by
  show i ∈ ((View.whole main_v24).slice (win1_3.rect t)).set ↔ _
  rw [View.set_slice_whole, Rect.mem_set_unit]
  exact Iff.rfl

theorem cover1 (i : S50000x128.Idx) :
    ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := onto1 ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk1]
  intro a
  match a with
  | ⟨0, _⟩ =>
    show win1_3.index t (0 : Fin 2) * 2000 ≤ (i 0).val ∧ (i 0).val < win1_3.index t (0 : Fin 2) * 2000 + 2000
    omega
  | ⟨1, _⟩ =>
    show win1_3.index t (1 : Fin 2) * 128 ≤ (i 1).val ∧ (i 1).val < win1_3.index t (1 : Fin 2) * 128 + 128
    omega

/-- Call 1: the output array after the last point is the dense layer of the row-scaled features and the weights as entered. -/
theorem whole1 (c : Dev nD) :
    (dat1 (F := Ideal) V c).arrAt 3 cfg1.N = (lin (n := 50000) (scaleRows (V c main_v21) (V c main_v9)) (V c main_v23) : S50000x128.Idx → EReal) :=
  (dat1 (F := Ideal) V c).arrAt_eq_of_cover 3 _ (fun t _ => flushed1 V c t) cover1

/-! ## Call 2 -/

theorem index2 : ∀ t : Fin cfg2.N, win2_0.index t (0 : Fin 2) = win2_3.index t (0 : Fin 2)
    ∧ win2_0.index t (1 : Fin 2) = 0 ∧ win2_1.index t (0 : Fin 2) = 0 ∧ win2_1.index t (1 : Fin 2) = 0
    ∧ win2_2.index t (0 : Fin 2) = win2_3.index t (0 : Fin 2) ∧ win2_2.index t (1 : Fin 2) = 0
    ∧ win2_3.index t (1 : Fin 2) = 0 :=
  (by decide +kernel : ∀ t : Fin grid2.N, _)

theorem onto2 : ∀ q : Fin 25, ∃ t : Fin cfg2.N, win2_3.index t = ![q.val, 0] :=
  (by decide +kernel : ∀ q : Fin 25, ∃ t : Fin grid2.N, win2_3.index t = ![q.val, 0])

theorem flushed2 (c : Dev nD) (t : Fin cfg2.N) :
    (dat2 (F := Ideal) V c).flushed 3 t
      = ((cfg2.win 3).blk t).view.read (Elt Ideal)
        (lin (n := 50000) (scaleRows (V c main_v36) (V c main_v9)) (V c main_v38) : S50000x128.Idx → EReal) := by
  show (cfg2.win 3).cut (grid2.coords t) ((dat2 V c).after 3 t) = _
  rw [dat2_after_3]
  unfold res2
  rw [View.canon_unit_zero zeroOrigin]
  simp only [View.ld_unit_zero (S := S2000x128) zeroOrigin, View.ld_unit_zero (S := S128x128) zeroOrigin,
    View.ld_unit_zero (S := S2000x1) zeroOrigin]
  funext j
  obtain ⟨p, q, rfl⟩ : ∃ (p : Fin 2000) (q : Fin 128), j = ix2 p q := ⟨j 0, j 1, eq_ix2 j⟩
  refine (congrFun (Cert.KerDense.pay2_eq (blk2 V c 0 t) (blk2 V c 2 t) (blk2 V c 1 t)) (ix2 p q)).trans ?_
  obtain ⟨e0, e1, e2, e3, e4, e5, e6⟩ := index2 t
  refine lin_scaleRows_block (V c main_v36) (V c main_v9) (V c main_v38) (blk2 V c 0 t) (blk2 V c 2 t) (blk2 V c 1 t)
    (((cfg2.win 3).blk t).view.emb (ix2 p q)) p q (fun k => ?_) (fun k => ?_) ?_
  · show V c main_v36 (((cfg2.win 0).blk t).view.emb (ix2 p k)) = V c main_v36 _
    refine congrArg (V c main_v36 : S50000x128.Idx → EReal) (funext fun a => Fin.ext ?_)
    match a with
    | ⟨0, _⟩ =>
      show win2_0.index t (0 : Fin 2) * 2000 + 1 * p.val = win2_3.index t (0 : Fin 2) * 2000 + 1 * p.val
      omega
    | ⟨1, _⟩ =>
      show win2_0.index t (1 : Fin 2) * 128 + 1 * k.val = k.val
      omega
  · show V c main_v38 (((cfg2.win 1).blk t).view.emb (ix2 k q)) = V c main_v38 _
    refine congrArg (V c main_v38 : S128x128.Idx → EReal) (funext fun a => Fin.ext ?_)
    match a with
    | ⟨0, _⟩ =>
      show win2_1.index t (0 : Fin 2) * 128 + 1 * k.val = k.val
      omega
    | ⟨1, _⟩ =>
      show win2_1.index t (1 : Fin 2) * 128 + 1 * q.val = win2_3.index t (1 : Fin 2) * 128 + 1 * q.val
      omega
  · show V c main_v9 (((cfg2.win 2).blk t).view.emb (ix2 p (0 : Fin 1))) = V c main_v9 _
    refine congrArg (V c main_v9 : S50000x1.Idx → EReal) (funext fun a => Fin.ext ?_)
    match a with
    | ⟨0, _⟩ =>
      show win2_2.index t (0 : Fin 2) * 2000 + 1 * p.val = win2_3.index t (0 : Fin 2) * 2000 + 1 * p.val
      omega
    | ⟨1, _⟩ =>
      show win2_2.index t (1 : Fin 2) * 1 + 1 * 0 = 0
      omega

theorem mem_blk2 (t : Fin cfg2.N) (i : S50000x128.Idx) :
    i ∈ ((cfg2.win 3).blk t).view.set ↔ ∀ a : Fin 2, win2_3.index t a * S2000x128.size a ≤ (i a).val
      ∧ (i a).val < win2_3.index t a * S2000x128.size a + S2000x128.size a := by
  show i ∈ ((View.whole main_v39).slice (win2_3.rect t)).set ↔ _
  rw [View.set_slice_whole, Rect.mem_set_unit]
  exact Iff.rfl

theorem cover2 (i : S50000x128.Idx) :
    ∃ t : Fin cfg2.N, (cfg2.win 3).flush t = true ∧ i ∈ ((cfg2.win 3).blk t).view.set := by
  have hi0 : (i 0).val < 50000 := (i 0).isLt
  have hi1 : (i 1).val < 128 := (i 1).isLt
  obtain ⟨t, ht⟩ := onto2 ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    omega
  | ⟨1, _⟩ =>
    show win2_3.index t (1 : Fin 2) * 128 ≤ (i 1).val ∧ (i 1).val < win2_3.index t (1 : Fin 2) * 128 + 128
    omega

/-- Call 2: the output array after the last point is the dense layer of the row-scaled features and the weights as entered. -/
theorem whole2 (c : Dev nD) :
    (dat2 (F := Ideal) V c).arrAt 3 cfg2.N = (lin (n := 50000) (scaleRows (V c main_v36) (V c main_v9)) (V c main_v38) : S50000x128.Idx → EReal) :=
  (dat2 (F := Ideal) V c).arrAt_eq_of_cover 3 _ (fun t _ => flushed2 V c t) cover2

/-! ## Call 3 -/

theorem index3 : ∀ t : Fin cfg3.N, win3_0.index t (0 : Fin 2) = win3_3.index t (0 : Fin 2)
    ∧ win3_0.index t (1 : Fin 2) = 0 ∧ win3_1.index t (0 : Fin 2) = 0 ∧ win3_1.index t (1 : Fin 2) = 0
    ∧ win3_2.index t (0 : Fin 2) = win3_3.index t (0 : Fin 2) ∧ win3_2.index t (1 : Fin 2) = 0
    ∧ win3_3.index t (1 : Fin 2) = 0 :=
  (by decide +kernel : ∀ t : Fin grid3.N, _)

theorem onto3 : ∀ q : Fin 25, ∃ t : Fin cfg3.N, win3_3.index t = ![q.val, 0] :=
  (by decide +kernel : ∀ q : Fin 25, ∃ t : Fin grid3.N, win3_3.index t = ![q.val, 0])

theorem flushed3 (c : Dev nD) (t : Fin cfg3.N) :
    (dat3 (F := Ideal) V c).flushed 3 t
      = ((cfg3.win 3).blk t).view.read (Elt Ideal)
        (lin (n := 50000) (scaleRows (V c main_v51) (V c main_v9)) (V c main_v53) : S50000x128.Idx → EReal) := by
  show (cfg3.win 3).cut (grid3.coords t) ((dat3 V c).after 3 t) = _
  rw [dat3_after_3]
  unfold res3
  rw [View.canon_unit_zero zeroOrigin]
  simp only [View.ld_unit_zero (S := S2000x128) zeroOrigin, View.ld_unit_zero (S := S128x128) zeroOrigin,
    View.ld_unit_zero (S := S2000x1) zeroOrigin]
  funext j
  obtain ⟨p, q, rfl⟩ : ∃ (p : Fin 2000) (q : Fin 128), j = ix2 p q := ⟨j 0, j 1, eq_ix2 j⟩
  refine (congrFun (Cert.KerDense.pay3_eq (blk3 V c 0 t) (blk3 V c 2 t) (blk3 V c 1 t)) (ix2 p q)).trans ?_
  obtain ⟨e0, e1, e2, e3, e4, e5, e6⟩ := index3 t
  refine lin_scaleRows_block (V c main_v51) (V c main_v9) (V c main_v53) (blk3 V c 0 t) (blk3 V c 2 t) (blk3 V c 1 t)
    (((cfg3.win 3).blk t).view.emb (ix2 p q)) p q (fun k => ?_) (fun k => ?_) ?_
  · show V c main_v51 (((cfg3.win 0).blk t).view.emb (ix2 p k)) = V c main_v51 _
    refine congrArg (V c main_v51 : S50000x128.Idx → EReal) (funext fun a => Fin.ext ?_)
    match a with
    | ⟨0, _⟩ =>
      show win3_0.index t (0 : Fin 2) * 2000 + 1 * p.val = win3_3.index t (0 : Fin 2) * 2000 + 1 * p.val
      omega
    | ⟨1, _⟩ =>
      show win3_0.index t (1 : Fin 2) * 128 + 1 * k.val = k.val
      omega
  · show V c main_v53 (((cfg3.win 1).blk t).view.emb (ix2 k q)) = V c main_v53 _
    refine congrArg (V c main_v53 : S128x128.Idx → EReal) (funext fun a => Fin.ext ?_)
    match a with
    | ⟨0, _⟩ =>
      show win3_1.index t (0 : Fin 2) * 128 + 1 * k.val = k.val
      omega
    | ⟨1, _⟩ =>
      show win3_1.index t (1 : Fin 2) * 128 + 1 * q.val = win3_3.index t (1 : Fin 2) * 128 + 1 * q.val
      omega
  · show V c main_v9 (((cfg3.win 2).blk t).view.emb (ix2 p (0 : Fin 1))) = V c main_v9 _
    refine congrArg (V c main_v9 : S50000x1.Idx → EReal) (funext fun a => Fin.ext ?_)
    match a with
    | ⟨0, _⟩ =>
      show win3_2.index t (0 : Fin 2) * 2000 + 1 * p.val = win3_3.index t (0 : Fin 2) * 2000 + 1 * p.val
      omega
    | ⟨1, _⟩ =>
      show win3_2.index t (1 : Fin 2) * 1 + 1 * 0 = 0
      omega

theorem mem_blk3 (t : Fin cfg3.N) (i : S50000x128.Idx) :
    i ∈ ((cfg3.win 3).blk t).view.set ↔ ∀ a : Fin 2, win3_3.index t a * S2000x128.size a ≤ (i a).val
      ∧ (i a).val < win3_3.index t a * S2000x128.size a + S2000x128.size a := by
  show i ∈ ((View.whole main_v54).slice (win3_3.rect t)).set ↔ _
  rw [View.set_slice_whole, Rect.mem_set_unit]
  exact Iff.rfl

theorem cover3 (i : S50000x128.Idx) :
    ∃ t : Fin cfg3.N, (cfg3.win 3).flush t = true ∧ i ∈ ((cfg3.win 3).blk t).view.set := by
  have hi0 : (i 0).val < 50000 := (i 0).isLt
  have hi1 : (i 1).val < 128 := (i 1).isLt
  obtain ⟨t, ht⟩ := onto3 ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk3]
  intro a
  match a with
  | ⟨0, _⟩ =>
    show win3_3.index t (0 : Fin 2) * 2000 ≤ (i 0).val ∧ (i 0).val < win3_3.index t (0 : Fin 2) * 2000 + 2000
    omega
  | ⟨1, _⟩ =>
    show win3_3.index t (1 : Fin 2) * 128 ≤ (i 1).val ∧ (i 1).val < win3_3.index t (1 : Fin 2) * 128 + 128
    omega

/-- Call 3: the output array after the last point is the dense layer of the row-scaled features and the weights as entered. -/
theorem whole3 (c : Dev nD) :
    (dat3 (F := Ideal) V c).arrAt 3 cfg3.N = (lin (n := 50000) (scaleRows (V c main_v51) (V c main_v9)) (V c main_v53) : S50000x128.Idx → EReal) :=
  (dat3 (F := Ideal) V c).arrAt_eq_of_cover 3 _ (fun t _ => flushed3 V c t) cover3

end Cert.KernelIdeal.Layers

end
-- ==== Proof.NetSpec.lean ====
/-
  The whole network as one function of its five arguments, on the extended reals.

  Arguments: node features x (50000 × 128), edge sources src and destinations dst (800000 integers each), the first
  weight matrix w (128 × 128) and a stack ws of three more.  With  d(r) = 1 / max(deg(r), 1)  the reciprocal in-degree
  of node r (deg counted by scattering ones along dst), and  agg(h)  the sum, into each destination row, of the rows of
  h gathered at the sources (an index below zero counted from the end),

      h₀ = relu (x · w),      hₖ₊₁ = relu ((agg(hₖ) scaled row by row by d) · wsₖ),

  and the result is the four blocks h₀ h₁ h₂ h₃ side by side (50000 × 512).  The gather, the scatters, the comparison
  and selection of indices, the slices of the stack are the host operations both programs apply; they stay as the
  operations themselves here, and only the dense layers are spelt out (`Cert.Dense.lin`, `Cert.Dense.scaleRows`).
-/
import proofs.«138734_j81329500717447_2_alg».proof.KernelIdeal
import proofs.«138734_j81329500717447_2_alg».proof.Proof.Gen.KernelIdeal
import proofs.«138734_j81329500717447_2_alg».proof.Proof.DenseSpec

noncomputable section

namespace Cert.Net

open Idealize.ShloMosaic Idealize.ShloMosaic.ValueIdx Cert.Dense
open Cert.KernelIdeal Cert.KernelIdeal.Facts₀ Cert.KernelIdeal.Facts

/-- An array of node features, or one block of the result. -/
abbrev Feat : Type := S50000x128.Idx → EReal

/-- The 50000 × 128 array of zeros the aggregation accumulates into. -/
def zeros : Feat := broadcastInDim S50000x128 ![] bcast_S_S50000x128 (constant (F := Ideal) S_ .f32 0x00000000#32)

/-- d: one over the larger of 1 and the number of edges arriving at each node. -/
def invDeg (dst : IVec S800000 32) : S50000.Idx → EReal :=
  Host.divf (F := Ideal) (broadcastInDim S50000 ![] bcast_S_S50000 (constant (F := Ideal) S_ .f32 0x3F800000#32))
    (maximumf (Host.scatterAdd (F := Ideal) scatter_S50000_S800000x1_S800000_n_0_0_1
        (broadcastInDim S50000 ![] bcast_S_S50000 (constant (F := Ideal) S_ .f32 0x00000000#32))
        (broadcastInDim S800000x1 ![0] bcast_S800000_S800000x1_0 dst)
        (broadcastInDim S800000 ![] bcast_S_S800000 (constant (F := Ideal) S_ .f32 0x3F800000#32)))
      (broadcastInDim S50000 ![] bcast_S_S50000 (constant (F := Ideal) S_ .f32 0x3F800000#32)))

/-- d as a 50000 × 1 column. -/
def invCol (dst : IVec S800000 32) : S50000x1.Idx → EReal := shapeCast S50000x1 (invDeg dst) shapeCasts_S50000_S50000x1

/-- The edge sources as gather indices: a negative one counted from the end of the 50000 rows. -/
def srcRows (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- agg(h): the rows of `h` at the edge sources, summed into the edge destinations' rows. -/
def agg (h : Feat) (src dst : IVec S800000 32) : Feat :=
  Host.scatterAdd (F := Ideal) (φ := .f32) scatter_S50000x128_S800000x1_S800000x128_1_0_0_1 zeros
    (broadcastInDim S800000x1 ![0] bcast_S800000_S800000x1_0 dst)
    (Host.gather gather_S50000x128_S800000x1_S800000x128_1_0_n_n_0_1_1128 h (srcRows src))

/-- The three matrices of the stack. -/
def ws0 (ws : S3x128x128.Idx → EReal) : S128x128.Idx → EReal :=
  shapeCast S128x128 (extractStridedSlice S1x128x128 ![0, 0, 0] ws slices_S3x128x128_S1x128x128_0_0_0) shapeCasts_S1x128x128_S128x128
def ws1 (ws : S3x128x128.Idx → EReal) : S128x128.Idx → EReal :=
  shapeCast S128x128 (extractStridedSlice S1x128x128 ![1, 0, 0] ws slices_S3x128x128_S1x128x128_1_0_0) shapeCasts_S1x128x128_S128x128
def ws2 (ws : S3x128x128.Idx → EReal) : S128x128.Idx → EReal :=
  shapeCast S128x128 (extractStridedSlice S1x128x128 ![2, 0, 0] ws slices_S3x128x128_S1x128x128_2_0_0) shapeCasts_S1x128x128_S128x128

/-- One aggregating layer: relu ((agg(h) scaled by d) · w). -/
def layer (h : Feat) (src dst : IVec S800000 32) (w : S128x128.Idx → EReal) : Feat :=
  lin (n := 50000) (scaleRows (agg h src dst) (invCol dst)) w

/-- The first layer and the three aggregating ones. -/
def h0 (x : Feat) (w : S128x128.Idx → EReal) : Feat := lin (n := 50000) x w
def h1 (x : Feat) (src dst : IVec S800000 32) (w : S128x128.Idx → EReal) (ws : S3x128x128.Idx → EReal) : Feat :=
  layer (h0 x w) src dst (ws0 ws)
def h2 (x : Feat) (src dst : IVec S800000 32) (w : S128x128.Idx → EReal) (ws : S3x128x128.Idx → EReal) : Feat :=
  layer (h1 x src dst w ws) src dst (ws1 ws)
def h3 (x : Feat) (src dst : IVec S800000 32) (w : S128x128.Idx → EReal) (ws : S3x128x128.Idx → EReal) : Feat :=
  layer (h2 x src dst w ws) src dst (ws2 ws)

/-- The network's result: the four layers' outputs side by side. -/
def net (x : Feat) (src dst : IVec S800000 32) (w : S128x128.Idx → EReal) (ws : S3x128x128.Idx → EReal) : S50000x512.Idx → EReal :=
  concatenate S50000x512 1 [⟨S50000x128, h0 x w⟩, ⟨S50000x128, h1 x src dst w ws⟩, ⟨S50000x128, h2 x src dst w ws⟩, ⟨S50000x128, h3 x src dst w ws⟩]
    concatenates_S50000x128_S50000x128_S50000x128_S50000x128_S50000x512_d1

end Cert.Net

end
-- ==== Proof.KResult.lean ====
/-
  What the kernel's program leaves: its result buffer holds the network function of the five arguments, and the
  arguments are as launched.

  The buffers' contents are followed boundary by boundary (`W1` … `W8` of the run).  A call replaces its output array by the
  dense-layer formula of its input arrays as it found them (the blocks-to-array lemmas) and leaves every other buffer; a
  host stretch replaces the buffers it writes by its operations' values of the buffers it reads and leaves the others.
  Read in order: the first call writes h₀; the first stretch makes d as a column, agg(h₀) and the first matrix of the stack,
  and a copy of h₀; the second call writes h₁ from those; and so on, until the last stretch sets the four copies side by
  side.  A change of float format along the way is the identity on the extended reals.
-/
import proofs.«138734_j81329500717447_2_alg».proof.Proof.KArgs
import proofs.«138734_j81329500717447_2_alg».proof.Proof.KBlocks
import proofs.«138734_j81329500717447_2_alg».proof.Proof.NetSpec
import Idealize.ShloMosaic.Lib.StableHlo.Run

set_option maxRecDepth 16384

noncomputable section

namespace Cert.KernelIdeal.Layers

open Idealize.ShloMosaic Idealize.ShloMosaic.TcCoe Idealize.ShloMosaic.StableHlo Idealize.SL.Sem
open Idealize.ShloMosaic.Pipeline (Dat)
open Cert.KernelIdeal Cert.KernelIdeal.Gen Cert.Dense Cert.Net

variable (m : (ℓ : Loc nD τ sig) → Buf (Elt Ideal) ℓ) (ρ : Dev nD → PrngReg) (c : Dev nD)

/-! ## After the first call: h₀ -/

theorem W1_v0 : W1 m ρ c (Proc.devRef .tc main_v0) = (h0 (m ((c : Thread nD τ).loc main_arg0)) (m ((c : Thread nD τ).loc main_arg3))) :=
  (W1_arr m ρ c 2).trans (whole0 (B0 m ρ) c)

/-! ## After the first stretch: d as a column, agg(h₀), the first matrix, a copy of h₀ -/

set_option maxHeartbeats 4000000 in
theorem W2_v9 : W2 m ρ c (Proc.devRef .tc main_v9) = (invCol (m ((c : Thread nD τ).loc main_arg2))) := by
  show StableHlo.after hostOps1 (W1 m ρ c) (Proc.devRef .tc main_v9) = _
  after_results_simp
  rw [W1_arg2 m ρ c]; rfl

set_option maxHeartbeats 4000000 in
theorem W2_v10 : W2 m ρ c (Proc.devRef .tc main_v10) = (h0 (m ((c : Thread nD τ).loc main_arg0)) (m ((c : Thread nD τ).loc main_arg3))) := by
  show StableHlo.after hostOps1 (W1 m ρ c) (Proc.devRef .tc main_v10) = _
  after_results_simp
  rw [W1_v0 m ρ c]; rfl
set_option maxHeartbeats 4000000 in
theorem W2_v21 : W2 m ρ c (Proc.devRef .tc main_v21) = agg (h0 (m ((c : Thread nD τ).loc main_arg0)) (m ((c : Thread nD τ).loc main_arg3))) (m ((c : Thread nD τ).loc main_arg1)) (m ((c : Thread nD τ).loc main_arg2)) := by
  show StableHlo.after hostOps1 (W1 m ρ c) (Proc.devRef .tc main_v21) = _
  after_results_simp
  rw [W1_v0 m ρ c, W1_arg1 m ρ c, W1_arg2 m ρ c]; rfl
set_option maxHeartbeats 4000000 in
theorem W2_v23 : W2 m ρ c (Proc.devRef .tc main_v23) = ws0 (m ((c : Thread nD τ).loc main_arg4)) := by
  show StableHlo.after hostOps1 (W1 m ρ c) (Proc.devRef .tc main_v23) = _
  after_results_simp
  rw [W1_arg4 m ρ c]; rfl

/-! ## After the second call: h₁ -/

theorem W3_v24 : W3 m ρ c (Proc.devRef .tc main_v24) = (h1 (m ((c : Thread nD τ).loc main_arg0)) (m ((c : Thread nD τ).loc main_arg1)) (m ((c : Thread nD τ).loc main_arg2)) (m ((c : Thread nD τ).loc main_arg3)) (m ((c : Thread nD τ).loc main_arg4))) := by
  refine (W3_arr m ρ c 3).trans ((whole1 (B2 m ρ) c).trans ?_)
  show lin (n := 50000) (scaleRows (W2 m ρ c (Proc.devRef .tc main_v21)) (W2 m ρ c (Proc.devRef .tc main_v9))) (W2 m ρ c (Proc.devRef .tc main_v23)) = _
  rw [W2_v21 m ρ c, W2_v9 m ρ c, W2_v23 m ρ c]; rfl

theorem W3_v10 : W3 m ρ c (Proc.devRef .tc main_v10) = (h0 (m ((c : Thread nD τ).loc main_arg0)) (m ((c : Thread nD τ).loc main_arg3))) :=
  (W3_of_ne m ρ c main_v10 (by decide)).trans (W2_v10 m ρ c)
theorem W3_v9 : W3 m ρ c (Proc.devRef .tc main_v9) = (invCol (m ((c : Thread nD τ).loc main_arg2))) :=
  ((W3_arr m ρ c 2).trans (((dat1 (B2 m ρ) c).arrAt_in 2 rfl _).trans (dat1_A (B2 m ρ) c 2))).trans (W2_v9 m ρ c)

/-! ## After the second stretch -/

set_option maxHeartbeats 4000000 in
theorem W4_v25 : W4 m ρ c (Proc.devRef .tc main_v25) = (h1 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps2 (W3 m ρ c) (Proc.devRef .tc main_v25) = _
  after_results_simp
  rw [W3_v24 m ρ c]; rfl
set_option maxHeartbeats 4000000 in
theorem W4_v36 : W4 m ρ c (Proc.devRef .tc main_v36) = agg (h1 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) := by
  show StableHlo.after hostOps2 (W3 m ρ c) (Proc.devRef .tc main_v36) = _
  after_results_simp
  rw [W3_v24 m ρ c, W3_arg1 m ρ c, W3_arg2 m ρ c]; rfl
set_option maxHeartbeats 4000000 in
theorem W4_v38 : W4 m ρ c (Proc.devRef .tc main_v38) = ws1 (m ((c : Thread nD τ).loc main_arg4)) := by
  show StableHlo.after hostOps2 (W3 m ρ c) (Proc.devRef .tc main_v38) = _
  after_results_simp
  rw [W3_arg4 m ρ c]; rfl

theorem W4_v10 : W4 m ρ c (Proc.devRef .tc main_v10) = (h0 (m ((c : Thread nD τ).loc main_arg0)) (m ((c : Thread nD τ).loc main_arg3))) :=
  (StableHlo.after_of_writes_sub hostOps2 _ hostOps2_writes (by decide : main_v10 ∉ hostOps2_W)).trans (W3_v10 m ρ c)
theorem W4_v9 : W4 m ρ c (Proc.devRef .tc main_v9) = (invCol (m ((c : Thread nD τ).loc main_arg2))) :=
  (StableHlo.after_of_writes_sub hostOps2 _ hostOps2_writes (by decide : main_v9 ∉ hostOps2_W)).trans (W3_v9 m ρ c)

/-! ## After the third call: h₂ -/

theorem W5_v39 : W5 m ρ c (Proc.devRef .tc main_v39) = (h2 (m ((c : Thread nD τ).loc main_arg0)) (m ((c : Thread nD τ).loc main_arg1)) (m ((c : Thread nD τ).loc main_arg2)) (m ((c : Thread nD τ).loc main_arg3)) (m ((c : Thread nD τ).loc main_arg4))) := by
  refine (W5_arr m ρ c 3).trans ((whole2 (B4 m ρ) c).trans ?_)
  show lin (n := 50000) (scaleRows (W4 m ρ c (Proc.devRef .tc main_v36)) (W4 m ρ c (Proc.devRef .tc main_v9))) (W4 m ρ c (Proc.devRef .tc main_v38)) = _
  rw [W4_v36 m ρ c, W4_v9 m ρ c, W4_v38 m ρ c]; rfl

theorem W5_v10 : W5 m ρ c (Proc.devRef .tc main_v10) = (h0 (m ((c : Thread nD τ).loc main_arg0)) (m ((c : Thread nD τ).loc main_arg3))) :=
  (W5_of_ne m ρ c main_v10 (by decide)).trans (W4_v10 m ρ c)
theorem W5_v25 : W5 m ρ c (Proc.devRef .tc main_v25) = (h1 (m ((c : Thread nD τ).loc main_arg0)) (m ((c : Thread nD τ).loc main_arg1)) (m ((c : Thread nD τ).loc main_arg2)) (m ((c : Thread nD τ).loc main_arg3)) (m ((c : Thread nD τ).loc main_arg4))) :=
  (W5_of_ne m ρ c main_v25 (by decide)).trans (W4_v25 m ρ c)
theorem W5_v9 : W5 m ρ c (Proc.devRef .tc main_v9) = (invCol (m ((c : Thread nD τ).loc main_arg2))) :=
  ((W5_arr m ρ c 2).trans (((dat2 (B4 m ρ) c).arrAt_in 2 rfl _).trans (dat2_A (B4 m ρ) c 2))).trans (W4_v9 m ρ c)

/-! ## After the third stretch -/

set_option maxHeartbeats 4000000 in
theorem W6_v40 : W6 m ρ c (Proc.devRef .tc main_v40) = (h2 (m ((c : Thread nD τ).loc main_arg0)) (m ((c : Thread nD τ).loc main_arg1)) (m ((c : Thread nD τ).loc main_arg2)) (m ((c : Thread nD τ).loc main_arg3)) (m ((c : Thread nD τ).loc main_arg4))) := by
  show StableHlo.after hostOps3 (W5 m ρ c) (Proc.devRef .tc main_v40) = _
  after_results_simp
  rw [W5_v39 m ρ c]; rfl
set_option maxHeartbeats 4000000 in
theorem W6_v51 : W6 m ρ c (Proc.devRef .tc main_v51) = agg (h2 (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg1)) (m ((c : Thread nD τ).loc main_arg2)) := by
  show StableHlo.after hostOps3 (W5 m ρ c) (Proc.devRef .tc main_v51) = _
  after_results_simp
  rw [W5_v39 m ρ c, W5_arg1 m ρ c, W5_arg2 m ρ c]; rfl
set_option maxHeartbeats 4000000 in
theorem W6_v53 : W6 m ρ c (Proc.devRef .tc main_v53) = ws2 (m ((c : Thread nD τ).loc main_arg4)) := by
  show StableHlo.after hostOps3 (W5 m ρ c) (Proc.devRef .tc main_v53) = _
  after_results_simp
  rw [W5_arg4 m ρ c]; rfl

theorem W6_v10 : W6 m ρ c (Proc.devRef .tc main_v10) = (h0 (m ((c : Thread nD τ).loc main_arg0)) (m ((c : Thread nD τ).loc main_arg3))) :=
  (StableHlo.after_of_writes_sub hostOps3 _ hostOps3_writes (by decide : main_v10 ∉ hostOps3_W)).trans (W5_v10 m ρ c)
theorem W6_v25 : W6 m ρ c (Proc.devRef .tc main_v25) = (h1 (m ((c : Thread nD τ).loc main_arg0)) (m ((c : Thread nD τ).loc main_arg1)) (m ((c : Thread nD τ).loc main_arg2)) (m ((c : Thread nD τ).loc main_arg3)) (m ((c : Thread nD τ).loc main_arg4))) :=
  (StableHlo.after_of_writes_sub hostOps3 _ hostOps3_writes (by decide : main_v25 ∉ hostOps3_W)).trans (W5_v25 m ρ c)
theorem W6_v9 : W6 m ρ c (Proc.devRef .tc main_v9) = (invCol (m ((c : Thread nD τ).loc main_arg2))) :=
  (StableHlo.after_of_writes_sub hostOps3 _ hostOps3_writes (by decide : main_v9 ∉ hostOps3_W)).trans (W5_v9 m ρ c)

/-! ## After the fourth call: h₃ -/

theorem W7_v54 : W7 m ρ c (Proc.devRef .tc main_v54) = (h3 (m ((c : Thread nD τ).loc main_arg0)) (m ((c : Thread nD τ).loc main_arg1)) (m ((c : Thread nD τ).loc main_arg2)) (m ((c : Thread nD τ).loc main_arg3)) (m ((c : Thread nD τ).loc main_arg4))) := by
  refine (W7_arr m ρ c 3).trans ((whole3 (B6 m ρ) c).trans ?_)
  show lin (n := 50000) (scaleRows (W6 m ρ c (Proc.devRef .tc main_v51)) (W6 m ρ c (Proc.devRef .tc main_v9))) (W6 m ρ c (Proc.devRef .tc main_v53)) = _
  rw [W6_v51 m ρ c, W6_v9 m ρ c, W6_v53 m ρ c]; rfl

theorem W7_v10 : W7 m ρ c (Proc.devRef .tc main_v10) = (h0 (m ((c : Thread nD τ).loc main_arg0)) (m ((c : Thread nD τ).loc main_arg3))) :=
  (W7_of_ne m ρ c main_v10 (by decide)).trans (W6_v10 m ρ c)
theorem W7_v25 : W7 m ρ c (Proc.devRef .tc main_v25) = (h1 (m ((c : Thread nD τ).loc main_arg0)) (m ((c : Thread nD τ).loc main_arg1)) (m ((c : Thread nD τ).loc main_arg2)) (m ((c : Thread nD τ).loc main_arg3)) (m ((c : Thread nD τ).loc main_arg4))) :=
  (W7_of_ne m ρ c main_v25 (by decide)).trans (W6_v25 m ρ c)
theorem W7_v40 : W7 m ρ c (Proc.devRef .tc main_v40) = (h2 (m ((c : Thread nD τ).loc main_arg0)) (m ((c : Thread nD τ).loc main_arg1)) (m ((c : Thread nD τ).loc main_arg2)) (m ((c : Thread nD τ).loc main_arg3)) (m ((c : Thread nD τ).loc main_arg4))) :=
  (W7_of_ne m ρ c main_v40 (by decide)).trans (W6_v40 m ρ c)

/-! ## The result -/

set_option maxHeartbeats 4000000 in
/-- The last stretch sets the four layers' outputs side by side. -/
theorem W8_concat : W8 m ρ c (Proc.devRef .tc main_v56) =
    (concatenate S50000x512 1 [⟨S50000x128, (W7 m ρ c (Proc.devRef .tc main_v10) : S50000x128.Idx → EReal)⟩,
        ⟨S50000x128, (W7 m ρ c (Proc.devRef .tc main_v25) : S50000x128.Idx → EReal)⟩,
        ⟨S50000x128, (W7 m ρ c (Proc.devRef .tc main_v40) : S50000x128.Idx → EReal)⟩,
        ⟨S50000x128, (extf (F := Ideal) (s := S50000x128) .f32 (W7 m ρ c (Proc.devRef .tc main_v54)) bitsLt_bf16_f32 : S50000x128.Idx → EReal)⟩]
      concatenates_S50000x128_S50000x128_S50000x128_S50000x128_S50000x512_d1 : S50000x512.Idx → EReal) := by
  show StableHlo.after hostOps4 (W7 m ρ c) (Proc.devRef .tc main_v56) = _
  after_results_simp <;> rfl

/-- The result buffer at the end holds the network function of the arguments as launched. -/
theorem W8_result : W8 m ρ c (Proc.devRef .tc main_v56) = net (m ((c : Thread nD τ).loc main_arg0)) (m ((c : Thread nD τ).loc main_arg1)) (m ((c : Thread nD τ).loc main_arg2)) (m ((c : Thread nD τ).loc main_arg3)) (m ((c : Thread nD τ).loc main_arg4)) := by
  rw [W8_concat m ρ c, W7_v10 m ρ c, W7_v25 m ρ c, W7_v40 m ρ c, W7_v54 m ρ c]; rfl

end Cert.KernelIdeal.Layers

end
-- ==== Proof.RefDense.lean ====
/-
  The reference's two array expressions of one layer, as the dense layer of DenseSpec on all 50000 rows.

  On the extended reals the host's product of the 50000×128 features x with the 128×128 weights w is, at row p and
  column q, the sum over the contracted coordinate ∑ k, x(p,k) · w(k,q) — the same sum over the contraction index
  that a vector program's product accumulated into the zero splat computes —, and the zero scalar broadcast to the
  whole array reads 0 everywhere: their maximum is `lin x w`.  The aggregating layers scale the features first: the
  vector d of 50000 numbers is broadcast to a 50000×1 column and then along the rows, so the factor at (r,k) is
  d(r); the same vector viewed as a 50000×1 column by a shape cast reads d(r) at (r,0), both arrays being laid out
  row after row, so the product is `scaleRows a` of that column.
-/
import proofs.«138734_j81329500717447_2_alg».proof.Proof.DenseSpec
import proofs.«138734_j81329500717447_2_alg».proof.Proof.LibGateOps
import proofs.«138734_j81329500717447_2_alg».proof.ReferenceIdeal
import proofs.«138734_j81329500717447_2_alg».proof.Proof.Gen.ReferenceIdeal
import Idealize.ShloMosaic.PureOps.Ideal.Laws
import Idealize.ShloMosaic.Lib.Pipeline.Value
noncomputable section
open Idealize.ShloMosaic Idealize.ShloMosaic.ValueIdx Cert.Dense

namespace Cert.RefDense
open Cert.ReferenceIdeal Cert.ReferenceIdeal.Facts₀ Cert.ReferenceIdeal.Facts

/-- The host's product of an m×k by a k×n matrix read at entry (a, b): at the ideal values it is the same sum over
    the contraction index as the vector program's product accumulated into the zero splat, hence the sum over the
    contracted coordinate. -/
theorem dotGeneral_plain_apply {m k n : ℕ}
    (w : DotDims.WF ⟨2, ![m, k]⟩ ⟨2, ![k, n]⟩ ⟨2, ![m, n]⟩ [1] [0] [0] [1] [] [])
    (A : FVec Ideal ⟨2, ![m, k]⟩ .f32) (B : FVec Ideal ⟨2, ![k, n]⟩ .f32) (a : Fin m) (b : Fin n) :
    Host.dotGeneral (⟨[1], [0], [0], [1], [], [], w⟩ : DotDims ⟨2, ![m, k]⟩ ⟨2, ![k, n]⟩ ⟨2, ![m, n]⟩) none A B (ix2 a b)
      = ∑ c : Fin k, A (ix2 a c) * B (ix2 c b) := by
  show FloatOps.dotGeneral _ none .single A B (ix2 a b) = _
  rw [Ideal.dotGeneral_apply, ← Ideal.matmul_constant_zero_apply _ none]
  exact Cert.GateOps.matmul_plain_apply w A B a b

/-- The layer without aggregation: the larger of the host's product and the broadcast zero is `lin x w`. -/
theorem ref_dense (x : FVec Ideal S50000x128 .f32) (w : FVec Ideal S128x128 .f32) :
    maximumf (Host.dotGeneral dot_S50000x128_S128x128_S50000x128_1_0_0_1_n_n none x w)
      (broadcastInDim S50000x128 ![] bcast_S_S50000x128 (constant S_ .f32 0x00000000#32))
    = lin (n := 50000) x w := by
  funext i
  obtain ⟨p, q, rfl⟩ : ∃ (p : Fin 50000) (q : Fin 128), i = ix2 p q := ⟨i 0, i 1, eq_ix2 i⟩
  rw [lin_apply]
  show max (Host.dotGeneral dot_S50000x128_S128x128_S50000x128_1_0_0_1_n_n none x w (ix2 p q))
    (broadcastInDim S50000x128 ![] bcast_S_S50000x128 (constant (F := Ideal) S_ .f32 0x00000000#32) (ix2 p q)) = _
  rw [broadcastInDim_apply ![] bcast_S_S50000x128 (constant (F := Ideal) S_ .f32 0x00000000#32) (ix2 p q) ix0
    (fun a => a.elim0)]
  rw [constant_apply, Ideal.ofBits_zero_f32]
  refine congrArg (max · 0) ?_
  exact dotGeneral_plain_apply _ x w p q

/-- The scaling of the rows: multiplying by the vector `d` broadcast through a 50000×1 column is `scaleRows` by the
    column that `d` is under a shape cast. -/
theorem ref_scale (a : FVec Ideal S50000x128 .f32) (d : FVec Ideal S50000 .f32) (hc : S50000.ShapeCasts S50000x1) :
    mulf a (broadcastInDim S50000x128 ![0, 1] bcast_S50000x1_S50000x128_0_1 (broadcastInDim S50000x1 ![0] bcast_S50000_S50000x1_0 d))
    = scaleRows (n := 50000) a (shapeCast S50000x1 d hc) := by
  funext i
  obtain ⟨r, k, rfl⟩ : ∃ (r : Fin 50000) (k : Fin 128), i = ix2 r k := ⟨i 0, i 1, eq_ix2 i⟩
  rw [scaleRows_apply]
  show a (ix2 r k) * broadcastInDim S50000x128 ![0, 1] bcast_S50000x1_S50000x128_0_1
    (broadcastInDim S50000x1 ![0] bcast_S50000_S50000x1_0 d) (ix2 r k) = _
  refine congrArg (a (ix2 r k) * ·) ?_
  have h1 : broadcastInDim S50000x128 ![0, 1] bcast_S50000x1_S50000x128_0_1
      (broadcastInDim S50000x1 ![0] bcast_S50000_S50000x1_0 d) (ix2 r k)
      = broadcastInDim S50000x1 ![0] bcast_S50000_S50000x1_0 d (ix2 r (0 : Fin 1)) :=
    broadcastInDim_apply ![0, 1] bcast_S50000x1_S50000x128_0_1 _ (ix2 r k) (ix2 r (0 : Fin 1)) fun ax => by
      match ax with
      | ⟨0, _⟩ =>
        show r.val = if (50000 : ℕ) = 1 then 0 else r.val
        rw [if_neg (by omega)]
      | ⟨1, _⟩ => rfl
  have h2 : broadcastInDim S50000x1 ![0] bcast_S50000_S50000x1_0 d (ix2 r (0 : Fin 1)) = d (ix1 r) :=
    broadcastInDim_apply ![0] bcast_S50000_S50000x1_0 d (ix2 r (0 : Fin 1)) (ix1 r) fun ax => by
      match ax with
      | ⟨0, _⟩ =>
        show r.val = if (50000 : ℕ) = 1 then 0 else r.val
        rw [if_neg (by omega)]
  have h3 : shapeCast S50000x1 d hc (ix2 r (0 : Fin 1)) = d (ix1 r) :=
    shapeCast_apply d hc (ix2 r (0 : Fin 1)) (ix1 r) (by
      rw [Shape.rowMajor_val_one, Shape.rowMajor_val_two]
      show r.val = r.val * 1 + 0
      omega)
  exact h1.trans (h2.trans h3.symm)

end Cert.RefDense

end
-- ==== Proof.RefResult.lean ====
/-
  The reference's run ends with its result buffer at the network function of its five arguments.

  The generated run states the result as one composed term of host operations.  In that term every dense layer appears
  as a rectified matrix product, the aggregating ones with the reciprocal in-degrees broadcast along the rows and multiplied
  in first; read at an index each is the explicit sum of `Cert.Dense.lin` (of `scaleRows`), and with the layers so rewritten
  the term is, operation by operation, the network function `Cert.Net.net`.
-/
import proofs.«138734_j81329500717447_2_alg».proof.Proof.Gen.ReferenceIdeal.Run
import proofs.«138734_j81329500717447_2_alg».proof.Proof.RefDense
import proofs.«138734_j81329500717447_2_alg».proof.Proof.NetSpec

noncomputable section

namespace Cert.RefNet

open Idealize.ShloMosaic Idealize.ShloMosaic.TcCoe Idealize.SL.Sem
open Cert.ReferenceIdeal Cert.ReferenceIdeal.Gen Cert.ReferenceIdeal.Value Cert.Dense Cert.Net Cert.RefDense

/-- The run's result term is the network function of the launch contents of the arguments. -/
theorem result_is_net (m : (ℓ : Loc nD τ sig) → Buf (Elt Ideal) ℓ) (c : Dev nD) :
    res_main_v61 (F := Ideal) m c = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold res_main_v61
  rw [ref_dense (m ((c.tc : Thread nD τ).loc main_arg0)) (m ((c.tc : Thread nD τ).loc main_arg3))]
  repeat (first | rw [ref_scale _ _ Cert.KernelIdeal.Facts₀.shapeCasts_S50000_S50000x1] | rw [ref_dense])
  rfl

/-- Every weakly fair execution of the reference terminates with the result buffer at the network function of the
    arguments and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v61) = net (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (result_is_net m c), (h c).2⟩) (Cert.ReferenceIdeal.Value.run (F := Ideal) m ρ)

end Cert.RefNet

end
-- ==== Proof.lean ====
/-
  A three-layer mean-aggregating graph network on 50000 nodes and 800000 edges: the kernel's program against its
  plain reference, equal on the extended reals.

  Both programs compute, from node features x, edge lists src and dst, a weight matrix w and a stack ws of three more,

      h₀ = relu (x · w),      hₖ₊₁ = relu ((agg(hₖ) · d) · wsₖ),      result = h₀ h₁ h₂ h₃ side by side,

  where agg gathers rows at the edge sources and sums them into the edge destinations' rows and d is the reciprocal of
  the larger of 1 and the in-degree (`Cert.Net.net`).  The kernel's program runs each dense layer as a call over 25
  blocks of 2000 rows — the scaling by d inside the call, the products' operands passed through a narrower float
  format, which is the identity on the extended reals — and the gather and the scatters on the host between the calls;
  the reference runs everything on the host.  The two agree operation by operation once a dense layer is read at an
  index as the explicit sum `Cert.Dense.lin`: no law of arithmetic beyond the definitions of the matrix products is
  used, so the precondition (finite inputs) is never opened.

  The frames: each of the kernel's two programs is four calls among host stretches; each call's body reads its input
  blocks whole and stores one value over its whole output block, so the launch theorem for a sequence of calls and host
  stretches applies with the class-A proof data of each call (`Layers.run_to_W8`), and no stretch or call writes an
  argument (`Layers.W8_arg…`).  The reference's frame is its generated run with the result dropped.  The ideal pass
  rewrote nothing, so `preserves` asks nothing.
-/
import proofs.«138734_j81329500717447_2_alg».proof.Defs
import proofs.«138734_j81329500717447_2_alg».proof.Proof.Gen.Kernel
import proofs.«138734_j81329500717447_2_alg».proof.Proof.Gen.KernelIdeal
import proofs.«138734_j81329500717447_2_alg».proof.Proof.Gen.ReferenceIdeal
import proofs.«138734_j81329500717447_2_alg».proof.Proof.Gen.Pre_finite_inputs
import proofs.«138734_j81329500717447_2_alg».proof.Proof.Gen.ReferenceIdeal.Run
import proofs.«138734_j81329500717447_2_alg».proof.Proof.BArgs
import proofs.«138734_j81329500717447_2_alg».proof.Proof.KArgs
import proofs.«138734_j81329500717447_2_alg».proof.Proof.KResult
import proofs.«138734_j81329500717447_2_alg».proof.Proof.RefResult
import Idealize.ShloMosaic.Adequacy
import Idealize.ShloMosaic.Init

noncomputable section

namespace Cert.Proof

open Idealize.ShloMosaic Idealize.ShloMosaic.TcCoe Idealize.SL.Sem

/-- The word-level program runs to the end, faults nowhere and leaves its arguments as launched. -/
theorem frame_kernel : Cert.frame_Kernel := fun m ρ _ =>
  (θ_run Cert.Kernel.defs _ _).mono (fun r h c =>
    ⟨(h c _ (Cert.Kernel.Layers.mem_uc Cert.Kernel.main_arg0 (by decide))).trans (Cert.Kernel.Layers.W8_arg0 m ρ c),
     (h c _ (Cert.Kernel.Layers.mem_uc Cert.Kernel.main_arg1 (by decide))).trans (Cert.Kernel.Layers.W8_arg1 m ρ c),
     (h c _ (Cert.Kernel.Layers.mem_uc Cert.Kernel.main_arg2 (by decide))).trans (Cert.Kernel.Layers.W8_arg2 m ρ c),
     (h c _ (Cert.Kernel.Layers.mem_uc Cert.Kernel.main_arg3 (by decide))).trans (Cert.Kernel.Layers.W8_arg3 m ρ c),
     (h c _ (Cert.Kernel.Layers.mem_uc Cert.Kernel.main_arg4 (by decide))).trans (Cert.Kernel.Layers.W8_arg4 m ρ c)⟩)
    (Cert.Kernel.Layers.run_to_W8 m ρ)

/-- The same for its idealization. -/
theorem frame_kernelIdeal : Cert.frame_KernelIdeal := fun m ρ _ =>
  (θ_run Cert.KernelIdeal.defs _ _).mono (fun r h c =>
    ⟨(h c _ (Cert.KernelIdeal.Layers.mem_uc Cert.KernelIdeal.main_arg0 (by decide))).trans (Cert.KernelIdeal.Layers.W8_arg0 m ρ c),
     (h c _ (Cert.KernelIdeal.Layers.mem_uc Cert.KernelIdeal.main_arg1 (by decide))).trans (Cert.KernelIdeal.Layers.W8_arg1 m ρ c),
     (h c _ (Cert.KernelIdeal.Layers.mem_uc Cert.KernelIdeal.main_arg2 (by decide))).trans (Cert.KernelIdeal.Layers.W8_arg2 m ρ c),
     (h c _ (Cert.KernelIdeal.Layers.mem_uc Cert.KernelIdeal.main_arg3 (by decide))).trans (Cert.KernelIdeal.Layers.W8_arg3 m ρ c),
     (h c _ (Cert.KernelIdeal.Layers.mem_uc Cert.KernelIdeal.main_arg4 (by decide))).trans (Cert.KernelIdeal.Layers.W8_arg4 m ρ c)⟩)
    (Cert.KernelIdeal.Layers.run_to_W8 m ρ)

/-- The reference's frame: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments both idealized programs end with the result buffer at the network function
    of those arguments. -/
theorem algebraic : Cert.algebraic_KernelIdeal_ReferenceIdeal := by
  intro m ρ m' ρ' _ hagree
  refine ⟨fun c => Cert.Net.net (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)), ?_, ?_⟩
  · exact (θ_run Cert.KernelIdeal.defs _ _).mono (fun r h c =>
      ⟨(h c _ (Cert.KernelIdeal.Layers.mem_uc Cert.KernelIdeal.main_v56 (by decide))).trans (Cert.KernelIdeal.Layers.W8_result m ρ c),
       (h c _ (Cert.KernelIdeal.Layers.mem_uc Cert.KernelIdeal.main_arg0 (by decide))).trans (Cert.KernelIdeal.Layers.W8_arg0 m ρ c),
       (h c _ (Cert.KernelIdeal.Layers.mem_uc Cert.KernelIdeal.main_arg1 (by decide))).trans (Cert.KernelIdeal.Layers.W8_arg1 m ρ c),
       (h c _ (Cert.KernelIdeal.Layers.mem_uc Cert.KernelIdeal.main_arg2 (by decide))).trans (Cert.KernelIdeal.Layers.W8_arg2 m ρ c),
       (h c _ (Cert.KernelIdeal.Layers.mem_uc Cert.KernelIdeal.main_arg3 (by decide))).trans (Cert.KernelIdeal.Layers.W8_arg3 m ρ c),
       (h c _ (Cert.KernelIdeal.Layers.mem_uc Cert.KernelIdeal.main_arg4 (by decide))).trans (Cert.KernelIdeal.Layers.W8_arg4 m ρ c)⟩)
      (Cert.KernelIdeal.Layers.run_to_W8 m ρ)
  · refine (θ_run Cert.ReferenceIdeal.defs _ _).mono (fun _ h c => ⟨(h c).1.trans ?_, (h c).2⟩) (Cert.RefNet.run m' ρ')
    rw [(hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
